-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg23 : FVec F S128x128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  main_v108

def fn_part5 {F : FTy → Type} [FloatOps F] (main_arg20 : FVec F S128x128 .f32) (main_arg21 : FVec F S128x128 .f32) (main_arg22 : FVec F S128 .f32) (main_arg23 : FVec F S128x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x256 .f32) (main_arg1 : FVec F S100000x256 .f32) (main_arg2 : IVec S2x600000 32) (main_arg3 : IVec S2x600000 32) (main_arg4 : FVec F S128x256 .f32) (main_arg5 : FVec F S128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x256 : Shape := ⟨2, ![100000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S100000x128 : Shape := ⟨2, ![100000, 128]⟩
abbrev S2000x256 : Shape := ⟨2, ![2000, 256]⟩
abbrev S2000x128 : Shape := ⟨2, ![2000, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S2000 : Shape := ⟨1, ![2000]⟩
abbrev S2000x1 : Shape := ⟨2, ![2000, 1]⟩
abbrev S1x100000x128 : Shape := ⟨3, ![1, 100000, 128]⟩
abbrev S2x100000x128 : Shape := ⟨3, ![2, 100000, 128]⟩

abbrev nBuf : Space → Nat
  | .hbm => 159
  | .vmem => 56
  | .smem => 0
  | _ => 0

abbrev hbmTy0_0 (i : Nat) : BufTy := match i % 128 with
  | 0 => ⟨S100000x256, .f32⟩
  | 1 => ⟨S100000x256, .f32⟩
  | 2 => ⟨S2x600000, .i32⟩
  | 3 => ⟨S2x600000, .i32⟩
  | 4 => ⟨S128x256, .f32⟩
  | 5 => ⟨S128, .f32⟩
  | 6 => ⟨S128x256, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S1x128, .f32⟩
  | 25 => ⟨S100000x128, .f32⟩
  | 26 => ⟨S1x128, .f32⟩
  | 27 => ⟨S100000x128, .f32⟩
  | 28 => ⟨S1x600000, .i32⟩
  | 29 => ⟨S600000, .i32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S1x600000, .i32⟩
  | 40 => ⟨S600000, .i32⟩
  | 41 => ⟨S_, .f32⟩
  | 42 => ⟨S100000x128, .f32⟩
  | 43 => ⟨S600000x1, .i32⟩
  | 44 => ⟨S100000x128, .f32⟩
  | 45 => ⟨S_, .f32⟩
  | 46 => ⟨S600000x1, .f32⟩
  | 47 => ⟨S_, .f32⟩
  | 48 => ⟨S100000x1, .f32⟩
  | 49 => ⟨S600000x1, .i32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S1x600000, .i32⟩
  | 57 => ⟨S600000, .i32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S1x600000, .i32⟩
  | 68 => ⟨S600000, .i32⟩
  | 69 => ⟨S_, .f32⟩
  | 70 => ⟨S100000x128, .f32⟩
  | 71 => ⟨S600000x1, .i32⟩
  | 72 => ⟨S100000x128, .f32⟩
  | 73 => ⟨S_, .f32⟩
  | 74 => ⟨S600000x1, .f32⟩
  | 75 => ⟨S_, .f32⟩
  | 76 => ⟨S100000x1, .f32⟩
  | 77 => ⟨S600000x1, .i32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S1x128, .f32⟩
  | 85 => ⟨S1x128, .f32⟩
  | 86 => ⟨S1x128, .f32⟩
  | 87 => ⟨S100000x128, .f32⟩
  | 88 => ⟨S1x128, .f32⟩
  | 89 => ⟨S1x128, .f32⟩
  | 90 => ⟨S1x128, .f32⟩
  | 91 => ⟨S100000x128, .f32⟩
  | 92 => ⟨S1x600000, .i32⟩
  | 93 => ⟨S600000, .i32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S1x600000, .i32⟩
  | 104 => ⟨S600000, .i32⟩
  | 105 => ⟨S_, .f32⟩
  | 106 => ⟨S100000x128, .f32⟩
  | 107 => ⟨S600000x1, .i32⟩
  | 108 => ⟨S100000x128, .f32⟩
  | 109 => ⟨S_, .f32⟩
  | 110 => ⟨S600000x1, .f32⟩
  | 111 => ⟨S_, .f32⟩
  | 112 => ⟨S100000x1, .f32⟩
  | 113 => ⟨S600000x1, .i32⟩
  | 114 => ⟨S100000x1, .f32⟩
  | 115 => ⟨S_, .f32⟩
  | 116 => ⟨S100000x1, .f32⟩
  | 117 => ⟨S100000x1, .f32⟩
  | 118 => ⟨S100000x128, .f32⟩
  | 119 => ⟨S100000x128, .f32⟩
  | 120 => ⟨S1x600000, .i32⟩
  | 121 => ⟨S600000, .i32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S100000x256, .f32⟩

abbrev hbmTy0_1 (i : Nat) : BufTy := match i % 128 with
  | 0 => ⟨S600000, .i32⟩
  | 1 => ⟨S600000x1, .i32⟩
  | 2 => ⟨S600000x128, .f32⟩
  | 3 => ⟨S1x600000, .i32⟩
  | 4 => ⟨S600000, .i32⟩
  | 5 => ⟨S_, .f32⟩
  | 6 => ⟨S100000x128, .f32⟩
  | 7 => ⟨S600000x1, .i32⟩
  | 8 => ⟨S100000x128, .f32⟩
  | 9 => ⟨S_, .f32⟩
  | 10 => ⟨S600000x1, .f32⟩
  | 11 => ⟨S_, .f32⟩
  | 12 => ⟨S100000x1, .f32⟩
  | 13 => ⟨S600000x1, .i32⟩
  | 14 => ⟨S100000x1, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S1x128, .f32⟩
  | 21 => ⟨S1x128, .f32⟩
  | 22 => ⟨S1x128, .f32⟩
  | 23 => ⟨S100000x128, .f32⟩
  | 24 => ⟨S1x128, .f32⟩
  | 25 => ⟨S1x128, .f32⟩
  | 26 => ⟨S1x128, .f32⟩
  | 27 => ⟨S100000x128, .f32⟩
  | 28 => ⟨S1x100000x128, .f32⟩
  | 29 => ⟨S1x100000x128, .f32⟩
  | 30 => ⟨S2x100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S128x256, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x256, .f32⟩
  | .local _ .vmem, ⟨7, _⟩ => ⟨S2000x256, .f32⟩
  | .local _ .vmem, ⟨8, _⟩ => ⟨S128x256, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_12 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_cst_14 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_15 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_16 : Ref sig .tc := ⟨.hbm, 122, rfl⟩
abbrev main_v80 : Ref sig .tc := ⟨.hbm, 123, rfl⟩
abbrev main_v81 : Ref sig .tc := ⟨.hbm, 124, rfl⟩
abbrev main_c_17 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_18 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_cst_20 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_21 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S2000x128_S2000 : S2000x128.Reduces [1] S2000
  shapeCasts_S2000_S2000x1 : S2000.ShapeCasts S2000x1
  broadcasts_S2000x1_S2000x128 : S2000x1.Broadcasts S2000x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  dot_S2000x256_S256x128_S2000x128_1_0_0_1_n_n_wf : DotDims.WF S2000x256 S256x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S100000x128.size a
  hwx4_7 : ∀ i : grid4.Coords, EltTy.bits .f32 = 32 ∨ (Rect.block (s := S100000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S100000x128.size a
  hwx5_7 : ∀ i : grid5.Coords, EltTy.bits .f32 = 32 ∨ (Rect.block (s := S100000x128) S2000x128.size (cc5_transform_7 i) (hinb5_7 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v77) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg20) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v102) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v103) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v99) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg23) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v107) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S256x128 : Shape := ⟨2, ![256, 128]⟩
abbrev S100000x128 : Shape := ⟨2, ![100000, 128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S100000x1 : Shape := ⟨2, ![100000, 1]⟩
abbrev S100000 : Shape := ⟨1, ![100000]⟩
abbrev S1x100000x128 : Shape := ⟨3, ![1, 100000, 128]⟩
abbrev S2x100000x128 : Shape := ⟨3, ![2, 100000, 128]⟩

abbrev nBuf : Space → Nat
  | .hbm => 313
  | .vmem => 0
  | .smem => 0
  | _ => 0

abbrev hbmTy0_0 (i : Nat) : BufTy := match i % 128 with
  | 0 => ⟨S100000x256, .f32⟩
  | 1 => ⟨S100000x256, .f32⟩
  | 2 => ⟨S2x600000, .i32⟩
  | 3 => ⟨S2x600000, .i32⟩
  | 4 => ⟨S128x256, .f32⟩
  | 5 => ⟨S128, .f32⟩
  | 6 => ⟨S128x256, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S256x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S256x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S1x600000, .i32⟩
  | 41 => ⟨S600000, .i32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S1x600000, .i32⟩
  | 52 => ⟨S600000, .i32⟩
  | 53 => ⟨S_, .f32⟩
  | 54 => ⟨S100000x128, .f32⟩
  | 55 => ⟨S600000x1, .i32⟩
  | 56 => ⟨S100000x128, .f32⟩
  | 57 => ⟨S_, .f32⟩
  | 58 => ⟨S600000x1, .f32⟩
  | 59 => ⟨S_, .f32⟩
  | 60 => ⟨S100000x1, .f32⟩
  | 61 => ⟨S600000x1, .i32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S128x128, .f32⟩
  | 69 => ⟨S100000x128, .f32⟩
  | 70 => ⟨S1x128, .f32⟩
  | 71 => ⟨S100000x128, .f32⟩
  | 72 => ⟨S100000x128, .f32⟩
  | 73 => ⟨S128x128, .f32⟩
  | 74 => ⟨S100000x128, .f32⟩
  | 75 => ⟨S100000x128, .f32⟩
  | 76 => ⟨S1x600000, .i32⟩
  | 77 => ⟨S600000, .i32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S1x600000, .i32⟩
  | 88 => ⟨S600000, .i32⟩
  | 89 => ⟨S_, .f32⟩
  | 90 => ⟨S100000x128, .f32⟩
  | 91 => ⟨S600000x1, .i32⟩
  | 92 => ⟨S100000x128, .f32⟩
  | 93 => ⟨S_, .f32⟩
  | 94 => ⟨S600000x1, .f32⟩
  | 95 => ⟨S_, .f32⟩
  | 96 => ⟨S100000x1, .f32⟩
  | 97 => ⟨S600000x1, .i32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S128x128, .f32⟩
  | 105 => ⟨S100000x128, .f32⟩
  | 106 => ⟨S1x128, .f32⟩
  | 107 => ⟨S100000x128, .f32⟩
  | 108 => ⟨S100000x128, .f32⟩
  | 109 => ⟨S128x128, .f32⟩
  | 110 => ⟨S100000x128, .f32⟩
  | 111 => ⟨S100000x128, .f32⟩
  | 112 => ⟨S100000x128, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x128, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x256, .f32⟩

abbrev hbmTy0_1 (i : Nat) : BufTy := match i % 128 with
  | 0 => ⟨S100000x128, .f32⟩
  | 1 => ⟨S100000x128, .f32⟩
  | 2 => ⟨S_, .f32⟩
  | 3 => ⟨S100000x1, .f32⟩
  | 4 => ⟨S100000x1, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S100000, .f32⟩
  | 17 => ⟨S100000x1, .f32⟩
  | 18 => ⟨S_, .f32⟩
  | 19 => ⟨S100000x1, .f32⟩
  | 20 => ⟨S100000x1, .f32⟩
  | 21 => ⟨S100000x128, .f32⟩
  | 22 => ⟨S100000x128, .f32⟩
  | 23 => ⟨S100000x128, .f32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S_, .f32⟩
  | 33 => ⟨S100000x1, .f32⟩
  | 34 => ⟨S100000x1, .f32⟩
  | 35 => ⟨S100000x1, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S1x600000, .i32⟩
  | 51 => ⟨S600000, .i32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S1x600000, .i32⟩
  | 62 => ⟨S600000, .i32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S600000x1, .f32⟩
  | 69 => ⟨S_, .f32⟩
  | 70 => ⟨S100000x1, .f32⟩
  | 71 => ⟨S600000x1, .i32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S128x128, .f32⟩
  | 79 => ⟨S100000x128, .f32⟩
  | 80 => ⟨S1x128, .f32⟩
  | 81 => ⟨S100000x128, .f32⟩
  | 82 => ⟨S100000x128, .f32⟩
  | 83 => ⟨S128x128, .f32⟩
  | 84 => ⟨S100000x128, .f32⟩
  | 85 => ⟨S100000x128, .f32⟩
  | 86 => ⟨S1x600000, .i32⟩
  | 87 => ⟨S600000, .i32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S1x600000, .i32⟩
  | 98 => ⟨S600000, .i32⟩
  | 99 => ⟨S_, .f32⟩
  | 100 => ⟨S100000x128, .f32⟩
  | 101 => ⟨S600000x1, .i32⟩
  | 102 => ⟨S100000x128, .f32⟩
  | 103 => ⟨S_, .f32⟩
  | 104 => ⟨S600000x1, .f32⟩
  | 105 => ⟨S_, .f32⟩
  | 106 => ⟨S100000x1, .f32⟩
  | 107 => ⟨S600000x1, .i32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S128x128, .f32⟩
  | 120 => ⟨S100000x128, .f32⟩
  | 121 => ⟨S100000x128, .f32⟩
  | 122 => ⟨S100000x128, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x256, .f32⟩

abbrev hbmTy0_2 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x128, .f32⟩
  | 11 => ⟨S100000x128, .f32⟩
  | 12 => ⟨S_, .f32⟩
  | 13 => ⟨S100000x1, .f32⟩
  | 14 => ⟨S100000x1, .f32⟩
  | 15 => ⟨S100000x1, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S100000x128, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x128, .f32⟩
  | 32 => ⟨S100000x128, .f32⟩
  | 33 => ⟨S100000x128, .f32⟩
  | 34 => ⟨S_, .f32⟩
  | 35 => ⟨S100000, .f32⟩
  | 36 => ⟨S100000x1, .f32⟩
  | 37 => ⟨S_, .f32⟩
  | 38 => ⟨S100000x1, .f32⟩
  | 39 => ⟨S100000x1, .f32⟩
  | 40 => ⟨S100000x128, .f32⟩
  | 41 => ⟨S100000x128, .f32⟩
  | 42 => ⟨S_, .f32⟩
  | 43 => ⟨S100000x1, .f32⟩
  | 44 => ⟨S100000x1, .f32⟩
  | 45 => ⟨S100000x1, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x100000x128, .f32⟩
  | 55 => ⟨S1x100000x128, .f32⟩
  | 56 => ⟨S2x100000x128, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call1_cst : Ref sig .tc := ⟨.hbm, 37, rfl⟩
abbrev main_call1_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_c_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_1 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_4 : Ref sig .tc := ⟨.hbm, 78, rfl⟩
abbrev main_v44 : Ref sig .tc := ⟨.hbm, 79, rfl⟩
abbrev main_v45 : Ref sig .tc := ⟨.hbm, 80, rfl⟩
abbrev main_c_5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_6 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_7 : Ref sig .tc := ⟨.hbm, 93, rfl⟩
abbrev main_v56 : Ref sig .tc := ⟨.hbm, 94, rfl⟩
abbrev main_cst_8 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_v74 : Ref sig .tc := ⟨.hbm, 115, rfl⟩
abbrev main_cst_11 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_14 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_15 : Ref sig .tc := ⟨.hbm, 143, rfl⟩
abbrev main_v98 : Ref sig .tc := ⟨.hbm, 144, rfl⟩
abbrev main_v99 : Ref sig .tc := ⟨.hbm, 145, rfl⟩
abbrev main_cst_16 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_v106 : Ref sig .tc := ⟨.hbm, 154, rfl⟩
abbrev main_cst_18 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_19 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_call2_cst : Ref sig .tc := ⟨.hbm, 172, rfl⟩
abbrev main_call2_v0 : Ref sig .tc := ⟨.hbm, 173, rfl⟩
abbrev main_v122 : Ref sig .tc := ⟨.hbm, 174, rfl⟩
abbrev main_call3_cst : Ref sig .tc := ⟨.hbm, 175, rfl⟩
abbrev main_call3_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_c_20 : Ref sig .tc := ⟨.hbm, 180, rfl⟩
abbrev main_v126 : Ref sig .tc := ⟨.hbm, 181, rfl⟩
abbrev main_v127 : Ref sig .tc := ⟨.hbm, 182, rfl⟩
abbrev main_c_21 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_22 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_23 : Ref sig .tc := ⟨.hbm, 195, rfl⟩
abbrev main_v138 : Ref sig .tc := ⟨.hbm, 196, rfl⟩
abbrev main_cst_24 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_25 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_c_26 : Ref sig .tc := ⟨.hbm, 216, rfl⟩
abbrev main_v156 : Ref sig .tc := ⟨.hbm, 217, rfl⟩
abbrev main_v157 : Ref sig .tc := ⟨.hbm, 218, rfl⟩
abbrev main_c_27 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_28 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_29 : Ref sig .tc := ⟨.hbm, 231, rfl⟩
abbrev main_v168 : Ref sig .tc := ⟨.hbm, 232, rfl⟩
abbrev main_cst_30 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_31 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_cst_32 : Ref sig .tc := ⟨.hbm, 251, rfl⟩
abbrev main_v185 : Ref sig .tc := ⟨.hbm, 252, rfl⟩
abbrev main_v186 : Ref sig .tc := ⟨.hbm, 253, rfl⟩
abbrev main_cst_33 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_34 : Ref sig .tc := ⟨.hbm, 260, rfl⟩
abbrev main_v192 : Ref sig .tc := ⟨.hbm, 261, rfl⟩
abbrev main_v193 : Ref sig .tc := ⟨.hbm, 262, rfl⟩
abbrev main_cst_35 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_cst_36 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_cst_37 : Ref sig .tc := ⟨.hbm, 281, rfl⟩
abbrev main_v210 : Ref sig .tc := ⟨.hbm, 282, rfl⟩
abbrev main_v211 : Ref sig .tc := ⟨.hbm, 283, rfl⟩
abbrev main_cst_38 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_cst_39 : Ref sig .tc := ⟨.hbm, 290, rfl⟩
abbrev main_v217 : Ref sig .tc := ⟨.hbm, 291, rfl⟩
abbrev main_v218 : Ref sig .tc := ⟨.hbm, 292, rfl⟩
abbrev main_cst_40 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_cst_41 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  dot_S100000x256_S256x128_S100000x128_1_0_0_1_n_n_wf : DotDims.WF S100000x256 S256x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Spec.lean ====
/-
  The mathematics both programs compute, row by row, on the extended reals.

  A projection is relu (x · w + b): entry (r, c) is the maximum of zero and the sum over k of x (r, k) · w (k, c) plus
  b (c).  A graph-convolution layer forms, for each row r, the residual row
      x (r, ·) + ((agg · wl) (r, ·) + bl + (x · wr) (r, ·)),
  and normalizes it: subtract the row's mean, multiply by the reciprocal square root of the row's variance plus a small
  constant, scale by g and shift by β.  Every entry of the result depends on ONE row of the row-indexed operands
  (x, agg) and on the small operands (the weights, already transposed, and the [1, 128] rows bl, g, β) as a whole.  The number of
  rows is a variable, so the same functions describe a block of rows and the whole array.
-/
import Idealize.ShloMosaic.PureOps.Ideal.Laws
import Idealize.ShloMosaic.Lib.ValueIdx
import proofs.«113096_j6545530159457_1_alg».proof.Proof.LibPlainDot

noncomputable section

namespace Cert.Spec

open Idealize.ShloMosaic Idealize.ShloMosaic.ValueIdx Cert.Lib.PlainDot
open scoped BigOperators

/-- A matrix of extended reals with `r` rows and `c` columns. -/
abbrev Mat (r c : Nat) := (⟨2, ![r, c]⟩ : Shape).Idx → EReal

/-- The three constants of the computation, as the programs spell them: zero, the row length 128, and the small
    constant added to the variance. -/
def zero32 : EReal := Ideal.ofBits .f32 0x00000000#32
def len128 : EReal := Ideal.ofBits .f32 0x43000000#32
def eps32 : EReal := Ideal.ofBits .f32 0x3727C5AC#32

variable {n N K : Nat}

theorem rowIdx_ix2 {C : Nat} (r : Fin n) (c : Fin C) (k : Fin K) : rowIdx (K := K) (ix2 r c) k = ix2 r k :=
  funext fun a => match a with
    | ⟨0, _⟩ => rfl
    | ⟨1, _⟩ => rfl

theorem colIdx_ix2 {C : Nat} (r : Fin n) (c : Fin C) (k : Fin K) : colIdx (K := K) (ix2 r c) k = ix2 k c :=
  funext fun a => match a with
    | ⟨0, _⟩ => rfl
    | ⟨1, _⟩ => rfl

/-- A matrix product's entry (r, c) as the sum over k of x (r, k) · w (k, c). -/
theorem mm_ix2 {C : Nat} (x : Mat n K) (w : Mat K C) (r : Fin n) (c : Fin C) :
    mm x w (ix2 r c) = ∑ k : Fin K, x (ix2 r k) * w (ix2 k c) := by
  unfold mm
  refine Finset.sum_congr rfl fun k _ => ?_
  rw [rowIdx_ix2, colIdx_ix2]

/-- Entry (r, c) of relu (x · w + b). -/
def proj (x : Mat n K) (w : Mat K 128) (b : Mat 1 128) (r : Fin n) (c : Fin 128) : EReal :=
  max ((∑ k : Fin K, x (ix2 r k) * w (ix2 k c)) + b (ix2 (0 : Fin 1) c)) zero32

/-- Entry (r, c) of the residual x + ((agg · wl + bl) + x · wr). -/
def resid (agg x : Mat n 128) (wl wr : Mat 128 128) (bl : Mat 1 128) (r : Fin n) (c : Fin 128) : EReal :=
  x (ix2 r c) + (((∑ k : Fin 128, agg (ix2 r k) * wl (ix2 k c)) + bl (ix2 (0 : Fin 1) c))
    + ∑ k : Fin 128, x (ix2 r k) * wr (ix2 k c))

/-- The mean of a row of 128 numbers. -/
def rowMean (f : Fin 128 → EReal) : EReal := Ideal.div (∑ k : Fin 128, f k) len128

/-- Entry c of a normalized row: (f c − mean) · rsqrt (variance + ε) · g c + β c. -/
def normRow (f : Fin 128 → EReal) (g be : Mat 1 128) (c : Fin 128) : EReal :=
  ((f c - rowMean f) * Ideal.rsqrt (rowMean (fun k => (f k - rowMean f) * (f k - rowMean f)) + eps32))
    * g (ix2 (0 : Fin 1) c) + be (ix2 (0 : Fin 1) c)

/-- Entry (r, c) of a layer without the final relu. -/
def layer (agg x : Mat n 128) (wl wr : Mat 128 128) (bl g be : Mat 1 128) (r : Fin n) (c : Fin 128) : EReal :=
  normRow (fun k => resid agg x wl wr bl r k) g be c

/-- Entry (r, c) of a layer followed by relu. -/
def layerRelu (agg x : Mat n 128) (wl wr : Mat 128 128) (bl g be : Mat 1 128) (r : Fin n) (c : Fin 128) : EReal :=
  max (layer agg x wl wr bl g be r c) zero32

/-- The same functions as whole arrays. -/
def projA (x : Mat n K) (w : Mat K 128) (b : Mat 1 128) : Mat n 128 := fun j => proj x w b (j 0) (j 1)
def layerA (agg x : Mat n 128) (wl wr : Mat 128 128) (bl g be : Mat 1 128) : Mat n 128 :=
  fun j => layer agg x wl wr bl g be (j 0) (j 1)
def layerReluA (agg x : Mat n 128) (wl wr : Mat 128 128) (bl g be : Mat 1 128) : Mat n 128 :=
  fun j => layerRelu agg x wl wr bl g be (j 0) (j 1)

/-! ## Row locality: a block of rows computes the whole array's rows -/

/-- If row `r` of the block `xb` is row `R` of `X`, the projection's row `r` of the block is its row `R` of `X`. -/
theorem proj_local (xb : Mat n K) (X : Mat N K) (w : Mat K 128) (b : Mat 1 128) (r : Fin n) (R : Fin N)
    (hx : ∀ k : Fin K, xb (ix2 r k) = X (ix2 R k)) (c : Fin 128) : proj xb w b r c = proj X w b R c := by
  unfold proj
  simp only [hx]

theorem resid_local (ab xb : Mat n 128) (A X : Mat N 128) (wl wr : Mat 128 128) (bl : Mat 1 128) (r : Fin n) (R : Fin N)
    (ha : ∀ k : Fin 128, ab (ix2 r k) = A (ix2 R k)) (hx : ∀ k : Fin 128, xb (ix2 r k) = X (ix2 R k)) (c : Fin 128) :
    resid ab xb wl wr bl r c = resid A X wl wr bl R c := by
  unfold resid
  simp only [ha, hx]

theorem layer_local (ab xb : Mat n 128) (A X : Mat N 128) (wl wr : Mat 128 128) (bl g be : Mat 1 128) (r : Fin n) (R : Fin N)
    (ha : ∀ k : Fin 128, ab (ix2 r k) = A (ix2 R k)) (hx : ∀ k : Fin 128, xb (ix2 r k) = X (ix2 R k)) (c : Fin 128) :
    layer ab xb wl wr bl g be r c = layer A X wl wr bl g be R c := by
  unfold layer
  rw [show (fun k => resid ab xb wl wr bl r k) = fun k => resid A X wl wr bl R k from
    funext fun k => resid_local ab xb A X wl wr bl r R ha hx k]

theorem layerRelu_local (ab xb : Mat n 128) (A X : Mat N 128) (wl wr : Mat 128 128) (bl g be : Mat 1 128) (r : Fin n) (R : Fin N)
    (ha : ∀ k : Fin 128, ab (ix2 r k) = A (ix2 R k)) (hx : ∀ k : Fin 128, xb (ix2 r k) = X (ix2 R k)) (c : Fin 128) :
    layerRelu ab xb wl wr bl g be r c = layerRelu A X wl wr bl g be R c := by
  unfold layerRelu
  rw [layer_local ab xb A X wl wr bl g be r R ha hx c]

end Cert.Spec

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.KBody.lean ====
/-
  The kernel bodies' arithmetic, read at an entry (r, c) of a block of 2000 rows.

  The projection body stores relu (x · wᵀ + b): the matrix product into a zero accumulator is a sum over k, the [1, 128]
  bias row is repeated over the rows, and the format changes are the identity on extended reals.  The layer body forms the
  residual x + ((agg · wlᵀ + bl) + x · wrᵀ), and then, row by row, its mean (the lane sum divided by 128), the centred
  row, the mean of its squares, and the centred row times the reciprocal square root of that mean plus ε, times g, plus β
  (and the maximum with zero in the first layer).  Each lane sum over a row of the block is the sum of that row's 128 entries; a
  column [2000, 1] repeated over the lanes reads its row's one entry.
-/
import proofs.«113096_j6545530159457_1_alg».proof.Proof.Gen.KernelIdeal.Skeleton
import proofs.«113096_j6545530159457_1_alg».proof.Proof.Spec
import proofs.«113096_j6545530159457_1_alg».proof.Proof.LibRowLayout
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Spec Cert.Lib.PlainDot
  Cert.KernelIdeal.MvnKernel
open scoped BigOperators

/-- The reciprocal square root of a vector, at an index. -/
theorem rsqrt_apply {s : Shape} {φ : FTy} (v : FVec Ideal s φ) (i : s.Idx) : rsqrt v i = Ideal.rsqrt (v i) := rfl

/-- The lane sum of a block, at row r: the sum of the row's 128 entries. -/
theorem laneSum (src : FVec Ideal S2000x128 .f32) (r : Fin 2000) :
    multiReduction .add [1] S2000 src 0x00000000#32 reduces_S2000x128_S2000 (.inl rfl) rfl (ix1 r)
      = ∑ k : Fin 128, src (ix2 r k) :=
  multiReduction_add_row src _ _ _ _ r

/-- The lane sum made a column and divided by 128, at (r, 0): the row's mean. -/
theorem meanCol (src : FVec Ideal S2000x128 .f32) (r : Fin 2000) :
    divf (shapeCast S2000x1 (multiReduction .add [1] S2000 src 0x00000000#32 reduces_S2000x128_S2000 (.inl rfl) rfl)
        shapeCasts_S2000_S2000x1) (broadcast S2000x1 (Scalar.ofBits (F := Ideal) .f32 0x43000000#32)) (ix2 r (0 : Fin 1))
      = rowMean (fun k => src (ix2 r k)) := by
  rw [divf_apply, broadcast_apply, shapeCast_a_a1_apply, laneSum]
  rfl

/-- The two matrix products of the bodies, in the programs' spelling, at (r, c): sums over the contracted index. -/
theorem mm256 (x : FVec Ideal S2000x256 .bf16) (w : FVec Ideal S256x128 .bf16) (r : Fin 2000) (c : Fin 128) :
    matmul dot_S2000x256_S256x128_S2000x128_1_0_0_1_n_n none x w (constant S2000x128 .f32 0x00000000#32) (ix2 r c)
      = ∑ k : Fin 256, x (ix2 r k) * w (ix2 k c) :=
  (matmul_zero_apply dot_S2000x256_S256x128_S2000x128_1_0_0_1_n_n rfl none x w (ix2 r c)).trans (mm_ix2 x w r c)

theorem mm128 (x : FVec Ideal S2000x128 .bf16) (w : FVec Ideal S128x128 .bf16) (r : Fin 2000) (c : Fin 128) :
    matmul dot_S2000x128_S128x128_S2000x128_1_0_0_1_n_n none x w (constant S2000x128 .f32 0x00000000#32) (ix2 r c)
      = ∑ k : Fin 128, x (ix2 r k) * w (ix2 k c) :=
  (matmul_zero_apply dot_S2000x128_S128x128_S2000x128_1_0_0_1_n_n rfl none x w (ix2 r c)).trans (mm_ix2 x w r c)

/-! ## The projection body -/

theorem proj_payload (v0 : Vec Ideal S2000x256 .f32) (v2 : Vec Ideal S128x256 .f32) (v6 : Vec Ideal S1x128 .f32)
    (r : Fin 2000) (c : Fin 128) :
    k0_pay1 (F := Ideal) v0 v2 v6 (ix2 r c)
      = proj (n := 2000) (K := 256) v0 (transpose S256x128 [1, 0] v2 transposes_S128x256_p1_0_S256x128) v6 r c := by
  unfold k0_pay1 proj
  dsimp only
  rw [maximumf_apply, addf_apply, broadcast_apply, broadcastTo_1b_ab_apply, shapeCast_self, mm256]
  rfl

/-! ## The layer body -/

/-- The residual x + ((agg · wlᵀ + bl) + x · wrᵀ) as the body computes it from its loaded blocks. -/
def residV (v0 : Vec Ideal S2000x128 .f32) (v3 : Vec Ideal S128x128 .f32) (v5 : Vec Ideal S2000x128 .f32)
    (v8 : Vec Ideal S128x128 .f32) (v12 : Vec Ideal S1x128 .f32) : FVec Ideal S2000x128 .f32 :=
  addf (shapeCast S2000x128 v5 shapeCasts_S2000x128_S2000x128)
    (addf (addf (matmul dot_S2000x128_S128x128_S2000x128_1_0_0_1_n_n none
          (truncf .bf16 (shapeCast S2000x128 v0 shapeCasts_S2000x128_S2000x128) bitsLt_bf16_f32)
          (transpose S128x128 [1, 0] (truncf .bf16 v3 bitsLt_bf16_f32) transposes_S128x128_p1_0_S128x128)
          (constant S2000x128 .f32 0x00000000#32))
        (broadcastTo S2000x128 (shapeCast S1x128 v12 shapeCasts_S1x128_S1x128) broadcasts_S1x128_S2000x128))
      (matmul dot_S2000x128_S128x128_S2000x128_1_0_0_1_n_n none
        (truncf .bf16 (shapeCast S2000x128 v5 shapeCasts_S2000x128_S2000x128) bitsLt_bf16_f32)
        (transpose S128x128 [1, 0] (truncf .bf16 v8 bitsLt_bf16_f32) transposes_S128x128_p1_0_S128x128)
        (constant S2000x128 .f32 0x00000000#32)))

/-- The normalization of a residual block: the centred block times the reciprocal square root of the row variance plus ε. -/
def normV (res : FVec Ideal S2000x128 .f32) : FVec Ideal S2000x128 .f32 :=
  have v23 : FVec Ideal S2000x1 .f32 := divf (shapeCast S2000x1 (multiReduction .add [1] S2000 res 0x00000000#32 reduces_S2000x128_S2000 (.inl rfl) rfl)
        shapeCasts_S2000_S2000x1) (broadcast S2000x1 (Scalar.ofBits (F := Ideal) .f32 0x43000000#32))
  have v25 : FVec Ideal S2000x128 .f32 := subf res (broadcastTo S2000x128 v23 broadcasts_S2000x1_S2000x128)
  have v30 : FVec Ideal S2000x1 .f32 := divf (shapeCast S2000x1 (multiReduction .add [1] S2000 (mulf v25 v25) 0x00000000#32 reduces_S2000x128_S2000 (.inl rfl) rfl)
        shapeCasts_S2000_S2000x1) (broadcast S2000x1 (Scalar.ofBits (F := Ideal) .f32 0x43000000#32))
  mulf (subf res (broadcastTo S2000x128 v23 broadcasts_S2000x1_S2000x128))
    (broadcastTo S2000x128 (rsqrt (addf v30 (broadcast S2000x1 (Scalar.ofBits (F := Ideal) .f32 0x3727C5AC#32)))) broadcasts_S2000x1_S2000x128)

/-- The body's first part is the normalization of the residual. -/
theorem pay2_eq (v0 : Vec Ideal S2000x128 .f32) (v3 : Vec Ideal S128x128 .f32) (v5 : Vec Ideal S2000x128 .f32)
    (v8 : Vec Ideal S128x128 .f32) (v12 : Vec Ideal S1x128 .f32) :
    k2_pay2 (F := Ideal) v0 v3 v5 v8 v12 = normV (residV v0 v3 v5 v8 v12) := rfl

theorem residV_apply (v0 : Vec Ideal S2000x128 .f32) (v3 : Vec Ideal S128x128 .f32) (v5 : Vec Ideal S2000x128 .f32)
    (v8 : Vec Ideal S128x128 .f32) (v12 : Vec Ideal S1x128 .f32) (r : Fin 2000) (c : Fin 128) :
    residV v0 v3 v5 v8 v12 (ix2 r c)
      = resid (n := 2000) v0 v5 (transpose S128x128 [1, 0] v3 transposes_S128x128_p1_0_S128x128)
          (transpose S128x128 [1, 0] v8 transposes_S128x128_p1_0_S128x128) v12 r c := by
  unfold residV resid
  rw [addf_apply, addf_apply, addf_apply, broadcastTo_1b_ab_apply, shapeCast_self, shapeCast_self, shapeCast_self,
    mm128, mm128]
  rfl

theorem normV_apply (res : FVec Ideal S2000x128 .f32) (r : Fin 2000) (c : Fin 128) :
    normV res (ix2 r c)
      = (res (ix2 r c) - rowMean (fun k => res (ix2 r k)))
          * Ideal.rsqrt (rowMean (fun k => (res (ix2 r k) - rowMean (fun k => res (ix2 r k)))
              * (res (ix2 r k) - rowMean (fun k => res (ix2 r k)))) + eps32) := by
  unfold normV
  dsimp only
  rw [mulf_apply, subf_apply, broadcastTo_a1_ab_apply, broadcastTo_a1_ab_apply, rsqrt_apply, addf_apply, broadcast_apply,
    meanCol, meanCol]
  have e : (fun k : Fin 128 => mulf (subf res (broadcastTo S2000x128 (divf (shapeCast S2000x1 (multiReduction .add [1] S2000 res 0x00000000#32 reduces_S2000x128_S2000 (.inl rfl) rfl)
        shapeCasts_S2000_S2000x1) (broadcast S2000x1 (Scalar.ofBits (F := Ideal) .f32 0x43000000#32))) broadcasts_S2000x1_S2000x128))
      (subf res (broadcastTo S2000x128 (divf (shapeCast S2000x1 (multiReduction .add [1] S2000 res 0x00000000#32 reduces_S2000x128_S2000 (.inl rfl) rfl)
        shapeCasts_S2000_S2000x1) (broadcast S2000x1 (Scalar.ofBits (F := Ideal) .f32 0x43000000#32))) broadcasts_S2000x1_S2000x128)) (ix2 r k))
      = fun k => (res (ix2 r k) - rowMean (fun k => res (ix2 r k))) * (res (ix2 r k) - rowMean (fun k => res (ix2 r k))) := by
    funext k
    rw [mulf_apply, subf_apply, broadcastTo_a1_ab_apply, meanCol]
  rw [e]
  rfl

/-- The layer body with the final relu, at (r, c). -/
theorem layerRelu_payload (v0 : Vec Ideal S2000x128 .f32) (v3 : Vec Ideal S128x128 .f32) (v5 : Vec Ideal S2000x128 .f32)
    (v8 : Vec Ideal S128x128 .f32) (v12 v38 v42 : Vec Ideal S1x128 .f32) (r : Fin 2000) (c : Fin 128) :
    k2_pay1 (F := Ideal) (k2_pay2 v0 v3 v5 v8 v12) (k2_pay3 v38) v42 (ix2 r c)
      = layerRelu (n := 2000) v0 v5 (transpose S128x128 [1, 0] v3 transposes_S128x128_p1_0_S128x128)
          (transpose S128x128 [1, 0] v8 transposes_S128x128_p1_0_S128x128) v12 v38 v42 r c := by
  rw [pay2_eq]
  unfold k2_pay1 k2_pay3 layerRelu layer normRow
  dsimp only
  rw [maximumf_apply, addf_apply, mulf_apply, broadcast_apply, broadcastTo_1b_ab_apply, broadcastTo_1b_ab_apply,
    shapeCast_self, shapeCast_self, normV_apply]
  simp only [residV_apply]
  rfl

/-- The layer body without the final relu, at (r, c). -/
theorem layer_payload (v0 : Vec Ideal S2000x128 .f32) (v3 : Vec Ideal S128x128 .f32) (v5 : Vec Ideal S2000x128 .f32)
    (v8 : Vec Ideal S128x128 .f32) (v12 v38 v42 : Vec Ideal S1x128 .f32) (r : Fin 2000) (c : Fin 128) :
    k4_pay1 (F := Ideal) (k4_pay2 v0 v3 v5 v8 v12) (k4_pay3 v38) v42 (ix2 r c)
      = layer (n := 2000) v0 v5 (transpose S128x128 [1, 0] v3 transposes_S128x128_p1_0_S128x128)
          (transpose S128x128 [1, 0] v8 transposes_S128x128_p1_0_S128x128) v12 v38 v42 r c := by
  rw [show k4_pay2 (F := Ideal) v0 v3 v5 v8 v12 = normV (residV v0 v3 v5 v8 v12) from rfl]
  unfold k4_pay1 k4_pay3 layer normRow
  dsimp only
  rw [addf_apply, mulf_apply, broadcastTo_1b_ab_apply, broadcastTo_1b_ab_apply,
    shapeCast_self, shapeCast_self, normV_apply]
  simp only [residV_apply]

/-- The second projection call and the second call of each layer have the same bodies. -/
theorem pay_k1 : @k1_pay1 = @k0_pay1 := rfl
theorem pay_k3 : (@k3_pay1 = @k2_pay1) ∧ (@k3_pay2 = @k2_pay2) ∧ (@k3_pay3 = @k2_pay3) := ⟨rfl, rfl, rfl⟩
theorem pay_k5 : (@k5_pay1 = @k4_pay1) ∧ (@k5_pay2 = @k4_pay2) ∧ (@k5_pay3 = @k4_pay3) := ⟨rfl, rfl, rfl⟩

end Cert.KernelIdeal.Body

end
-- ==== Proof.Region0.lean ====
/-
  What the first projection call leaves in its output array.

  The call runs over 50 points; at point t it reads rows 2000·t … 2000·t + 1999 of x, the whole weight and the whole bias
  row, and writes back rows 2000·t … 2000·t + 1999 of the output.  Row r of that block is relu (x · wᵀ + b) at row
  2000·t + r of the whole array, because an entry of the projection depends on one row of x only; and every row of the
  output lies in the block of the point "row / 2000".  So the array ends holding relu (x · wᵀ + b), whatever the contents
  `V` the call found on entry.
-/
import proofs.«113096_j6545530159457_1_alg».proof.Proof.Gen.KernelIdeal.Frame
import proofs.«113096_j6545530159457_1_alg».proof.Proof.KBody

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-blocked windows move with the point, the small operands stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole output array: relu (x · wᵀ + b) of the arrays the call finds. -/
def G (c : Dev nD) : S100000x128.Idx → EReal :=
  projA (n := 100000) (K := 256) (V c main_arg0)
    (transpose S256x128 [1, 0] (V c main_arg4) transposes_S128x256_p1_0_S256x128) (V c main_v0)

/-- One entry of a block, from blocks that are rows of the whole arrays. -/
theorem block_entry (x0 : Vec Ideal S2000x256 .f32) (x1 : Vec Ideal S128x256 .f32) (x2 : Vec Ideal S1x128 .f32)
    (X : S100000x256.Idx → EReal) (W : S128x256.Idx → EReal) (B : S1x128.Idx → EReal)
    (R : Fin 100000) (r : Fin 2000) (k : Fin 128)
    (hx : ∀ q : Fin 256, x0 (ix2 r q) = X (ix2 R q)) (hw : x1 = W) (hb : x2 = B) :
    k0_pay1 (F := Ideal) x0 x1 x2 (ix2 r k)
      = proj (n := 100000) (K := 256) X (transpose S256x128 [1, 0] W transposes_S128x256_p1_0_S256x128) B R k := by
  subst hw hb
  rw [proj_payload]
  exact proj_local x0 X _ _ r R hx k

/-- What point `t` writes back is block `t` of the whole function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x256) hz, View.ld_unit_zero (S := S128x256) hz, View.ld_unit_zero (S := S1x128) hz]
  obtain ⟨e0, e1, e2, e3, e4, e5, e6, e7⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg0.win 3).blk t).view.emb (ix2 r k) = ix2 (⟨t.val * 2000 + r.val, by omega⟩ : Fin 100000) k := by
    funext a; apply Fin.ext
    match a with
    | ⟨0, _⟩ => show win0_3.index t (0 : Fin 2) * 2000 + 1 * r.val = t.val * 2000 + r.val; omega
    | ⟨1, _⟩ => show win0_3.index t (1 : Fin 2) * 128 + 1 * k.val = k.val; omega
  show k0_pay1 (F := Ideal) (iblk0 V c 0 t) (iblk0 V c 1 t) (iblk0 V c 2 t) (ix2 r k) = G V c (((cfg0.win 3).blk t).view.emb (ix2 r k))
  rw [hemb]
  refine block_entry (iblk0 V c 0 t) (iblk0 V c 1 t) (iblk0 V c 2 t) (V c main_arg0) (V c main_arg4) (V c main_v0)
    ⟨t.val * 2000 + r.val, by omega⟩ r k (fun q => ?_) ?_ ?_
  · show V c main_arg0 (((cfg0.win 0).blk t).view.emb (ix2 r q)) = V c main_arg0 (ix2 (⟨t.val * 2000 + r.val, by omega⟩ : Fin 100000) q)
    refine congrArg (V c main_arg0) (funext fun a => Fin.ext ?_)
    match a with
    | ⟨0, _⟩ => show win0_0.index t (0 : Fin 2) * 2000 + 1 * r.val = t.val * 2000 + r.val; omega
    | ⟨1, _⟩ => show win0_0.index t (1 : Fin 2) * 256 + 1 * q.val = q.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the array is in point `t`'s block iff each coordinate is in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every row lies in the block of the point "row / 2000". -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 2000, by show (i 0).val / 2000 < 50; omega⟩, flush0_3 _, ?_⟩
  rw [mem_blk]
  obtain ⟨-, -, -, -, -, -, e6, e7⟩ := idx_facts ⟨(i 0).val / 2000, by show (i 0).val / 2000 < 50; omega⟩
  intro a
  match a with
  | ⟨0, _⟩ => show win0_3.index _ (0 : Fin 2) * 2000 ≤ (i 0).val ∧ (i 0).val < win0_3.index _ (0 : Fin 2) * 2000 + 2000; rw [e6]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e7]; omega

/-- The output array after the call. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  What the second projection call leaves in its output array.

  The call runs over 50 points; at point t it reads rows 2000·t … 2000·t + 1999 of x, the whole weight and the whole bias
  row, and writes back rows 2000·t … 2000·t + 1999 of the output.  Row r of that block is relu (x · wᵀ + b) at row
  2000·t + r of the whole array, because an entry of the projection depends on one row of x only; and every row of the
  output lies in the block of the point "row / 2000".  So the array ends holding relu (x · wᵀ + b), whatever the contents
  `V` the call found on entry.
-/
import proofs.«113096_j6545530159457_1_alg».proof.Proof.Gen.KernelIdeal.Frame
import proofs.«113096_j6545530159457_1_alg».proof.Proof.KBody

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-blocked windows move with the point, the small operands stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole output array: relu (x · wᵀ + b) of the arrays the call finds. -/
def G (c : Dev nD) : S100000x128.Idx → EReal :=
  projA (n := 100000) (K := 256) (V c main_arg1)
    (transpose S256x128 [1, 0] (V c main_arg6) transposes_S128x256_p1_0_S256x128) (V c main_v2)

/-- One entry of a block, from blocks that are rows of the whole arrays. -/
theorem block_entry (x0 : Vec Ideal S2000x256 .f32) (x1 : Vec Ideal S128x256 .f32) (x2 : Vec Ideal S1x128 .f32)
    (X : S100000x256.Idx → EReal) (W : S128x256.Idx → EReal) (B : S1x128.Idx → EReal)
    (R : Fin 100000) (r : Fin 2000) (k : Fin 128)
    (hx : ∀ q : Fin 256, x0 (ix2 r q) = X (ix2 R q)) (hw : x1 = W) (hb : x2 = B) :
    k1_pay1 (F := Ideal) x0 x1 x2 (ix2 r k)
      = proj (n := 100000) (K := 256) X (transpose S256x128 [1, 0] W transposes_S128x256_p1_0_S256x128) B R k := by
  subst hw hb
  show k0_pay1 (F := Ideal) x0 x1 x2 (ix2 r k) = _
  rw [proj_payload]
  exact proj_local x0 X _ _ r R hx k

/-- What point `t` writes back is block `t` of the whole function. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x256) hz, View.ld_unit_zero (S := S128x256) hz, View.ld_unit_zero (S := S1x128) hz]
  obtain ⟨e0, e1, e2, e3, e4, e5, e6, e7⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg1.win 3).blk t).view.emb (ix2 r k) = ix2 (⟨t.val * 2000 + r.val, by omega⟩ : Fin 100000) k := by
    funext a; apply Fin.ext
    match a with
    | ⟨0, _⟩ => show win1_3.index t (0 : Fin 2) * 2000 + 1 * r.val = t.val * 2000 + r.val; omega
    | ⟨1, _⟩ => show win1_3.index t (1 : Fin 2) * 128 + 1 * k.val = k.val; omega
  show k1_pay1 (F := Ideal) (iblk1 V c 0 t) (iblk1 V c 1 t) (iblk1 V c 2 t) (ix2 r k) = G V c (((cfg1.win 3).blk t).view.emb (ix2 r k))
  rw [hemb]
  refine block_entry (iblk1 V c 0 t) (iblk1 V c 1 t) (iblk1 V c 2 t) (V c main_arg1) (V c main_arg6) (V c main_v2)
    ⟨t.val * 2000 + r.val, by omega⟩ r k (fun q => ?_) ?_ ?_
  · show V c main_arg1 (((cfg1.win 0).blk t).view.emb (ix2 r q)) = V c main_arg1 (ix2 (⟨t.val * 2000 + r.val, by omega⟩ : Fin 100000) q)
    refine congrArg (V c main_arg1) (funext fun a => Fin.ext ?_)
    match a with
    | ⟨0, _⟩ => show win1_0.index t (0 : Fin 2) * 2000 + 1 * r.val = t.val * 2000 + r.val; omega
    | ⟨1, _⟩ => show win1_0.index t (1 : Fin 2) * 256 + 1 * q.val = q.val; omega
  · funext y
    show V c main_arg6 (((cfg1.win 1).blk t).view.emb y) = V c main_arg6 y
    refine congrArg (V c main_arg6) (funext fun a => Fin.ext ?_)
    match a with
    | ⟨0, _⟩ => show win1_1.index t (0 : Fin 2) * 128 + 1 * (y 0).val = (y 0).val; omega
    | ⟨1, _⟩ => show win1_1.index t (1 : Fin 2) * 256 + 1 * (y 1).val = (y 1).val; omega
  · funext y
    show V c main_v2 (((cfg1.win 2).blk t).view.emb y) = V c main_v2 y
    refine congrArg (V c main_v2) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega

/-- An index of the array is in point `t`'s block iff each coordinate is in the block's range. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- Every row lies in the block of the point "row / 2000". -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 2000, by show (i 0).val / 2000 < 50; omega⟩, flush1_3 _, ?_⟩
  rw [mem_blk]
  obtain ⟨-, -, -, -, -, -, e6, e7⟩ := idx_facts ⟨(i 0).val / 2000, by show (i 0).val / 2000 < 50; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ (i 0).val ∧ (i 0).val < (i 0).val / 2000 * 2000 + 2000; omega
  | ⟨1, _⟩ => show win1_3.index _ (1 : Fin 2) * 128 ≤ (i 1).val ∧ (i 1).val < win1_3.index _ (1 : Fin 2) * 128 + 128; rw [e7]; omega

/-- The output array after the call. -/
theorem final (c : Dev nD) : (dat1 V c).arrAt 3 cfg1.N = G V c :=
  (dat1 V c).arrAt_eq_of_cover 3 (G V c) (fun t _ => flushed_eq V c t) (cover)

end Cert.KernelIdeal.Region1

end
-- ==== Proof.Region2.lean ====
/-
  What the first layer's call on the item side leaves in its output array.

  The call runs over 50 points; at point t it reads rows 2000·t … 2000·t + 1999 of the aggregate and of the features, the two
  weights and the three [1, 128] rows whole, and writes back rows 2000·t … 2000·t + 1999 of the output.  An entry of a layer
  depends on ONE row of the aggregate and of the features, so row r of the block is the layer's row 2000·t + r of the whole
  arrays; and every row of the output lies in the block of the point "row / 2000".  So the array ends holding the layer
  of the arrays the call found on entry, whatever those contents `V` are.
-/
import proofs.«113096_j6545530159457_1_alg».proof.Proof.Gen.KernelIdeal.Frame
import proofs.«113096_j6545530159457_1_alg».proof.Proof.KBody

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the two row-blocked inputs and the output move with the point, the small operands stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The whole output array: the layer of the arrays the call finds. -/
def G (c : Dev nD) : S100000x128.Idx → EReal :=
  layerReluA (n := 100000) (V c main_v25) (V c main_v3)
    (transpose S128x128 [1, 0] (V c main_arg12) transposes_S128x128_p1_0_S128x128)
    (transpose S128x128 [1, 0] (V c main_arg14) transposes_S128x128_p1_0_S128x128) (V c main_v48) (V c main_v49) (V c main_v50)

/-- One entry of a block, from blocks that are rows of the whole arrays. -/
theorem block_entry (x0 x1 : Vec Ideal S2000x128 .f32) (x2 : Vec Ideal S128x128 .f32) (x3 : Vec Ideal S1x128 .f32)
    (x4 : Vec Ideal S128x128 .f32) (x5 x6 : Vec Ideal S1x128 .f32)
    (A X : S100000x128.Idx → EReal) (WL WR : S128x128.Idx → EReal) (BL GG BE : S1x128.Idx → EReal)
    (R : Fin 100000) (r : Fin 2000) (k : Fin 128)
    (ha : ∀ q : Fin 128, x0 (ix2 r q) = A (ix2 R q)) (hx : ∀ q : Fin 128, x1 (ix2 r q) = X (ix2 R q))
    (h2 : x2 = WL) (h3 : x3 = BL) (h4 : x4 = WR) (h5 : x5 = GG) (h6 : x6 = BE) :
    k2_pay1 (F := Ideal) (k2_pay2 x0 x2 x1 x4 x3) (k2_pay3 x5) x6 (ix2 r k)
      = layerRelu (n := 100000) A X (transpose S128x128 [1, 0] WL transposes_S128x128_p1_0_S128x128)
          (transpose S128x128 [1, 0] WR transposes_S128x128_p1_0_S128x128) BL GG BE R k := by
  subst h2 h3 h4 h5 h6
  show k2_pay1 (F := Ideal) (k2_pay2 x0 x2 x1 x4 x3) (k2_pay3 x5) x6 (ix2 r k) = _
  rw [layerRelu_payload]
  exact layerRelu_local x0 x1 A X _ _ _ _ _ r R ha hx k

/-- What point `t` writes back is block `t` of the whole function. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13, e14, e15⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg2.win 7).blk t).view.emb (ix2 r k) = ix2 (⟨t.val * 2000 + r.val, by omega⟩ : Fin 100000) k := by
    funext a; apply Fin.ext
    match a with
    | ⟨0, _⟩ => show win2_7.index t (0 : Fin 2) * 2000 + 1 * r.val = t.val * 2000 + r.val; omega
    | ⟨1, _⟩ => show win2_7.index t (1 : Fin 2) * 128 + 1 * k.val = k.val; omega
  show k2_pay1 (F := Ideal) (k2_pay2 (iblk2 V c 0 t) (iblk2 V c 2 t) (iblk2 V c 1 t) (iblk2 V c 4 t) (iblk2 V c 3 t))
      (k2_pay3 (iblk2 V c 5 t)) (iblk2 V c 6 t) (ix2 r k) = G V c (((cfg2.win 7).blk t).view.emb (ix2 r k))
  rw [hemb]
  refine block_entry (iblk2 V c 0 t) (iblk2 V c 1 t) (iblk2 V c 2 t) (iblk2 V c 3 t) (iblk2 V c 4 t) (iblk2 V c 5 t) (iblk2 V c 6 t)
    (V c main_v25) (V c main_v3) (V c main_arg12) (V c main_arg14) (V c main_v48) (V c main_v49) (V c main_v50)
    ⟨t.val * 2000 + r.val, by omega⟩ r k (fun q => ?_) (fun q => ?_) ?_ ?_ ?_ ?_ ?_
  · show V c main_v25 (((cfg2.win 0).blk t).view.emb (ix2 r q)) = V c main_v25 (ix2 (⟨t.val * 2000 + r.val, by omega⟩ : Fin 100000) q)
    refine congrArg (V c main_v25) (funext fun a => Fin.ext ?_)
    match a with
    | ⟨0, _⟩ => show win2_0.index t (0 : Fin 2) * 2000 + 1 * r.val = t.val * 2000 + r.val; omega
    | ⟨1, _⟩ => show win2_0.index t (1 : Fin 2) * 128 + 1 * q.val = q.val; omega
  · show V c main_v3 (((cfg2.win 1).blk t).view.emb (ix2 r q)) = V c main_v3 (ix2 (⟨t.val * 2000 + r.val, by omega⟩ : Fin 100000) q)
    refine congrArg (V c main_v3) (funext fun a => Fin.ext ?_)
    match a with
    | ⟨0, _⟩ => show win2_1.index t (0 : Fin 2) * 2000 + 1 * r.val = t.val * 2000 + r.val; omega
    | ⟨1, _⟩ => show win2_1.index t (1 : Fin 2) * 128 + 1 * q.val = q.val; omega
  · funext y
    show V c main_arg12 (((cfg2.win 2).blk t).view.emb y) = V c main_arg12 y
    refine congrArg (V c main_arg12) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v48 (((cfg2.win 3).blk t).view.emb y) = V c main_v48 y
    refine congrArg (V c main_v48) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_arg14 (((cfg2.win 4).blk t).view.emb y) = V c main_arg14 y
    refine congrArg (V c main_arg14) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v49 (((cfg2.win 5).blk t).view.emb y) = V c main_v49 y
    refine congrArg (V c main_v49) (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  · funext y
    show V c main_v50 (((cfg2.win 6).blk t).view.emb y) = V c main_v50 y
    refine congrArg (V c main_v50) (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega

/-- An index of the array is in point `t`'s block iff each coordinate is in the block's range. -/
theorem mem_blk (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v51).slice (win2_7.rect t)).set ↔ _
  rw [View.set_slice_whole, Rect.mem_set_unit]
  exact Iff.rfl

/-- Every row lies in the block of the point "row / 2000". -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  refine ⟨⟨(i 0).val / 2000, by show (i 0).val / 2000 < 50; omega⟩, flush2_7 _, ?_⟩
  rw [mem_blk]
  obtain ⟨-, -, -, -, -, -, -, -, -, -, -, -, -, -, e14, e15⟩ := idx_facts ⟨(i 0).val / 2000, by show (i 0).val / 2000 < 50; omega⟩
  intro a
  match a with
  | ⟨0, _⟩ => show win2_7.index _ (0 : Fin 2) * 2000 ≤ (i 0).val ∧ (i 0).val < win2_7.index _ (0 : Fin 2) * 2000 + 2000; rw [e14]; show (i 0).val / 2000 * 2000 ≤ (i 0).val ∧ (i 0).val < (i 0).val / 2000 * 2000 + 2000; omega
  | ⟨1, _⟩ => show win2_7.index _ (1 : Fin 2) * 128 ≤ (i 1).val ∧ (i 1).val < win2_7.index _ (1 : Fin 2) * 128 + 128; rw [e15]; omega

/-- The output array after the call. -/
theorem final (c : Dev nD) : (dat2 V c).arrAt 7 cfg2.N = G V c :=
  (dat2 V c).arrAt_eq_of_cover 7 (G V c) (fun t _ => flushed_eq V c t) (cover)

end Cert.KernelIdeal.Region2

end
-- ==== Proof.Region3.lean ====
/-
  What the first layer's call on the user side leaves in its output array.

  The call runs over 50 points; at point t it reads rows 2000·t … 2000·t + 1999 of the aggregate and of the features, the two
  weights and the three [1, 128] rows whole, and writes back rows 2000·t … 2000·t + 1999 of the output.  An entry of a layer
  depends on ONE row of the aggregate and of the features, so row r of the block is the layer's row 2000·t + r of the whole
  arrays; and every row of the output lies in the block of the point "row / 2000".  So the array ends holding the layer
  of the arrays the call found on entry, whatever those contents `V` are.
-/
import proofs.«113096_j6545530159457_1_alg».proof.Proof.Gen.KernelIdeal.Frame
import proofs.«113096_j6545530159457_1_alg».proof.Proof.KBody

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the two row-blocked inputs and the output move with the point, the small operands stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The whole output array: the layer of the arrays the call finds. -/
def G (c : Dev nD) : S100000x128.Idx → EReal :=
  layerReluA (n := 100000) (V c main_v47) (V c main_v1)
    (transpose S128x128 [1, 0] (V c main_arg15) transposes_S128x128_p1_0_S128x128)
    (transpose S128x128 [1, 0] (V c main_arg17) transposes_S128x128_p1_0_S128x128) (V c main_v52) (V c main_v53) (V c main_v54)

/-- One entry of a block, from blocks that are rows of the whole arrays. -/
theorem block_entry (x0 x1 : Vec Ideal S2000x128 .f32) (x2 : Vec Ideal S128x128 .f32) (x3 : Vec Ideal S1x128 .f32)
    (x4 : Vec Ideal S128x128 .f32) (x5 x6 : Vec Ideal S1x128 .f32)
    (A X : S100000x128.Idx → EReal) (WL WR : S128x128.Idx → EReal) (BL GG BE : S1x128.Idx → EReal)
    (R : Fin 100000) (r : Fin 2000) (k : Fin 128)
    (ha : ∀ q : Fin 128, x0 (ix2 r q) = A (ix2 R q)) (hx : ∀ q : Fin 128, x1 (ix2 r q) = X (ix2 R q))
    (h2 : x2 = WL) (h3 : x3 = BL) (h4 : x4 = WR) (h5 : x5 = GG) (h6 : x6 = BE) :
    k3_pay1 (F := Ideal) (k3_pay2 x0 x2 x1 x4 x3) (k3_pay3 x5) x6 (ix2 r k)
      = layerRelu (n := 100000) A X (transpose S128x128 [1, 0] WL transposes_S128x128_p1_0_S128x128)
          (transpose S128x128 [1, 0] WR transposes_S128x128_p1_0_S128x128) BL GG BE R k := by
  subst h2 h3 h4 h5 h6
  show k2_pay1 (F := Ideal) (k2_pay2 x0 x2 x1 x4 x3) (k2_pay3 x5) x6 (ix2 r k) = _
  rw [layerRelu_payload]
  exact layerRelu_local x0 x1 A X _ _ _ _ _ r R ha hx k

/-- What point `t` writes back is block `t` of the whole function. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13, e14, e15⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg3.win 7).blk t).view.emb (ix2 r k) = ix2 (⟨t.val * 2000 + r.val, by omega⟩ : Fin 100000) k := by
    funext a; apply Fin.ext
    match a with
    | ⟨0, _⟩ => show win3_7.index t (0 : Fin 2) * 2000 + 1 * r.val = t.val * 2000 + r.val; omega
    | ⟨1, _⟩ => show win3_7.index t (1 : Fin 2) * 128 + 1 * k.val = k.val; omega
  show k3_pay1 (F := Ideal) (k3_pay2 (iblk3 V c 0 t) (iblk3 V c 2 t) (iblk3 V c 1 t) (iblk3 V c 4 t) (iblk3 V c 3 t))
      (k3_pay3 (iblk3 V c 5 t)) (iblk3 V c 6 t) (ix2 r k) = G V c (((cfg3.win 7).blk t).view.emb (ix2 r k))
  rw [hemb]
  refine block_entry (iblk3 V c 0 t) (iblk3 V c 1 t) (iblk3 V c 2 t) (iblk3 V c 3 t) (iblk3 V c 4 t) (iblk3 V c 5 t) (iblk3 V c 6 t)
    (V c main_v47) (V c main_v1) (V c main_arg15) (V c main_arg17) (V c main_v52) (V c main_v53) (V c main_v54)
    ⟨t.val * 2000 + r.val, by omega⟩ r k (fun q => ?_) (fun q => ?_) ?_ ?_ ?_ ?_ ?_
  · show V c main_v47 (((cfg3.win 0).blk t).view.emb (ix2 r q)) = V c main_v47 (ix2 (⟨t.val * 2000 + r.val, by omega⟩ : Fin 100000) q)
    refine congrArg (V c main_v47) (funext fun a => Fin.ext ?_)
    match a with
    | ⟨0, _⟩ => show win3_0.index t (0 : Fin 2) * 2000 + 1 * r.val = t.val * 2000 + r.val; omega
    | ⟨1, _⟩ => show win3_0.index t (1 : Fin 2) * 128 + 1 * q.val = q.val; omega
  · show V c main_v1 (((cfg3.win 1).blk t).view.emb (ix2 r q)) = V c main_v1 (ix2 (⟨t.val * 2000 + r.val, by omega⟩ : Fin 100000) q)
    refine congrArg (V c main_v1) (funext fun a => Fin.ext ?_)
    match a with
    | ⟨0, _⟩ => show win3_1.index t (0 : Fin 2) * 2000 + 1 * r.val = t.val * 2000 + r.val; omega
    | ⟨1, _⟩ => show win3_1.index t (1 : Fin 2) * 128 + 1 * q.val = q.val; omega
  · funext y
    show V c main_arg15 (((cfg3.win 2).blk t).view.emb y) = V c main_arg15 y
    refine congrArg (V c main_arg15) (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_v52 (((cfg3.win 3).blk t).view.emb y) = V c main_v52 y
    refine congrArg (V c main_v52) (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · funext y
    show V c main_arg17 (((cfg3.win 4).blk t).view.emb y) = V c main_arg17 y
    refine congrArg (V c main_arg17) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  · funext y
    show V c main_v53 (((cfg3.win 5).blk t).view.emb y) = V c main_v53 y
    refine congrArg (V c main_v53) (funext fun a => Fin.ext ?_)
    match a with
    | ⟨0, _⟩ => show win3_5.index t (0 : Fin 2) * 1 + 1 * (y 0).val = (y 0).val; omega
    | ⟨1, _⟩ => show win3_5.index t (1 : Fin 2) * 128 + 1 * (y 1).val = (y 1).val; omega
  · funext y
    show V c main_v54 (((cfg3.win 6).blk t).view.emb y) = V c main_v54 y
    refine congrArg (V c main_v54) (funext fun a => Fin.ext ?_)
    match a with
    | ⟨0, _⟩ => show win3_6.index t (0 : Fin 2) * 1 + 1 * (y 0).val = (y 0).val; omega
    | ⟨1, _⟩ => show win3_6.index t (1 : Fin 2) * 128 + 1 * (y 1).val = (y 1).val; omega

/-- An index of the array is in point `t`'s block iff each coordinate is in the block's range. -/
theorem mem_blk (t : Fin cfg3.N) (i : S100000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v55).slice (win3_7.rect t)).set ↔ _
  rw [View.set_slice_whole, Rect.mem_set_unit]
  exact Iff.rfl

/-- Every row lies in the block of the point "row / 2000". -/
theorem cover (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  refine ⟨⟨(i 0).val / 2000, by show (i 0).val / 2000 < 50; omega⟩, flush3_7 _, ?_⟩
  rw [mem_blk]
  obtain ⟨-, -, -, -, -, -, -, -, -, -, -, -, -, -, e14, e15⟩ := idx_facts ⟨(i 0).val / 2000, by show (i 0).val / 2000 < 50; omega⟩
  intro a
  match a with
  | ⟨0, _⟩ => show win3_7.index _ (0 : Fin 2) * 2000 ≤ (i 0).val ∧ (i 0).val < win3_7.index _ (0 : Fin 2) * 2000 + 2000; rw [e14]; show (i 0).val / 2000 * 2000 ≤ (i 0).val ∧ (i 0).val < (i 0).val / 2000 * 2000 + 2000; omega
  | ⟨1, _⟩ => show win3_7.index _ (1 : Fin 2) * 128 ≤ (i 1).val ∧ (i 1).val < win3_7.index _ (1 : Fin 2) * 128 + 128; rw [e15]; omega

/-- The output array after the call. -/
theorem final (c : Dev nD) : (dat3 V c).arrAt 7 cfg3.N = G V c :=
  (dat3 V c).arrAt_eq_of_cover 7 (G V c) (fun t _ => flushed_eq V c t) (cover)

end Cert.KernelIdeal.Region3

end
-- ==== Proof.Region4.lean ====
/-
  What the second layer's call on the item side leaves in its output array.

  The call runs over 50 points; at point t it reads rows 2000·t … 2000·t + 1999 of the aggregate and of the features, the two
  weights and the three [1, 128] rows whole, and writes back rows 2000·t … 2000·t + 1999 of the output.  An entry of a layer
  depends on ONE row of the aggregate and of the features, so row r of the block is the layer's row 2000·t + r of the whole
  arrays; and every row of the output lies in the block of the point "row / 2000".  So the array ends holding the layer
  of the arrays the call found on entry, whatever those contents `V` are.
-/
import proofs.«113096_j6545530159457_1_alg».proof.Proof.Gen.KernelIdeal.Frame
import proofs.«113096_j6545530159457_1_alg».proof.Proof.KBody

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the two row-blocked inputs and the output move with the point, the small operands stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The whole output array: the layer of the arrays the call finds. -/
def G (c : Dev nD) : S100000x128.Idx → EReal :=
  layerA (n := 100000) (V c main_v77) (V c main_v51)
    (transpose S128x128 [1, 0] (V c main_arg18) transposes_S128x128_p1_0_S128x128)
    (transpose S128x128 [1, 0] (V c main_arg20) transposes_S128x128_p1_0_S128x128) (V c main_v100) (V c main_v101) (V c main_v102)

/-- One entry of a block, from blocks that are rows of the whole arrays. -/
theorem block_entry (x0 x1 : Vec Ideal S2000x128 .f32) (x2 : Vec Ideal S128x128 .f32) (x3 : Vec Ideal S1x128 .f32)
    (x4 : Vec Ideal S128x128 .f32) (x5 x6 : Vec Ideal S1x128 .f32)
    (A X : S100000x128.Idx → EReal) (WL WR : S128x128.Idx → EReal) (BL GG BE : S1x128.Idx → EReal)
    (R : Fin 100000) (r : Fin 2000) (k : Fin 128)
    (ha : ∀ q : Fin 128, x0 (ix2 r q) = A (ix2 R q)) (hx : ∀ q : Fin 128, x1 (ix2 r q) = X (ix2 R q))
    (h2 : x2 = WL) (h3 : x3 = BL) (h4 : x4 = WR) (h5 : x5 = GG) (h6 : x6 = BE) :
    k4_pay1 (F := Ideal) (k4_pay2 x0 x2 x1 x4 x3) (k4_pay3 x5) x6 (ix2 r k)
      = layer (n := 100000) A X (transpose S128x128 [1, 0] WL transposes_S128x128_p1_0_S128x128)
          (transpose S128x128 [1, 0] WR transposes_S128x128_p1_0_S128x128) BL GG BE R k := by
  subst h2 h3 h4 h5 h6
  show k4_pay1 (F := Ideal) (k4_pay2 x0 x2 x1 x4 x3) (k4_pay3 x5) x6 (ix2 r k) = _
  rw [layer_payload]
  exact layer_local x0 x1 A X _ _ _ _ _ r R ha hx k

/-- What point `t` writes back is block `t` of the whole function. -/
theorem flushed_eq (c : Dev nD) (t : Fin cfg4.N) :
    (dat4 V c).flushed 7 t = ((cfg4.win 7).blk t).view.read (Elt Ideal) (G V c) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13, e14, e15⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg4.win 7).blk t).view.emb (ix2 r k) = ix2 (⟨t.val * 2000 + r.val, by omega⟩ : Fin 100000) k := by
    funext a; apply Fin.ext
    match a with
    | ⟨0, _⟩ => show win4_7.index t (0 : Fin 2) * 2000 + 1 * r.val = t.val * 2000 + r.val; omega
    | ⟨1, _⟩ => show win4_7.index t (1 : Fin 2) * 128 + 1 * k.val = k.val; omega
  show k4_pay1 (F := Ideal) (k4_pay2 (iblk4 V c 0 t) (iblk4 V c 2 t) (iblk4 V c 1 t) (iblk4 V c 4 t) (iblk4 V c 3 t))
      (k4_pay3 (iblk4 V c 5 t)) (iblk4 V c 6 t) (ix2 r k) = G V c (((cfg4.win 7).blk t).view.emb (ix2 r k))
  rw [hemb]
  refine block_entry (iblk4 V c 0 t) (iblk4 V c 1 t) (iblk4 V c 2 t) (iblk4 V c 3 t) (iblk4 V c 4 t) (iblk4 V c 5 t) (iblk4 V c 6 t)
    (V c main_v77) (V c main_v51) (V c main_arg18) (V c main_arg20) (V c main_v100) (V c main_v101) (V c main_v102)
    ⟨t.val * 2000 + r.val, by omega⟩ r k (fun q => ?_) (fun q => ?_) ?_ ?_ ?_ ?_ ?_
  · show V c main_v77 (((cfg4.win 0).blk t).view.emb (ix2 r q)) = V c main_v77 (ix2 (⟨t.val * 2000 + r.val, by omega⟩ : Fin 100000) q)
    refine congrArg (V c main_v77) (funext fun a => Fin.ext ?_)
    match a with
    | ⟨0, _⟩ => show win4_0.index t (0 : Fin 2) * 2000 + 1 * r.val = t.val * 2000 + r.val; omega
    | ⟨1, _⟩ => show win4_0.index t (1 : Fin 2) * 128 + 1 * q.val = q.val; omega
  · show V c main_v51 (((cfg4.win 1).blk t).view.emb (ix2 r q)) = V c main_v51 (ix2 (⟨t.val * 2000 + r.val, by omega⟩ : Fin 100000) q)
    refine congrArg (V c main_v51) (funext fun a => Fin.ext ?_)
    match a with
    | ⟨0, _⟩ => show win4_1.index t (0 : Fin 2) * 2000 + 1 * r.val = t.val * 2000 + r.val; omega
    | ⟨1, _⟩ => show win4_1.index t (1 : Fin 2) * 128 + 1 * q.val = q.val; omega
  · funext y
    show V c main_arg18 (((cfg4.win 2).blk t).view.emb y) = V c main_arg18 y
    refine congrArg (V c main_arg18) (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v100 (((cfg4.win 3).blk t).view.emb y) = V c main_v100 y
    refine congrArg (V c main_v100) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  · funext y
    show V c main_arg20 (((cfg4.win 4).blk t).view.emb y) = V c main_arg20 y
    refine congrArg (V c main_arg20) (funext fun a => Fin.ext ?_)
    match a with
    | ⟨0, _⟩ => show win4_4.index t (0 : Fin 2) * 128 + 1 * (y 0).val = (y 0).val; omega
    | ⟨1, _⟩ => show win4_4.index t (1 : Fin 2) * 128 + 1 * (y 1).val = (y 1).val; omega
  · funext y
    show V c main_v101 (((cfg4.win 5).blk t).view.emb y) = V c main_v101 y
    refine congrArg (V c main_v101) (funext fun a => Fin.ext ?_)
    match a with
    | ⟨0, _⟩ => show win4_5.index t (0 : Fin 2) * 1 + 1 * (y 0).val = (y 0).val; omega
    | ⟨1, _⟩ => show win4_5.index t (1 : Fin 2) * 128 + 1 * (y 1).val = (y 1).val; omega
  · funext y
    show V c main_v102 (((cfg4.win 6).blk t).view.emb y) = V c main_v102 y
    refine congrArg (V c main_v102) (funext fun a => Fin.ext ?_)
    match a with
    | ⟨0, _⟩ => show win4_6.index t (0 : Fin 2) * 1 + 1 * (y 0).val = (y 0).val; omega
    | ⟨1, _⟩ => show win4_6.index t (1 : Fin 2) * 128 + 1 * (y 1).val = (y 1).val; omega

/-- An index of the array is in point `t`'s block iff each coordinate is in the block's range. -/
theorem mem_blk (t : Fin cfg4.N) (i : S100000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v103).slice (win4_7.rect t)).set ↔ _
  rw [View.set_slice_whole, Rect.mem_set_unit]
  exact Iff.rfl

/-- Every row lies in the block of the point "row / 2000". -/
theorem cover (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  refine ⟨⟨(i 0).val / 2000, by show (i 0).val / 2000 < 50; omega⟩, flush4_7 _, ?_⟩
  rw [mem_blk]
  obtain ⟨-, -, -, -, -, -, -, -, -, -, -, -, -, -, e14, e15⟩ := idx_facts ⟨(i 0).val / 2000, by show (i 0).val / 2000 < 50; omega⟩
  intro a
  match a with
  | ⟨0, _⟩ => show win4_7.index _ (0 : Fin 2) * 2000 ≤ (i 0).val ∧ (i 0).val < win4_7.index _ (0 : Fin 2) * 2000 + 2000; rw [e14]; show (i 0).val / 2000 * 2000 ≤ (i 0).val ∧ (i 0).val < (i 0).val / 2000 * 2000 + 2000; omega
  | ⟨1, _⟩ => show win4_7.index _ (1 : Fin 2) * 128 ≤ (i 1).val ∧ (i 1).val < win4_7.index _ (1 : Fin 2) * 128 + 128; rw [e15]; omega

/-- The output array after the call. -/
theorem final (c : Dev nD) : (dat4 V c).arrAt 7 cfg4.N = G V c :=
  (dat4 V c).arrAt_eq_of_cover 7 (G V c) (fun t _ => flushed_eq V c t) (cover)

end Cert.KernelIdeal.Region4

end
-- ==== Proof.Region5.lean ====
/-
  What the second layer's call on the user side leaves in its output array.

  The call runs over 50 points; at point t it reads rows 2000·t … 2000·t + 1999 of the aggregate and of the features, the two
  weights and the three [1, 128] rows whole, and writes back rows 2000·t … 2000·t + 1999 of the output.  An entry of a layer
  depends on ONE row of the aggregate and of the features, so row r of the block is the layer's row 2000·t + r of the whole
  arrays; and every row of the output lies in the block of the point "row / 2000".  So the array ends holding the layer
  of the arrays the call found on entry, whatever those contents `V` are.
-/
import proofs.«113096_j6545530159457_1_alg».proof.Proof.Gen.KernelIdeal.Frame
import proofs.«113096_j6545530159457_1_alg».proof.Proof.KBody

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen Cert.Spec Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the two row-blocked inputs and the output move with the point, the small operands stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The whole output array: the layer of the arrays the call finds. -/
def G (c : Dev nD) : S100000x128.Idx → EReal :=
  layerA (n := 100000) (V c main_v99) (V c main_v55)
    (transpose S128x128 [1, 0] (V c main_arg21) transposes_S128x128_p1_0_S128x128)
    (transpose S128x128 [1, 0] (V c main_arg23) transposes_S128x128_p1_0_S128x128) (V c main_v104) (V c main_v105) (V c main_v106)

/-- One entry of a block, from blocks that are rows of the whole arrays. -/
theorem block_entry (x0 x1 : Vec Ideal S2000x128 .f32) (x2 : Vec Ideal S128x128 .f32) (x3 : Vec Ideal S1x128 .f32)
    (x4 : Vec Ideal S128x128 .f32) (x5 x6 : Vec Ideal S1x128 .f32)
    (A X : S100000x128.Idx → EReal) (WL WR : S128x128.Idx → EReal) (BL GG BE : S1x128.Idx → EReal)
    (R : Fin 100000) (r : Fin 2000) (k : Fin 128)
    (ha : ∀ q : Fin 128, x0 (ix2 r q) = A (ix2 R q)) (hx : ∀ q : Fin 128, x1 (ix2 r q) = X (ix2 R q))
    (h2 : x2 = WL) (h3 : x3 = BL) (h4 : x4 = WR) (h5 : x5 = GG) (h6 : x6 = BE) :
    k5_pay1 (F := Ideal) (k5_pay2 x0 x2 x1 x4 x3) (k5_pay3 x5) x6 (ix2 r k)
      = layer (n := 100000) A X (transpose S128x128 [1, 0] WL transposes_S128x128_p1_0_S128x128)
          (transpose S128x128 [1, 0] WR transposes_S128x128_p1_0_S128x128) BL GG BE R k := by
  subst h2 h3 h4 h5 h6
  show k4_pay1 (F := Ideal) (k4_pay2 x0 x2 x1 x4 x3) (k4_pay3 x5) x6 (ix2 r k) = _
  rw [layer_payload]
  exact layer_local x0 x1 A X _ _ _ _ _ r R ha hx k

/-- What point `t` writes back is block `t` of the whole function. -/
theorem flushed_eq (c : Dev nD) (t : Fin cfg5.N) :
    (dat5 V c).flushed 7 t = ((cfg5.win 7).blk t).view.read (Elt Ideal) (G V c) := by
  show (cfg5.win 7).cut (grid5.coords t) ((dat5 V c).after 7 t) = _
  rw [after5_7]
  unfold out5_7
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13, e14, e15⟩ := idx_facts t
  have ht : t.val < 50 := t.isLt
  funext j
  obtain ⟨r, k, rfl⟩ : ∃ (r : Fin 2000) (k : Fin 128), j = ix2 r k := ⟨j 0, j 1, eq_ix2 j⟩
  have hr : r.val < 2000 := r.isLt
  have hemb : ((cfg5.win 7).blk t).view.emb (ix2 r k) = ix2 (⟨t.val * 2000 + r.val, by omega⟩ : Fin 100000) k := by
    funext a; apply Fin.ext
    match a with
    | ⟨0, _⟩ => show win5_7.index t (0 : Fin 2) * 2000 + 1 * r.val = t.val * 2000 + r.val; omega
    | ⟨1, _⟩ => show win5_7.index t (1 : Fin 2) * 128 + 1 * k.val = k.val; omega
  show k5_pay1 (F := Ideal) (k5_pay2 (iblk5 V c 0 t) (iblk5 V c 2 t) (iblk5 V c 1 t) (iblk5 V c 4 t) (iblk5 V c 3 t))
      (k5_pay3 (iblk5 V c 5 t)) (iblk5 V c 6 t) (ix2 r k) = G V c (((cfg5.win 7).blk t).view.emb (ix2 r k))
  rw [hemb]
  refine block_entry (iblk5 V c 0 t) (iblk5 V c 1 t) (iblk5 V c 2 t) (iblk5 V c 3 t) (iblk5 V c 4 t) (iblk5 V c 5 t) (iblk5 V c 6 t)
    (V c main_v99) (V c main_v55) (V c main_arg21) (V c main_arg23) (V c main_v104) (V c main_v105) (V c main_v106)
    ⟨t.val * 2000 + r.val, by omega⟩ r k (fun q => ?_) (fun q => ?_) ?_ ?_ ?_ ?_ ?_
  · show V c main_v99 (((cfg5.win 0).blk t).view.emb (ix2 r q)) = V c main_v99 (ix2 (⟨t.val * 2000 + r.val, by omega⟩ : Fin 100000) q)
    refine congrArg (V c main_v99) (funext fun a => Fin.ext ?_)
    match a with
    | ⟨0, _⟩ => show win5_0.index t (0 : Fin 2) * 2000 + 1 * r.val = t.val * 2000 + r.val; omega
    | ⟨1, _⟩ => show win5_0.index t (1 : Fin 2) * 128 + 1 * q.val = q.val; omega
  · show V c main_v55 (((cfg5.win 1).blk t).view.emb (ix2 r q)) = V c main_v55 (ix2 (⟨t.val * 2000 + r.val, by omega⟩ : Fin 100000) q)
    refine congrArg (V c main_v55) (funext fun a => Fin.ext ?_)
    match a with
    | ⟨0, _⟩ => show win5_1.index t (0 : Fin 2) * 2000 + 1 * r.val = t.val * 2000 + r.val; omega
    | ⟨1, _⟩ => show win5_1.index t (1 : Fin 2) * 128 + 1 * q.val = q.val; omega
  · funext y
    show V c main_arg21 (((cfg5.win 2).blk t).view.emb y) = V c main_arg21 y
    refine congrArg (V c main_arg21) (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · funext y
    show V c main_v104 (((cfg5.win 3).blk t).view.emb y) = V c main_v104 y
    refine congrArg (V c main_v104) (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · funext y
    show V c main_arg23 (((cfg5.win 4).blk t).view.emb y) = V c main_arg23 y
    refine congrArg (V c main_arg23) (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  · funext y
    show V c main_v105 (((cfg5.win 5).blk t).view.emb y) = V c main_v105 y
    refine congrArg (V c main_v105) (funext fun a => Fin.ext ?_)
    match a with
    | ⟨0, _⟩ => show win5_5.index t (0 : Fin 2) * 1 + 1 * (y 0).val = (y 0).val; omega
    | ⟨1, _⟩ => show win5_5.index t (1 : Fin 2) * 128 + 1 * (y 1).val = (y 1).val; omega
  · funext y
    show V c main_v106 (((cfg5.win 6).blk t).view.emb y) = V c main_v106 y
    refine congrArg (V c main_v106) (funext fun a => Fin.ext ?_)
    match a with
    | ⟨0, _⟩ => show win5_6.index t (0 : Fin 2) * 1 + 1 * (y 0).val = (y 0).val; omega
    | ⟨1, _⟩ => show win5_6.index t (1 : Fin 2) * 128 + 1 * (y 1).val = (y 1).val; omega

/-- An index of the array is in point `t`'s block iff each coordinate is in the block's range. -/
theorem mem_blk (t : Fin cfg5.N) (i : S100000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v107).slice (win5_7.rect t)).set ↔ _
  rw [View.set_slice_whole, Rect.mem_set_unit]
  exact Iff.rfl

/-- Every row lies in the block of the point "row / 2000". -/
theorem cover (i : S100000x128.Idx) : ∃ t : Fin cfg5.N, (cfg5.win 7).flush t = true ∧ i ∈ ((cfg5.win 7).blk t).view.set := by
  have hi0 : (i 0).val < 100000 := (i 0).isLt
  have hi1 : (i 1).val < 128 := (i 1).isLt
  refine ⟨⟨(i 0).val / 2000, by show (i 0).val / 2000 < 50; omega⟩, flush5_7 _, ?_⟩
  rw [mem_blk]
  obtain ⟨-, -, -, -, -, -, -, -, -, -, -, -, -, -, e14, e15⟩ := idx_facts ⟨(i 0).val / 2000, by show (i 0).val / 2000 < 50; omega⟩
  intro a
  match a with
  | ⟨0, _⟩ => show win5_7.index _ (0 : Fin 2) * 2000 ≤ (i 0).val ∧ (i 0).val < win5_7.index _ (0 : Fin 2) * 2000 + 2000; rw [e14]; show (i 0).val / 2000 * 2000 ≤ (i 0).val ∧ (i 0).val < (i 0).val / 2000 * 2000 + 2000; omega
  | ⟨1, _⟩ => show win5_7.index _ (1 : Fin 2) * 128 ≤ (i 1).val ∧ (i 1).val < win5_7.index _ (1 : Fin 2) * 128 + 128; rw [e15]; omega

/-- The output array after the call. -/
theorem final (c : Dev nD) : (dat5 V c).arrAt 7 cfg5.N = G V c :=
  (dat5 V c).arrAt_eq_of_cover 7 (G V c) (fun t _ => flushed_eq V c t) (cover)

end Cert.KernelIdeal.Region5

end
-- ==== Proof.KValue.lean ====
/-
  The idealized kernel's result as a function of its arguments.

  The program's buffers are followed through its thirteen segments.  A host stretch leaves each buffer it writes at its
  operation's value of the buffers it reads, and every other buffer as it was; a call leaves its output array at the
  projection, or the layer, of the arrays it found (the six per-call modules), and every other buffer as it was.  Reading
  the fold from the launch memory: the two projections of the node features; the edge means of the other side's features;
  the first layer with relu on both sides; the edge means again; the second layer; the two results stacked.  A bias or scale
  vector enters a call reshaped to a [1, 128] row.
-/
import proofs.«113096_j6545530159457_1_alg».proof.Proof.Gen.KernelIdeal.Frame
import proofs.«113096_j6545530159457_1_alg».proof.Proof.Region0
import proofs.«113096_j6545530159457_1_alg».proof.Proof.Region1
import proofs.«113096_j6545530159457_1_alg».proof.Proof.Region2
import proofs.«113096_j6545530159457_1_alg».proof.Proof.Region3
import proofs.«113096_j6545530159457_1_alg».proof.Proof.Region4
import proofs.«113096_j6545530159457_1_alg».proof.Proof.Region5

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Spec

/-- The source and destination node of every edge, as the programs read them off the edge list. -/
def srcIdx (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000
def dstIdx (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The mean over the incoming edges: gather the source rows (a negative index counted from the end), add them into the
    destination rows, count the edges per destination, divide by the count or by one.  Kept as one function: both programs
    apply these same operations. -/
def segMeanK (h : S100000x128.Idx → EReal) (e : (⟨S2x600000, .i32⟩ : BufTy).Contents (Elt Ideal)) : S100000x128.Idx → EReal :=
  Host.divf (F := Ideal)
    (Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 (dstIdx e))
      (Host.gather gather_S100000x128_S600000x1_S600000x128_1_0_n_n_0_1_1128 h
        (broadcastInDim S600000x1 ![0] bcast_S600000_S600000x1_0
          (select (cmpi .slt (srcIdx e) (broadcastInDim S600000 ![] bcast_S_S600000 (constantI S_ 32 0#32)))
            (addi (srcIdx e) (broadcastInDim S600000 ![] bcast_S_S600000 (constantI S_ 32 100000#32))) (srcIdx e)))))
    (broadcastInDim S100000x128 ![0, 1] bcast_S100000x1_S100000x128_0_1
      (maximumf (F := Ideal) (φ := .f32)
        (Host.scatterAdd (F := Ideal) scatter_S100000x1_S600000x1_S600000x1_1_0_0_1
          (broadcastInDim S100000x1 ![] bcast_S_S100000x1 (constant (F := Ideal) S_ .f32 0x00000000#32))
          (broadcastInDim S600000x1 ![0] bcast_S600000_S600000x1_0 (dstIdx e))
          (broadcastInDim S600000x1 ![] bcast_S_S600000x1 (constant (F := Ideal) S_ .f32 0x3F800000#32)))
        (broadcastInDim S100000x1 ![] bcast_S_S100000x1 (constant (F := Ideal) S_ .f32 0x3F800000#32))))

/-- The two final feature arrays stacked along a new leading axis. -/
def stackOf (hu hi : S100000x128.Idx → EReal) : S2x100000x128.Idx → EReal :=
  concatenate S2x100000x128 0 [⟨S1x100000x128, broadcastInDim S1x100000x128 ![1, 2] bcast_S100000x128_S1x100000x128_1_2 hu⟩,
    ⟨S1x100000x128, broadcastInDim S1x100000x128 ![1, 2] bcast_S100000x128_S1x100000x128_1_2 hi⟩]
    concatenates_S1x100000x128_S1x100000x128_S2x100000x128_d0

variable (m : (ℓ : Loc nD τ sig) → Buf (Elt Ideal) ℓ) (ρ : Dev nD → PrngReg) (c : Dev nD)

/-! ## The stages' values, from the launch memory -/

def hu0 : S100000x128.Idx → EReal := projA (n := 100000) (K := 256) (m ((c : Thread nD τ).loc main_arg0)) (transpose S256x128 [1, 0] (m ((c : Thread nD τ).loc main_arg4)) transposes_S128x256_p1_0_S256x128) (shapeCast S1x128 (m ((c : Thread nD τ).loc main_arg5)) shapeCasts_S128_S1x128)
def hi0 : S100000x128.Idx → EReal := projA (n := 100000) (K := 256) (m ((c : Thread nD τ).loc main_arg1)) (transpose S256x128 [1, 0] (m ((c : Thread nD τ).loc main_arg6)) transposes_S128x256_p1_0_S256x128) (shapeCast S1x128 (m ((c : Thread nD τ).loc main_arg7)) shapeCasts_S128_S1x128)
def hi1 : S100000x128.Idx → EReal :=
  layerReluA (n := 100000) (segMeanK (hu0 m c) (m ((c : Thread nD τ).loc main_arg2))) (hi0 m c) (transpose S128x128 [1, 0] (m ((c : Thread nD τ).loc main_arg12)) transposes_S128x128_p1_0_S128x128) (transpose S128x128 [1, 0] (m ((c : Thread nD τ).loc main_arg14)) transposes_S128x128_p1_0_S128x128) (shapeCast S1x128 (m ((c : Thread nD τ).loc main_arg13)) shapeCasts_S128_S1x128) (shapeCast S1x128 (m ((c : Thread nD τ).loc main_arg10)) shapeCasts_S128_S1x128) (shapeCast S1x128 (m ((c : Thread nD τ).loc main_arg11)) shapeCasts_S128_S1x128)
def hu1 : S100000x128.Idx → EReal :=
  layerReluA (n := 100000) (segMeanK (hi0 m c) (m ((c : Thread nD τ).loc main_arg3))) (hu0 m c) (transpose S128x128 [1, 0] (m ((c : Thread nD τ).loc main_arg15)) transposes_S128x128_p1_0_S128x128) (transpose S128x128 [1, 0] (m ((c : Thread nD τ).loc main_arg17)) transposes_S128x128_p1_0_S128x128) (shapeCast S1x128 (m ((c : Thread nD τ).loc main_arg16)) shapeCasts_S128_S1x128) (shapeCast S1x128 (m ((c : Thread nD τ).loc main_arg8)) shapeCasts_S128_S1x128) (shapeCast S1x128 (m ((c : Thread nD τ).loc main_arg9)) shapeCasts_S128_S1x128)
def hi2 : S100000x128.Idx → EReal :=
  layerA (n := 100000) (segMeanK (hu1 m c) (m ((c : Thread nD τ).loc main_arg2))) (hi1 m c) (transpose S128x128 [1, 0] (m ((c : Thread nD τ).loc main_arg18)) transposes_S128x128_p1_0_S128x128) (transpose S128x128 [1, 0] (m ((c : Thread nD τ).loc main_arg20)) transposes_S128x128_p1_0_S128x128) (shapeCast S1x128 (m ((c : Thread nD τ).loc main_arg19)) shapeCasts_S128_S1x128) (shapeCast S1x128 (m ((c : Thread nD τ).loc main_arg10)) shapeCasts_S128_S1x128) (shapeCast S1x128 (m ((c : Thread nD τ).loc main_arg11)) shapeCasts_S128_S1x128)
def hu2 : S100000x128.Idx → EReal :=
  layerA (n := 100000) (segMeanK (hi1 m c) (m ((c : Thread nD τ).loc main_arg3))) (hu1 m c) (transpose S128x128 [1, 0] (m ((c : Thread nD τ).loc main_arg21)) transposes_S128x128_p1_0_S128x128) (transpose S128x128 [1, 0] (m ((c : Thread nD τ).loc main_arg23)) transposes_S128x128_p1_0_S128x128) (shapeCast S1x128 (m ((c : Thread nD τ).loc main_arg22)) shapeCasts_S128_S1x128) (shapeCast S1x128 (m ((c : Thread nD τ).loc main_arg8)) shapeCasts_S128_S1x128) (shapeCast S1x128 (m ((c : Thread nD τ).loc main_arg9)) shapeCasts_S128_S1x128)
def outK : S2x100000x128.Idx → EReal := stackOf (hu2 m c) (hi2 m c)

/-! ## The buffers each host stretch writes -/

theorem wr_sub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

abbrev hw0 : List (Ref sig .tc) := [main_v0]
theorem host0_writes : (hostOps0 : List (HloOp τ sig (Elt Ideal))).Forall fun op => op.writes ⊆ ((hw0).map (Proc.devRef (τ := τ) .tc)).toFinset :=
  wr_sub main_v0 (by decide)
abbrev hw1 : List (Ref sig .tc) := [main_v2]
theorem host1_writes : (hostOps1 : List (HloOp τ sig (Elt Ideal))).Forall fun op => op.writes ⊆ ((hw1).map (Proc.devRef (τ := τ) .tc)).toFinset :=
  wr_sub main_v2 (by decide)
abbrev hw2 : List (Ref sig .tc) := [main_v4, main_v5, main_c, main_v6, main_v7, main_c_0, main_v8, main_v9, main_v10, main_v11, main_v12, main_v13, main_v14, main_cst, main_v15, main_v16, main_v17, main_cst_1, main_v18, main_cst_2, main_v19, main_v20, main_v21, main_cst_3, main_v22, main_v23, main_v24, main_v25, main_v26, main_v27, main_c_4, main_v28, main_v29, main_c_5, main_v30, main_v31, main_v32, main_v33, main_v34, main_v35, main_v36, main_cst_6, main_v37, main_v38, main_v39, main_cst_7, main_v40, main_cst_8, main_v41, main_v42, main_v43, main_cst_9, main_v44, main_v45, main_v46, main_v47, main_v48, main_v49, main_v50]
theorem host2_writes : (hostOps2 : List (HloOp τ sig (Elt Ideal))).Forall fun op => op.writes ⊆ ((hw2).map (Proc.devRef (τ := τ) .tc)).toFinset :=
  ⟨wr_sub main_v4 (by decide), wr_sub main_v5 (by decide), wr_sub main_c (by decide), wr_sub main_v6 (by decide), wr_sub main_v7 (by decide), wr_sub main_c_0 (by decide), wr_sub main_v8 (by decide), wr_sub main_v9 (by decide), wr_sub main_v10 (by decide), wr_sub main_v11 (by decide), wr_sub main_v12 (by decide), wr_sub main_v13 (by decide), wr_sub main_v14 (by decide), wr_sub main_cst (by decide), wr_sub main_v15 (by decide), wr_sub main_v16 (by decide), wr_sub main_v17 (by decide), wr_sub main_cst_1 (by decide), wr_sub main_v18 (by decide), wr_sub main_cst_2 (by decide), wr_sub main_v19 (by decide), wr_sub main_v20 (by decide), wr_sub main_v21 (by decide), wr_sub main_cst_3 (by decide), wr_sub main_v22 (by decide), wr_sub main_v23 (by decide), wr_sub main_v24 (by decide), wr_sub main_v25 (by decide), wr_sub main_v26 (by decide), wr_sub main_v27 (by decide), wr_sub main_c_4 (by decide), wr_sub main_v28 (by decide), wr_sub main_v29 (by decide), wr_sub main_c_5 (by decide), wr_sub main_v30 (by decide), wr_sub main_v31 (by decide), wr_sub main_v32 (by decide), wr_sub main_v33 (by decide), wr_sub main_v34 (by decide), wr_sub main_v35 (by decide), wr_sub main_v36 (by decide), wr_sub main_cst_6 (by decide), wr_sub main_v37 (by decide), wr_sub main_v38 (by decide), wr_sub main_v39 (by decide), wr_sub main_cst_7 (by decide), wr_sub main_v40 (by decide), wr_sub main_cst_8 (by decide), wr_sub main_v41 (by decide), wr_sub main_v42 (by decide), wr_sub main_v43 (by decide), wr_sub main_cst_9 (by decide), wr_sub main_v44 (by decide), wr_sub main_v45 (by decide), wr_sub main_v46 (by decide), wr_sub main_v47 (by decide), wr_sub main_v48 (by decide), wr_sub main_v49 (by decide), wr_sub main_v50 (by decide)⟩
abbrev hw3 : List (Ref sig .tc) := [main_v52, main_v53, main_v54]
theorem host3_writes : (hostOps3 : List (HloOp τ sig (Elt Ideal))).Forall fun op => op.writes ⊆ ((hw3).map (Proc.devRef (τ := τ) .tc)).toFinset :=
  ⟨wr_sub main_v52 (by decide), wr_sub main_v53 (by decide), wr_sub main_v54 (by decide)⟩
abbrev hw4 : List (Ref sig .tc) := [main_v56, main_v57, main_c_10, main_v58, main_v59, main_c_11, main_v60, main_v61, main_v62, main_v63, main_v64, main_v65, main_v66, main_cst_12, main_v67, main_v68, main_v69, main_cst_13, main_v70, main_cst_14, main_v71, main_v72, main_v73, main_cst_15, main_v74, main_v75, main_v76, main_v77, main_v78, main_v79, main_c_16, main_v80, main_v81, main_c_17, main_v82, main_v83, main_v84, main_v85, main_v86, main_v87, main_v88, main_cst_18, main_v89, main_v90, main_v91, main_cst_19, main_v92, main_cst_20, main_v93, main_v94, main_v95, main_cst_21, main_v96, main_v97, main_v98, main_v99, main_v100, main_v101, main_v102]
theorem host4_writes : (hostOps4 : List (HloOp τ sig (Elt Ideal))).Forall fun op => op.writes ⊆ ((hw4).map (Proc.devRef (τ := τ) .tc)).toFinset :=
  ⟨wr_sub main_v56 (by decide), wr_sub main_v57 (by decide), wr_sub main_c_10 (by decide), wr_sub main_v58 (by decide), wr_sub main_v59 (by decide), wr_sub main_c_11 (by decide), wr_sub main_v60 (by decide), wr_sub main_v61 (by decide), wr_sub main_v62 (by decide), wr_sub main_v63 (by decide), wr_sub main_v64 (by decide), wr_sub main_v65 (by decide), wr_sub main_v66 (by decide), wr_sub main_cst_12 (by decide), wr_sub main_v67 (by decide), wr_sub main_v68 (by decide), wr_sub main_v69 (by decide), wr_sub main_cst_13 (by decide), wr_sub main_v70 (by decide), wr_sub main_cst_14 (by decide), wr_sub main_v71 (by decide), wr_sub main_v72 (by decide), wr_sub main_v73 (by decide), wr_sub main_cst_15 (by decide), wr_sub main_v74 (by decide), wr_sub main_v75 (by decide), wr_sub main_v76 (by decide), wr_sub main_v77 (by decide), wr_sub main_v78 (by decide), wr_sub main_v79 (by decide), wr_sub main_c_16 (by decide), wr_sub main_v80 (by decide), wr_sub main_v81 (by decide), wr_sub main_c_17 (by decide), wr_sub main_v82 (by decide), wr_sub main_v83 (by decide), wr_sub main_v84 (by decide), wr_sub main_v85 (by decide), wr_sub main_v86 (by decide), wr_sub main_v87 (by decide), wr_sub main_v88 (by decide), wr_sub main_cst_18 (by decide), wr_sub main_v89 (by decide), wr_sub main_v90 (by decide), wr_sub main_v91 (by decide), wr_sub main_cst_19 (by decide), wr_sub main_v92 (by decide), wr_sub main_cst_20 (by decide), wr_sub main_v93 (by decide), wr_sub main_v94 (by decide), wr_sub main_v95 (by decide), wr_sub main_cst_21 (by decide), wr_sub main_v96 (by decide), wr_sub main_v97 (by decide), wr_sub main_v98 (by decide), wr_sub main_v99 (by decide), wr_sub main_v100 (by decide), wr_sub main_v101 (by decide), wr_sub main_v102 (by decide)⟩
abbrev hw5 : List (Ref sig .tc) := [main_v104, main_v105, main_v106]
theorem host5_writes : (hostOps5 : List (HloOp τ sig (Elt Ideal))).Forall fun op => op.writes ⊆ ((hw5).map (Proc.devRef (τ := τ) .tc)).toFinset :=
  ⟨wr_sub main_v104 (by decide), wr_sub main_v105 (by decide), wr_sub main_v106 (by decide)⟩
abbrev hw6 : List (Ref sig .tc) := [main_v108, main_v109, main_v110]
theorem host6_writes : (hostOps6 : List (HloOp τ sig (Elt Ideal))).Forall fun op => op.writes ⊆ ((hw6).map (Proc.devRef (τ := τ) .tc)).toFinset :=
  ⟨wr_sub main_v108 (by decide), wr_sub main_v109 (by decide), wr_sub main_v110 (by decide)⟩

/-! ## Each buffer at each boundary where it is read -/

theorem W0_arg5 : W0 m ρ c (Proc.devRef .tc main_arg5) = (m ((c : Thread nD τ).loc main_arg5)) := rfl

theorem W1_v0 : W1 m ρ c (Proc.devRef .tc main_v0) = (shapeCast S1x128 (m ((c : Thread nD τ).loc main_arg5)) shapeCasts_S128_S1x128) := by
  have e : W1 m ρ c (Proc.devRef .tc main_v0) = (shapeCast S1x128 (W0 m ρ c (Proc.devRef .tc main_arg5)) shapeCasts_S128_S1x128) := by
    show StableHlo.after hostOps0 (W0 m ρ c) (Proc.devRef .tc main_v0) = _
    after_results
    rfl
  rw [e, W0_arg5]

theorem W0_arg0 : W0 m ρ c (Proc.devRef .tc main_arg0) = (m ((c : Thread nD τ).loc main_arg0)) := rfl

theorem W1_arg0 : W1 m ρ c (Proc.devRef .tc main_arg0) = (m ((c : Thread nD τ).loc main_arg0)) :=
  (StableHlo.after_of_writes_sub hostOps0 (W0 m ρ c) host0_writes (by decide) : W1 m ρ c (Proc.devRef .tc main_arg0) = W0 m ρ c (Proc.devRef .tc main_arg0)).trans (W0_arg0 m ρ c)

theorem W0_arg4 : W0 m ρ c (Proc.devRef .tc main_arg4) = (m ((c : Thread nD τ).loc main_arg4)) := rfl

theorem W1_arg4 : W1 m ρ c (Proc.devRef .tc main_arg4) = (m ((c : Thread nD τ).loc main_arg4)) :=
  (StableHlo.after_of_writes_sub hostOps0 (W0 m ρ c) host0_writes (by decide) : W1 m ρ c (Proc.devRef .tc main_arg4) = W0 m ρ c (Proc.devRef .tc main_arg4)).trans (W0_arg4 m ρ c)

theorem W2_v1 : W2 m ρ c (Proc.devRef .tc main_v1) = (hu0 m c) := by
  refine (W2_arr m ρ c 3).trans ((Region0.final (V1 m ρ) c).trans ?_)
  show projA (n := 100000) (K := 256) (W1 m ρ c (Proc.devRef .tc main_arg0)) (transpose S256x128 [1, 0] (W1 m ρ c (Proc.devRef .tc main_arg4)) transposes_S128x256_p1_0_S256x128) (W1 m ρ c (Proc.devRef .tc main_v0)) = _
  rw [W1_arg0, W1_arg4, W1_v0]
  rfl

theorem W0_arg7 : W0 m ρ c (Proc.devRef .tc main_arg7) = (m ((c : Thread nD τ).loc main_arg7)) := rfl

theorem W1_arg7 : W1 m ρ c (Proc.devRef .tc main_arg7) = (m ((c : Thread nD τ).loc main_arg7)) :=
  (StableHlo.after_of_writes_sub hostOps0 (W0 m ρ c) host0_writes (by decide) : W1 m ρ c (Proc.devRef .tc main_arg7) = W0 m ρ c (Proc.devRef .tc main_arg7)).trans (W0_arg7 m ρ c)

theorem W2_arg7 : W2 m ρ c (Proc.devRef .tc main_arg7) = (m ((c : Thread nD τ).loc main_arg7)) :=
  (W2_of_ne m ρ c main_arg7 (by decide) : W2 m ρ c (Proc.devRef .tc main_arg7) = W1 m ρ c (Proc.devRef .tc main_arg7)).trans (W1_arg7 m ρ c)

theorem W3_v2 : W3 m ρ c (Proc.devRef .tc main_v2) = (shapeCast S1x128 (m ((c : Thread nD τ).loc main_arg7)) shapeCasts_S128_S1x128) := by
  have e : W3 m ρ c (Proc.devRef .tc main_v2) = (shapeCast S1x128 (W2 m ρ c (Proc.devRef .tc main_arg7)) shapeCasts_S128_S1x128) := by
    show StableHlo.after hostOps1 (W2 m ρ c) (Proc.devRef .tc main_v2) = _
    after_results
    rfl
  rw [e, W2_arg7]

theorem W0_arg1 : W0 m ρ c (Proc.devRef .tc main_arg1) = (m ((c : Thread nD τ).loc main_arg1)) := rfl

theorem W1_arg1 : W1 m ρ c (Proc.devRef .tc main_arg1) = (m ((c : Thread nD τ).loc main_arg1)) :=
  (StableHlo.after_of_writes_sub hostOps0 (W0 m ρ c) host0_writes (by decide) : W1 m ρ c (Proc.devRef .tc main_arg1) = W0 m ρ c (Proc.devRef .tc main_arg1)).trans (W0_arg1 m ρ c)

theorem W2_arg1 : W2 m ρ c (Proc.devRef .tc main_arg1) = (m ((c : Thread nD τ).loc main_arg1)) :=
  (W2_of_ne m ρ c main_arg1 (by decide) : W2 m ρ c (Proc.devRef .tc main_arg1) = W1 m ρ c (Proc.devRef .tc main_arg1)).trans (W1_arg1 m ρ c)

theorem W3_arg1 : W3 m ρ c (Proc.devRef .tc main_arg1) = (m ((c : Thread nD τ).loc main_arg1)) :=
  (StableHlo.after_of_writes_sub hostOps1 (W2 m ρ c) host1_writes (by decide) : W3 m ρ c (Proc.devRef .tc main_arg1) = W2 m ρ c (Proc.devRef .tc main_arg1)).trans (W2_arg1 m ρ c)

theorem W0_arg6 : W0 m ρ c (Proc.devRef .tc main_arg6) = (m ((c : Thread nD τ).loc main_arg6)) := rfl

theorem W1_arg6 : W1 m ρ c (Proc.devRef .tc main_arg6) = (m ((c : Thread nD τ).loc main_arg6)) :=
  (StableHlo.after_of_writes_sub hostOps0 (W0 m ρ c) host0_writes (by decide) : W1 m ρ c (Proc.devRef .tc main_arg6) = W0 m ρ c (Proc.devRef .tc main_arg6)).trans (W0_arg6 m ρ c)

theorem W2_arg6 : W2 m ρ c (Proc.devRef .tc main_arg6) = (m ((c : Thread nD τ).loc main_arg6)) :=
  (W2_of_ne m ρ c main_arg6 (by decide) : W2 m ρ c (Proc.devRef .tc main_arg6) = W1 m ρ c (Proc.devRef .tc main_arg6)).trans (W1_arg6 m ρ c)

theorem W3_arg6 : W3 m ρ c (Proc.devRef .tc main_arg6) = (m ((c : Thread nD τ).loc main_arg6)) :=
  (StableHlo.after_of_writes_sub hostOps1 (W2 m ρ c) host1_writes (by decide) : W3 m ρ c (Proc.devRef .tc main_arg6) = W2 m ρ c (Proc.devRef .tc main_arg6)).trans (W2_arg6 m ρ c)

theorem W4_v3 : W4 m ρ c (Proc.devRef .tc main_v3) = (hi0 m c) := by
  refine (W4_arr m ρ c 3).trans ((Region1.final (V3 m ρ) c).trans ?_)
  show projA (n := 100000) (K := 256) (W3 m ρ c (Proc.devRef .tc main_arg1)) (transpose S256x128 [1, 0] (W3 m ρ c (Proc.devRef .tc main_arg6)) transposes_S128x256_p1_0_S256x128) (W3 m ρ c (Proc.devRef .tc main_v2)) = _
  rw [W3_arg1, W3_arg6, W3_v2]
  rfl

theorem W3_v1 : W3 m ρ c (Proc.devRef .tc main_v1) = (hu0 m c) :=
  (StableHlo.after_of_writes_sub hostOps1 (W2 m ρ c) host1_writes (by decide) : W3 m ρ c (Proc.devRef .tc main_v1) = W2 m ρ c (Proc.devRef .tc main_v1)).trans (W2_v1 m ρ c)

theorem W4_v1 : W4 m ρ c (Proc.devRef .tc main_v1) = (hu0 m c) :=
  (W4_of_ne m ρ c main_v1 (by decide) : W4 m ρ c (Proc.devRef .tc main_v1) = W3 m ρ c (Proc.devRef .tc main_v1)).trans (W3_v1 m ρ c)

theorem W0_arg2 : W0 m ρ c (Proc.devRef .tc main_arg2) = (m ((c : Thread nD τ).loc main_arg2)) := rfl

theorem W1_arg2 : W1 m ρ c (Proc.devRef .tc main_arg2) = (m ((c : Thread nD τ).loc main_arg2)) :=
  (StableHlo.after_of_writes_sub hostOps0 (W0 m ρ c) host0_writes (by decide) : W1 m ρ c (Proc.devRef .tc main_arg2) = W0 m ρ c (Proc.devRef .tc main_arg2)).trans (W0_arg2 m ρ c)

theorem W2_arg2 : W2 m ρ c (Proc.devRef .tc main_arg2) = (m ((c : Thread nD τ).loc main_arg2)) :=
  (W2_of_ne m ρ c main_arg2 (by decide) : W2 m ρ c (Proc.devRef .tc main_arg2) = W1 m ρ c (Proc.devRef .tc main_arg2)).trans (W1_arg2 m ρ c)

theorem W3_arg2 : W3 m ρ c (Proc.devRef .tc main_arg2) = (m ((c : Thread nD τ).loc main_arg2)) :=
  (StableHlo.after_of_writes_sub hostOps1 (W2 m ρ c) host1_writes (by decide) : W3 m ρ c (Proc.devRef .tc main_arg2) = W2 m ρ c (Proc.devRef .tc main_arg2)).trans (W2_arg2 m ρ c)

theorem W4_arg2 : W4 m ρ c (Proc.devRef .tc main_arg2) = (m ((c : Thread nD τ).loc main_arg2)) :=
  (W4_of_ne m ρ c main_arg2 (by decide) : W4 m ρ c (Proc.devRef .tc main_arg2) = W3 m ρ c (Proc.devRef .tc main_arg2)).trans (W3_arg2 m ρ c)

set_option maxHeartbeats 4000000 in
theorem W5_v25 : W5 m ρ c (Proc.devRef .tc main_v25) = (segMeanK (hu0 m c) (m ((c : Thread nD τ).loc main_arg2))) := by
  have e : W5 m ρ c (Proc.devRef .tc main_v25) = segMeanK (W4 m ρ c (Proc.devRef .tc main_v1)) (W4 m ρ c (Proc.devRef .tc main_arg2)) := by
    show StableHlo.after hostOps2 (W4 m ρ c) (Proc.devRef .tc main_v25) = _
    after_results_simp
    rfl
  rw [e, W4_v1, W4_arg2]

theorem W0_arg3 : W0 m ρ c (Proc.devRef .tc main_arg3) = (m ((c : Thread nD τ).loc main_arg3)) := rfl

theorem W1_arg3 : W1 m ρ c (Proc.devRef .tc main_arg3) = (m ((c : Thread nD τ).loc main_arg3)) :=
  (StableHlo.after_of_writes_sub hostOps0 (W0 m ρ c) host0_writes (by decide) : W1 m ρ c (Proc.devRef .tc main_arg3) = W0 m ρ c (Proc.devRef .tc main_arg3)).trans (W0_arg3 m ρ c)

theorem W2_arg3 : W2 m ρ c (Proc.devRef .tc main_arg3) = (m ((c : Thread nD τ).loc main_arg3)) :=
  (W2_of_ne m ρ c main_arg3 (by decide) : W2 m ρ c (Proc.devRef .tc main_arg3) = W1 m ρ c (Proc.devRef .tc main_arg3)).trans (W1_arg3 m ρ c)

theorem W3_arg3 : W3 m ρ c (Proc.devRef .tc main_arg3) = (m ((c : Thread nD τ).loc main_arg3)) :=
  (StableHlo.after_of_writes_sub hostOps1 (W2 m ρ c) host1_writes (by decide) : W3 m ρ c (Proc.devRef .tc main_arg3) = W2 m ρ c (Proc.devRef .tc main_arg3)).trans (W2_arg3 m ρ c)

theorem W4_arg3 : W4 m ρ c (Proc.devRef .tc main_arg3) = (m ((c : Thread nD τ).loc main_arg3)) :=
  (W4_of_ne m ρ c main_arg3 (by decide) : W4 m ρ c (Proc.devRef .tc main_arg3) = W3 m ρ c (Proc.devRef .tc main_arg3)).trans (W3_arg3 m ρ c)

set_option maxHeartbeats 4000000 in
theorem W5_v47 : W5 m ρ c (Proc.devRef .tc main_v47) = (segMeanK (hi0 m c) (m ((c : Thread nD τ).loc main_arg3))) := by
  have e : W5 m ρ c (Proc.devRef .tc main_v47) = segMeanK (W4 m ρ c (Proc.devRef .tc main_v3)) (W4 m ρ c (Proc.devRef .tc main_arg3)) := by
    show StableHlo.after hostOps2 (W4 m ρ c) (Proc.devRef .tc main_v47) = _
    after_results_simp
    rfl
  rw [e, W4_v3, W4_arg3]

theorem W0_arg13 : W0 m ρ c (Proc.devRef .tc main_arg13) = (m ((c : Thread nD τ).loc main_arg13)) := rfl

theorem W1_arg13 : W1 m ρ c (Proc.devRef .tc main_arg13) = (m ((c : Thread nD τ).loc main_arg13)) :=
  (StableHlo.after_of_writes_sub hostOps0 (W0 m ρ c) host0_writes (by decide) : W1 m ρ c (Proc.devRef .tc main_arg13) = W0 m ρ c (Proc.devRef .tc main_arg13)).trans (W0_arg13 m ρ c)

theorem W2_arg13 : W2 m ρ c (Proc.devRef .tc main_arg13) = (m ((c : Thread nD τ).loc main_arg13)) :=
  (W2_of_ne m ρ c main_arg13 (by decide) : W2 m ρ c (Proc.devRef .tc main_arg13) = W1 m ρ c (Proc.devRef .tc main_arg13)).trans (W1_arg13 m ρ c)

theorem W3_arg13 : W3 m ρ c (Proc.devRef .tc main_arg13) = (m ((c : Thread nD τ).loc main_arg13)) :=
  (StableHlo.after_of_writes_sub hostOps1 (W2 m ρ c) host1_writes (by decide) : W3 m ρ c (Proc.devRef .tc main_arg13) = W2 m ρ c (Proc.devRef .tc main_arg13)).trans (W2_arg13 m ρ c)

theorem W4_arg13 : W4 m ρ c (Proc.devRef .tc main_arg13) = (m ((c : Thread nD τ).loc main_arg13)) :=
  (W4_of_ne m ρ c main_arg13 (by decide) : W4 m ρ c (Proc.devRef .tc main_arg13) = W3 m ρ c (Proc.devRef .tc main_arg13)).trans (W3_arg13 m ρ c)

theorem W5_v48 : W5 m ρ c (Proc.devRef .tc main_v48) = (shapeCast S1x128 (m ((c : Thread nD τ).loc main_arg13)) shapeCasts_S128_S1x128) := by
  have e : W5 m ρ c (Proc.devRef .tc main_v48) = (shapeCast S1x128 (W4 m ρ c (Proc.devRef .tc main_arg13)) shapeCasts_S128_S1x128) := by
    show StableHlo.after hostOps2 (W4 m ρ c) (Proc.devRef .tc main_v48) = _
    after_results
    rfl
  rw [e, W4_arg13]

theorem W0_arg10 : W0 m ρ c (Proc.devRef .tc main_arg10) = (m ((c : Thread nD τ).loc main_arg10)) := rfl

theorem W1_arg10 : W1 m ρ c (Proc.devRef .tc main_arg10) = (m ((c : Thread nD τ).loc main_arg10)) :=
  (StableHlo.after_of_writes_sub hostOps0 (W0 m ρ c) host0_writes (by decide) : W1 m ρ c (Proc.devRef .tc main_arg10) = W0 m ρ c (Proc.devRef .tc main_arg10)).trans (W0_arg10 m ρ c)

theorem W2_arg10 : W2 m ρ c (Proc.devRef .tc main_arg10) = (m ((c : Thread nD τ).loc main_arg10)) :=
  (W2_of_ne m ρ c main_arg10 (by decide) : W2 m ρ c (Proc.devRef .tc main_arg10) = W1 m ρ c (Proc.devRef .tc main_arg10)).trans (W1_arg10 m ρ c)

theorem W3_arg10 : W3 m ρ c (Proc.devRef .tc main_arg10) = (m ((c : Thread nD τ).loc main_arg10)) :=
  (StableHlo.after_of_writes_sub hostOps1 (W2 m ρ c) host1_writes (by decide) : W3 m ρ c (Proc.devRef .tc main_arg10) = W2 m ρ c (Proc.devRef .tc main_arg10)).trans (W2_arg10 m ρ c)

theorem W4_arg10 : W4 m ρ c (Proc.devRef .tc main_arg10) = (m ((c : Thread nD τ).loc main_arg10)) :=
  (W4_of_ne m ρ c main_arg10 (by decide) : W4 m ρ c (Proc.devRef .tc main_arg10) = W3 m ρ c (Proc.devRef .tc main_arg10)).trans (W3_arg10 m ρ c)

theorem W5_v49 : W5 m ρ c (Proc.devRef .tc main_v49) = (shapeCast S1x128 (m ((c : Thread nD τ).loc main_arg10)) shapeCasts_S128_S1x128) := by
  have e : W5 m ρ c (Proc.devRef .tc main_v49) = (shapeCast S1x128 (W4 m ρ c (Proc.devRef .tc main_arg10)) shapeCasts_S128_S1x128) := by
    show StableHlo.after hostOps2 (W4 m ρ c) (Proc.devRef .tc main_v49) = _
    after_results
    rfl
  rw [e, W4_arg10]

theorem W0_arg11 : W0 m ρ c (Proc.devRef .tc main_arg11) = (m ((c : Thread nD τ).loc main_arg11)) := rfl

theorem W1_arg11 : W1 m ρ c (Proc.devRef .tc main_arg11) = (m ((c : Thread nD τ).loc main_arg11)) :=
  (StableHlo.after_of_writes_sub hostOps0 (W0 m ρ c) host0_writes (by decide) : W1 m ρ c (Proc.devRef .tc main_arg11) = W0 m ρ c (Proc.devRef .tc main_arg11)).trans (W0_arg11 m ρ c)

theorem W2_arg11 : W2 m ρ c (Proc.devRef .tc main_arg11) = (m ((c : Thread nD τ).loc main_arg11)) :=
  (W2_of_ne m ρ c main_arg11 (by decide) : W2 m ρ c (Proc.devRef .tc main_arg11) = W1 m ρ c (Proc.devRef .tc main_arg11)).trans (W1_arg11 m ρ c)

theorem W3_arg11 : W3 m ρ c (Proc.devRef .tc main_arg11) = (m ((c : Thread nD τ).loc main_arg11)) :=
  (StableHlo.after_of_writes_sub hostOps1 (W2 m ρ c) host1_writes (by decide) : W3 m ρ c (Proc.devRef .tc main_arg11) = W2 m ρ c (Proc.devRef .tc main_arg11)).trans (W2_arg11 m ρ c)

theorem W4_arg11 : W4 m ρ c (Proc.devRef .tc main_arg11) = (m ((c : Thread nD τ).loc main_arg11)) :=
  (W4_of_ne m ρ c main_arg11 (by decide) : W4 m ρ c (Proc.devRef .tc main_arg11) = W3 m ρ c (Proc.devRef .tc main_arg11)).trans (W3_arg11 m ρ c)

theorem W5_v50 : W5 m ρ c (Proc.devRef .tc main_v50) = (shapeCast S1x128 (m ((c : Thread nD τ).loc main_arg11)) shapeCasts_S128_S1x128) := by
  have e : W5 m ρ c (Proc.devRef .tc main_v50) = (shapeCast S1x128 (W4 m ρ c (Proc.devRef .tc main_arg11)) shapeCasts_S128_S1x128) := by
    show StableHlo.after hostOps2 (W4 m ρ c) (Proc.devRef .tc main_v50) = _
    after_results
    rfl
  rw [e, W4_arg11]

theorem W5_v3 : W5 m ρ c (Proc.devRef .tc main_v3) = (hi0 m c) :=
  (StableHlo.after_of_writes_sub hostOps2 (W4 m ρ c) host2_writes (by decide) : W5 m ρ c (Proc.devRef .tc main_v3) = W4 m ρ c (Proc.devRef .tc main_v3)).trans (W4_v3 m ρ c)

theorem W0_arg12 : W0 m ρ c (Proc.devRef .tc main_arg12) = (m ((c : Thread nD τ).loc main_arg12)) := rfl

theorem W1_arg12 : W1 m ρ c (Proc.devRef .tc main_arg12) = (m ((c : Thread nD τ).loc main_arg12)) :=
  (StableHlo.after_of_writes_sub hostOps0 (W0 m ρ c) host0_writes (by decide) : W1 m ρ c (Proc.devRef .tc main_arg12) = W0 m ρ c (Proc.devRef .tc main_arg12)).trans (W0_arg12 m ρ c)

theorem W2_arg12 : W2 m ρ c (Proc.devRef .tc main_arg12) = (m ((c : Thread nD τ).loc main_arg12)) :=
  (W2_of_ne m ρ c main_arg12 (by decide) : W2 m ρ c (Proc.devRef .tc main_arg12) = W1 m ρ c (Proc.devRef .tc main_arg12)).trans (W1_arg12 m ρ c)

theorem W3_arg12 : W3 m ρ c (Proc.devRef .tc main_arg12) = (m ((c : Thread nD τ).loc main_arg12)) :=
  (StableHlo.after_of_writes_sub hostOps1 (W2 m ρ c) host1_writes (by decide) : W3 m ρ c (Proc.devRef .tc main_arg12) = W2 m ρ c (Proc.devRef .tc main_arg12)).trans (W2_arg12 m ρ c)

theorem W4_arg12 : W4 m ρ c (Proc.devRef .tc main_arg12) = (m ((c : Thread nD τ).loc main_arg12)) :=
  (W4_of_ne m ρ c main_arg12 (by decide) : W4 m ρ c (Proc.devRef .tc main_arg12) = W3 m ρ c (Proc.devRef .tc main_arg12)).trans (W3_arg12 m ρ c)

theorem W5_arg12 : W5 m ρ c (Proc.devRef .tc main_arg12) = (m ((c : Thread nD τ).loc main_arg12)) :=
  (StableHlo.after_of_writes_sub hostOps2 (W4 m ρ c) host2_writes (by decide) : W5 m ρ c (Proc.devRef .tc main_arg12) = W4 m ρ c (Proc.devRef .tc main_arg12)).trans (W4_arg12 m ρ c)

theorem W0_arg14 : W0 m ρ c (Proc.devRef .tc main_arg14) = (m ((c : Thread nD τ).loc main_arg14)) := rfl

theorem W1_arg14 : W1 m ρ c (Proc.devRef .tc main_arg14) = (m ((c : Thread nD τ).loc main_arg14)) :=
  (StableHlo.after_of_writes_sub hostOps0 (W0 m ρ c) host0_writes (by decide) : W1 m ρ c (Proc.devRef .tc main_arg14) = W0 m ρ c (Proc.devRef .tc main_arg14)).trans (W0_arg14 m ρ c)

theorem W2_arg14 : W2 m ρ c (Proc.devRef .tc main_arg14) = (m ((c : Thread nD τ).loc main_arg14)) :=
  (W2_of_ne m ρ c main_arg14 (by decide) : W2 m ρ c (Proc.devRef .tc main_arg14) = W1 m ρ c (Proc.devRef .tc main_arg14)).trans (W1_arg14 m ρ c)

theorem W3_arg14 : W3 m ρ c (Proc.devRef .tc main_arg14) = (m ((c : Thread nD τ).loc main_arg14)) :=
  (StableHlo.after_of_writes_sub hostOps1 (W2 m ρ c) host1_writes (by decide) : W3 m ρ c (Proc.devRef .tc main_arg14) = W2 m ρ c (Proc.devRef .tc main_arg14)).trans (W2_arg14 m ρ c)

theorem W4_arg14 : W4 m ρ c (Proc.devRef .tc main_arg14) = (m ((c : Thread nD τ).loc main_arg14)) :=
  (W4_of_ne m ρ c main_arg14 (by decide) : W4 m ρ c (Proc.devRef .tc main_arg14) = W3 m ρ c (Proc.devRef .tc main_arg14)).trans (W3_arg14 m ρ c)

theorem W5_arg14 : W5 m ρ c (Proc.devRef .tc main_arg14) = (m ((c : Thread nD τ).loc main_arg14)) :=
  (StableHlo.after_of_writes_sub hostOps2 (W4 m ρ c) host2_writes (by decide) : W5 m ρ c (Proc.devRef .tc main_arg14) = W4 m ρ c (Proc.devRef .tc main_arg14)).trans (W4_arg14 m ρ c)

theorem W6_v51 : W6 m ρ c (Proc.devRef .tc main_v51) = (hi1 m c) := by
  refine (W6_arr m ρ c 7).trans ((Region2.final (V5 m ρ) c).trans ?_)
  show layerReluA (n := 100000) (W5 m ρ c (Proc.devRef .tc main_v25)) (W5 m ρ c (Proc.devRef .tc main_v3)) (transpose S128x128 [1, 0] (W5 m ρ c (Proc.devRef .tc main_arg12)) transposes_S128x128_p1_0_S128x128) (transpose S128x128 [1, 0] (W5 m ρ c (Proc.devRef .tc main_arg14)) transposes_S128x128_p1_0_S128x128) (W5 m ρ c (Proc.devRef .tc main_v48)) (W5 m ρ c (Proc.devRef .tc main_v49)) (W5 m ρ c (Proc.devRef .tc main_v50)) = _
  rw [W5_v25, W5_v3, W5_arg12, W5_v48, W5_arg14, W5_v49, W5_v50]
  rfl

theorem W0_arg16 : W0 m ρ c (Proc.devRef .tc main_arg16) = (m ((c : Thread nD τ).loc main_arg16)) := rfl

theorem W1_arg16 : W1 m ρ c (Proc.devRef .tc main_arg16) = (m ((c : Thread nD τ).loc main_arg16)) :=
  (StableHlo.after_of_writes_sub hostOps0 (W0 m ρ c) host0_writes (by decide) : W1 m ρ c (Proc.devRef .tc main_arg16) = W0 m ρ c (Proc.devRef .tc main_arg16)).trans (W0_arg16 m ρ c)

theorem W2_arg16 : W2 m ρ c (Proc.devRef .tc main_arg16) = (m ((c : Thread nD τ).loc main_arg16)) :=
  (W2_of_ne m ρ c main_arg16 (by decide) : W2 m ρ c (Proc.devRef .tc main_arg16) = W1 m ρ c (Proc.devRef .tc main_arg16)).trans (W1_arg16 m ρ c)

theorem W3_arg16 : W3 m ρ c (Proc.devRef .tc main_arg16) = (m ((c : Thread nD τ).loc main_arg16)) :=
  (StableHlo.after_of_writes_sub hostOps1 (W2 m ρ c) host1_writes (by decide) : W3 m ρ c (Proc.devRef .tc main_arg16) = W2 m ρ c (Proc.devRef .tc main_arg16)).trans (W2_arg16 m ρ c)

theorem W4_arg16 : W4 m ρ c (Proc.devRef .tc main_arg16) = (m ((c : Thread nD τ).loc main_arg16)) :=
  (W4_of_ne m ρ c main_arg16 (by decide) : W4 m ρ c (Proc.devRef .tc main_arg16) = W3 m ρ c (Proc.devRef .tc main_arg16)).trans (W3_arg16 m ρ c)

theorem W5_arg16 : W5 m ρ c (Proc.devRef .tc main_arg16) = (m ((c : Thread nD τ).loc main_arg16)) :=
  (StableHlo.after_of_writes_sub hostOps2 (W4 m ρ c) host2_writes (by decide) : W5 m ρ c (Proc.devRef .tc main_arg16) = W4 m ρ c (Proc.devRef .tc main_arg16)).trans (W4_arg16 m ρ c)

theorem W6_arg16 : W6 m ρ c (Proc.devRef .tc main_arg16) = (m ((c : Thread nD τ).loc main_arg16)) :=
  (W6_of_ne m ρ c main_arg16 (by decide) : W6 m ρ c (Proc.devRef .tc main_arg16) = W5 m ρ c (Proc.devRef .tc main_arg16)).trans (W5_arg16 m ρ c)

theorem W7_v52 : W7 m ρ c (Proc.devRef .tc main_v52) = (shapeCast S1x128 (m ((c : Thread nD τ).loc main_arg16)) shapeCasts_S128_S1x128) := by
  have e : W7 m ρ c (Proc.devRef .tc main_v52) = (shapeCast S1x128 (W6 m ρ c (Proc.devRef .tc main_arg16)) shapeCasts_S128_S1x128) := by
    show StableHlo.after hostOps3 (W6 m ρ c) (Proc.devRef .tc main_v52) = _
    after_results
    rfl
  rw [e, W6_arg16]

theorem W0_arg8 : W0 m ρ c (Proc.devRef .tc main_arg8) = (m ((c : Thread nD τ).loc main_arg8)) := rfl

theorem W1_arg8 : W1 m ρ c (Proc.devRef .tc main_arg8) = (m ((c : Thread nD τ).loc main_arg8)) :=
  (StableHlo.after_of_writes_sub hostOps0 (W0 m ρ c) host0_writes (by decide) : W1 m ρ c (Proc.devRef .tc main_arg8) = W0 m ρ c (Proc.devRef .tc main_arg8)).trans (W0_arg8 m ρ c)

theorem W2_arg8 : W2 m ρ c (Proc.devRef .tc main_arg8) = (m ((c : Thread nD τ).loc main_arg8)) :=
  (W2_of_ne m ρ c main_arg8 (by decide) : W2 m ρ c (Proc.devRef .tc main_arg8) = W1 m ρ c (Proc.devRef .tc main_arg8)).trans (W1_arg8 m ρ c)

theorem W3_arg8 : W3 m ρ c (Proc.devRef .tc main_arg8) = (m ((c : Thread nD τ).loc main_arg8)) :=
  (StableHlo.after_of_writes_sub hostOps1 (W2 m ρ c) host1_writes (by decide) : W3 m ρ c (Proc.devRef .tc main_arg8) = W2 m ρ c (Proc.devRef .tc main_arg8)).trans (W2_arg8 m ρ c)

theorem W4_arg8 : W4 m ρ c (Proc.devRef .tc main_arg8) = (m ((c : Thread nD τ).loc main_arg8)) :=
  (W4_of_ne m ρ c main_arg8 (by decide) : W4 m ρ c (Proc.devRef .tc main_arg8) = W3 m ρ c (Proc.devRef .tc main_arg8)).trans (W3_arg8 m ρ c)

theorem W5_arg8 : W5 m ρ c (Proc.devRef .tc main_arg8) = (m ((c : Thread nD τ).loc main_arg8)) :=
  (StableHlo.after_of_writes_sub hostOps2 (W4 m ρ c) host2_writes (by decide) : W5 m ρ c (Proc.devRef .tc main_arg8) = W4 m ρ c (Proc.devRef .tc main_arg8)).trans (W4_arg8 m ρ c)

theorem W6_arg8 : W6 m ρ c (Proc.devRef .tc main_arg8) = (m ((c : Thread nD τ).loc main_arg8)) :=
  (W6_of_ne m ρ c main_arg8 (by decide) : W6 m ρ c (Proc.devRef .tc main_arg8) = W5 m ρ c (Proc.devRef .tc main_arg8)).trans (W5_arg8 m ρ c)

theorem W7_v53 : W7 m ρ c (Proc.devRef .tc main_v53) = (shapeCast S1x128 (m ((c : Thread nD τ).loc main_arg8)) shapeCasts_S128_S1x128) := by
  have e : W7 m ρ c (Proc.devRef .tc main_v53) = (shapeCast S1x128 (W6 m ρ c (Proc.devRef .tc main_arg8)) shapeCasts_S128_S1x128) := by
    show StableHlo.after hostOps3 (W6 m ρ c) (Proc.devRef .tc main_v53) = _
    after_results
    rfl
  rw [e, W6_arg8]

theorem W0_arg9 : W0 m ρ c (Proc.devRef .tc main_arg9) = (m ((c : Thread nD τ).loc main_arg9)) := rfl

theorem W1_arg9 : W1 m ρ c (Proc.devRef .tc main_arg9) = (m ((c : Thread nD τ).loc main_arg9)) :=
  (StableHlo.after_of_writes_sub hostOps0 (W0 m ρ c) host0_writes (by decide) : W1 m ρ c (Proc.devRef .tc main_arg9) = W0 m ρ c (Proc.devRef .tc main_arg9)).trans (W0_arg9 m ρ c)

theorem W2_arg9 : W2 m ρ c (Proc.devRef .tc main_arg9) = (m ((c : Thread nD τ).loc main_arg9)) :=
  (W2_of_ne m ρ c main_arg9 (by decide) : W2 m ρ c (Proc.devRef .tc main_arg9) = W1 m ρ c (Proc.devRef .tc main_arg9)).trans (W1_arg9 m ρ c)

theorem W3_arg9 : W3 m ρ c (Proc.devRef .tc main_arg9) = (m ((c : Thread nD τ).loc main_arg9)) :=
  (StableHlo.after_of_writes_sub hostOps1 (W2 m ρ c) host1_writes (by decide) : W3 m ρ c (Proc.devRef .tc main_arg9) = W2 m ρ c (Proc.devRef .tc main_arg9)).trans (W2_arg9 m ρ c)

theorem W4_arg9 : W4 m ρ c (Proc.devRef .tc main_arg9) = (m ((c : Thread nD τ).loc main_arg9)) :=
  (W4_of_ne m ρ c main_arg9 (by decide) : W4 m ρ c (Proc.devRef .tc main_arg9) = W3 m ρ c (Proc.devRef .tc main_arg9)).trans (W3_arg9 m ρ c)

theorem W5_arg9 : W5 m ρ c (Proc.devRef .tc main_arg9) = (m ((c : Thread nD τ).loc main_arg9)) :=
  (StableHlo.after_of_writes_sub hostOps2 (W4 m ρ c) host2_writes (by decide) : W5 m ρ c (Proc.devRef .tc main_arg9) = W4 m ρ c (Proc.devRef .tc main_arg9)).trans (W4_arg9 m ρ c)

theorem W6_arg9 : W6 m ρ c (Proc.devRef .tc main_arg9) = (m ((c : Thread nD τ).loc main_arg9)) :=
  (W6_of_ne m ρ c main_arg9 (by decide) : W6 m ρ c (Proc.devRef .tc main_arg9) = W5 m ρ c (Proc.devRef .tc main_arg9)).trans (W5_arg9 m ρ c)

theorem W7_v54 : W7 m ρ c (Proc.devRef .tc main_v54) = (shapeCast S1x128 (m ((c : Thread nD τ).loc main_arg9)) shapeCasts_S128_S1x128) := by
  have e : W7 m ρ c (Proc.devRef .tc main_v54) = (shapeCast S1x128 (W6 m ρ c (Proc.devRef .tc main_arg9)) shapeCasts_S128_S1x128) := by
    show StableHlo.after hostOps3 (W6 m ρ c) (Proc.devRef .tc main_v54) = _
    after_results
    rfl
  rw [e, W6_arg9]

theorem W6_v47 : W6 m ρ c (Proc.devRef .tc main_v47) = (segMeanK (hi0 m c) (m ((c : Thread nD τ).loc main_arg3))) :=
  (W6_of_ne m ρ c main_v47 (by decide) : W6 m ρ c (Proc.devRef .tc main_v47) = W5 m ρ c (Proc.devRef .tc main_v47)).trans (W5_v47 m ρ c)

theorem W7_v47 : W7 m ρ c (Proc.devRef .tc main_v47) = (segMeanK (hi0 m c) (m ((c : Thread nD τ).loc main_arg3))) :=
  (StableHlo.after_of_writes_sub hostOps3 (W6 m ρ c) host3_writes (by decide) : W7 m ρ c (Proc.devRef .tc main_v47) = W6 m ρ c (Proc.devRef .tc main_v47)).trans (W6_v47 m ρ c)

theorem W5_v1 : W5 m ρ c (Proc.devRef .tc main_v1) = (hu0 m c) :=
  (StableHlo.after_of_writes_sub hostOps2 (W4 m ρ c) host2_writes (by decide) : W5 m ρ c (Proc.devRef .tc main_v1) = W4 m ρ c (Proc.devRef .tc main_v1)).trans (W4_v1 m ρ c)

theorem W6_v1 : W6 m ρ c (Proc.devRef .tc main_v1) = (hu0 m c) :=
  (W6_of_ne m ρ c main_v1 (by decide) : W6 m ρ c (Proc.devRef .tc main_v1) = W5 m ρ c (Proc.devRef .tc main_v1)).trans (W5_v1 m ρ c)

theorem W7_v1 : W7 m ρ c (Proc.devRef .tc main_v1) = (hu0 m c) :=
  (StableHlo.after_of_writes_sub hostOps3 (W6 m ρ c) host3_writes (by decide) : W7 m ρ c (Proc.devRef .tc main_v1) = W6 m ρ c (Proc.devRef .tc main_v1)).trans (W6_v1 m ρ c)

theorem W0_arg15 : W0 m ρ c (Proc.devRef .tc main_arg15) = (m ((c : Thread nD τ).loc main_arg15)) := rfl

theorem W1_arg15 : W1 m ρ c (Proc.devRef .tc main_arg15) = (m ((c : Thread nD τ).loc main_arg15)) :=
  (StableHlo.after_of_writes_sub hostOps0 (W0 m ρ c) host0_writes (by decide) : W1 m ρ c (Proc.devRef .tc main_arg15) = W0 m ρ c (Proc.devRef .tc main_arg15)).trans (W0_arg15 m ρ c)

theorem W2_arg15 : W2 m ρ c (Proc.devRef .tc main_arg15) = (m ((c : Thread nD τ).loc main_arg15)) :=
  (W2_of_ne m ρ c main_arg15 (by decide) : W2 m ρ c (Proc.devRef .tc main_arg15) = W1 m ρ c (Proc.devRef .tc main_arg15)).trans (W1_arg15 m ρ c)

theorem W3_arg15 : W3 m ρ c (Proc.devRef .tc main_arg15) = (m ((c : Thread nD τ).loc main_arg15)) :=
  (StableHlo.after_of_writes_sub hostOps1 (W2 m ρ c) host1_writes (by decide) : W3 m ρ c (Proc.devRef .tc main_arg15) = W2 m ρ c (Proc.devRef .tc main_arg15)).trans (W2_arg15 m ρ c)

theorem W4_arg15 : W4 m ρ c (Proc.devRef .tc main_arg15) = (m ((c : Thread nD τ).loc main_arg15)) :=
  (W4_of_ne m ρ c main_arg15 (by decide) : W4 m ρ c (Proc.devRef .tc main_arg15) = W3 m ρ c (Proc.devRef .tc main_arg15)).trans (W3_arg15 m ρ c)

theorem W5_arg15 : W5 m ρ c (Proc.devRef .tc main_arg15) = (m ((c : Thread nD τ).loc main_arg15)) :=
  (StableHlo.after_of_writes_sub hostOps2 (W4 m ρ c) host2_writes (by decide) : W5 m ρ c (Proc.devRef .tc main_arg15) = W4 m ρ c (Proc.devRef .tc main_arg15)).trans (W4_arg15 m ρ c)

theorem W6_arg15 : W6 m ρ c (Proc.devRef .tc main_arg15) = (m ((c : Thread nD τ).loc main_arg15)) :=
  (W6_of_ne m ρ c main_arg15 (by decide) : W6 m ρ c (Proc.devRef .tc main_arg15) = W5 m ρ c (Proc.devRef .tc main_arg15)).trans (W5_arg15 m ρ c)

theorem W7_arg15 : W7 m ρ c (Proc.devRef .tc main_arg15) = (m ((c : Thread nD τ).loc main_arg15)) :=
  (StableHlo.after_of_writes_sub hostOps3 (W6 m ρ c) host3_writes (by decide) : W7 m ρ c (Proc.devRef .tc main_arg15) = W6 m ρ c (Proc.devRef .tc main_arg15)).trans (W6_arg15 m ρ c)

theorem W0_arg17 : W0 m ρ c (Proc.devRef .tc main_arg17) = (m ((c : Thread nD τ).loc main_arg17)) := rfl

theorem W1_arg17 : W1 m ρ c (Proc.devRef .tc main_arg17) = (m ((c : Thread nD τ).loc main_arg17)) :=
  (StableHlo.after_of_writes_sub hostOps0 (W0 m ρ c) host0_writes (by decide) : W1 m ρ c (Proc.devRef .tc main_arg17) = W0 m ρ c (Proc.devRef .tc main_arg17)).trans (W0_arg17 m ρ c)

theorem W2_arg17 : W2 m ρ c (Proc.devRef .tc main_arg17) = (m ((c : Thread nD τ).loc main_arg17)) :=
  (W2_of_ne m ρ c main_arg17 (by decide) : W2 m ρ c (Proc.devRef .tc main_arg17) = W1 m ρ c (Proc.devRef .tc main_arg17)).trans (W1_arg17 m ρ c)

theorem W3_arg17 : W3 m ρ c (Proc.devRef .tc main_arg17) = (m ((c : Thread nD τ).loc main_arg17)) :=
  (StableHlo.after_of_writes_sub hostOps1 (W2 m ρ c) host1_writes (by decide) : W3 m ρ c (Proc.devRef .tc main_arg17) = W2 m ρ c (Proc.devRef .tc main_arg17)).trans (W2_arg17 m ρ c)

theorem W4_arg17 : W4 m ρ c (Proc.devRef .tc main_arg17) = (m ((c : Thread nD τ).loc main_arg17)) :=
  (W4_of_ne m ρ c main_arg17 (by decide) : W4 m ρ c (Proc.devRef .tc main_arg17) = W3 m ρ c (Proc.devRef .tc main_arg17)).trans (W3_arg17 m ρ c)

theorem W5_arg17 : W5 m ρ c (Proc.devRef .tc main_arg17) = (m ((c : Thread nD τ).loc main_arg17)) :=
  (StableHlo.after_of_writes_sub hostOps2 (W4 m ρ c) host2_writes (by decide) : W5 m ρ c (Proc.devRef .tc main_arg17) = W4 m ρ c (Proc.devRef .tc main_arg17)).trans (W4_arg17 m ρ c)

theorem W6_arg17 : W6 m ρ c (Proc.devRef .tc main_arg17) = (m ((c : Thread nD τ).loc main_arg17)) :=
  (W6_of_ne m ρ c main_arg17 (by decide) : W6 m ρ c (Proc.devRef .tc main_arg17) = W5 m ρ c (Proc.devRef .tc main_arg17)).trans (W5_arg17 m ρ c)

theorem W7_arg17 : W7 m ρ c (Proc.devRef .tc main_arg17) = (m ((c : Thread nD τ).loc main_arg17)) :=
  (StableHlo.after_of_writes_sub hostOps3 (W6 m ρ c) host3_writes (by decide) : W7 m ρ c (Proc.devRef .tc main_arg17) = W6 m ρ c (Proc.devRef .tc main_arg17)).trans (W6_arg17 m ρ c)

theorem W8_v55 : W8 m ρ c (Proc.devRef .tc main_v55) = (hu1 m c) := by
  refine (W8_arr m ρ c 7).trans ((Region3.final (V7 m ρ) c).trans ?_)
  show layerReluA (n := 100000) (W7 m ρ c (Proc.devRef .tc main_v47)) (W7 m ρ c (Proc.devRef .tc main_v1)) (transpose S128x128 [1, 0] (W7 m ρ c (Proc.devRef .tc main_arg15)) transposes_S128x128_p1_0_S128x128) (transpose S128x128 [1, 0] (W7 m ρ c (Proc.devRef .tc main_arg17)) transposes_S128x128_p1_0_S128x128) (W7 m ρ c (Proc.devRef .tc main_v52)) (W7 m ρ c (Proc.devRef .tc main_v53)) (W7 m ρ c (Proc.devRef .tc main_v54)) = _
  rw [W7_v47, W7_v1, W7_arg15, W7_v52, W7_arg17, W7_v53, W7_v54]
  rfl

theorem W5_arg2 : W5 m ρ c (Proc.devRef .tc main_arg2) = (m ((c : Thread nD τ).loc main_arg2)) :=
  (StableHlo.after_of_writes_sub hostOps2 (W4 m ρ c) host2_writes (by decide) : W5 m ρ c (Proc.devRef .tc main_arg2) = W4 m ρ c (Proc.devRef .tc main_arg2)).trans (W4_arg2 m ρ c)

theorem W6_arg2 : W6 m ρ c (Proc.devRef .tc main_arg2) = (m ((c : Thread nD τ).loc main_arg2)) :=
  (W6_of_ne m ρ c main_arg2 (by decide) : W6 m ρ c (Proc.devRef .tc main_arg2) = W5 m ρ c (Proc.devRef .tc main_arg2)).trans (W5_arg2 m ρ c)

theorem W7_arg2 : W7 m ρ c (Proc.devRef .tc main_arg2) = (m ((c : Thread nD τ).loc main_arg2)) :=
  (StableHlo.after_of_writes_sub hostOps3 (W6 m ρ c) host3_writes (by decide) : W7 m ρ c (Proc.devRef .tc main_arg2) = W6 m ρ c (Proc.devRef .tc main_arg2)).trans (W6_arg2 m ρ c)

theorem W8_arg2 : W8 m ρ c (Proc.devRef .tc main_arg2) = (m ((c : Thread nD τ).loc main_arg2)) :=
  (W8_of_ne m ρ c main_arg2 (by decide) : W8 m ρ c (Proc.devRef .tc main_arg2) = W7 m ρ c (Proc.devRef .tc main_arg2)).trans (W7_arg2 m ρ c)

set_option maxHeartbeats 4000000 in
theorem W9_v77 : W9 m ρ c (Proc.devRef .tc main_v77) = (segMeanK (hu1 m c) (m ((c : Thread nD τ).loc main_arg2))) := by
  have e : W9 m ρ c (Proc.devRef .tc main_v77) = segMeanK (W8 m ρ c (Proc.devRef .tc main_v55)) (W8 m ρ c (Proc.devRef .tc main_arg2)) := by
    show StableHlo.after hostOps4 (W8 m ρ c) (Proc.devRef .tc main_v77) = _
    after_results_simp
    rfl
  rw [e, W8_v55, W8_arg2]

theorem W7_v51 : W7 m ρ c (Proc.devRef .tc main_v51) = (hi1 m c) :=
  (StableHlo.after_of_writes_sub hostOps3 (W6 m ρ c) host3_writes (by decide) : W7 m ρ c (Proc.devRef .tc main_v51) = W6 m ρ c (Proc.devRef .tc main_v51)).trans (W6_v51 m ρ c)

theorem W8_v51 : W8 m ρ c (Proc.devRef .tc main_v51) = (hi1 m c) :=
  (W8_of_ne m ρ c main_v51 (by decide) : W8 m ρ c (Proc.devRef .tc main_v51) = W7 m ρ c (Proc.devRef .tc main_v51)).trans (W7_v51 m ρ c)

theorem W5_arg3 : W5 m ρ c (Proc.devRef .tc main_arg3) = (m ((c : Thread nD τ).loc main_arg3)) :=
  (StableHlo.after_of_writes_sub hostOps2 (W4 m ρ c) host2_writes (by decide) : W5 m ρ c (Proc.devRef .tc main_arg3) = W4 m ρ c (Proc.devRef .tc main_arg3)).trans (W4_arg3 m ρ c)

theorem W6_arg3 : W6 m ρ c (Proc.devRef .tc main_arg3) = (m ((c : Thread nD τ).loc main_arg3)) :=
  (W6_of_ne m ρ c main_arg3 (by decide) : W6 m ρ c (Proc.devRef .tc main_arg3) = W5 m ρ c (Proc.devRef .tc main_arg3)).trans (W5_arg3 m ρ c)

theorem W7_arg3 : W7 m ρ c (Proc.devRef .tc main_arg3) = (m ((c : Thread nD τ).loc main_arg3)) :=
  (StableHlo.after_of_writes_sub hostOps3 (W6 m ρ c) host3_writes (by decide) : W7 m ρ c (Proc.devRef .tc main_arg3) = W6 m ρ c (Proc.devRef .tc main_arg3)).trans (W6_arg3 m ρ c)

theorem W8_arg3 : W8 m ρ c (Proc.devRef .tc main_arg3) = (m ((c : Thread nD τ).loc main_arg3)) :=
  (W8_of_ne m ρ c main_arg3 (by decide) : W8 m ρ c (Proc.devRef .tc main_arg3) = W7 m ρ c (Proc.devRef .tc main_arg3)).trans (W7_arg3 m ρ c)

set_option maxHeartbeats 4000000 in
theorem W9_v99 : W9 m ρ c (Proc.devRef .tc main_v99) = (segMeanK (hi1 m c) (m ((c : Thread nD τ).loc main_arg3))) := by
  have e : W9 m ρ c (Proc.devRef .tc main_v99) = segMeanK (W8 m ρ c (Proc.devRef .tc main_v51)) (W8 m ρ c (Proc.devRef .tc main_arg3)) := by
    show StableHlo.after hostOps4 (W8 m ρ c) (Proc.devRef .tc main_v99) = _
    after_results_simp
    rfl
  rw [e, W8_v51, W8_arg3]

theorem W0_arg19 : W0 m ρ c (Proc.devRef .tc main_arg19) = (m ((c : Thread nD τ).loc main_arg19)) := rfl

theorem W1_arg19 : W1 m ρ c (Proc.devRef .tc main_arg19) = (m ((c : Thread nD τ).loc main_arg19)) :=
  (StableHlo.after_of_writes_sub hostOps0 (W0 m ρ c) host0_writes (by decide) : W1 m ρ c (Proc.devRef .tc main_arg19) = W0 m ρ c (Proc.devRef .tc main_arg19)).trans (W0_arg19 m ρ c)

theorem W2_arg19 : W2 m ρ c (Proc.devRef .tc main_arg19) = (m ((c : Thread nD τ).loc main_arg19)) :=
  (W2_of_ne m ρ c main_arg19 (by decide) : W2 m ρ c (Proc.devRef .tc main_arg19) = W1 m ρ c (Proc.devRef .tc main_arg19)).trans (W1_arg19 m ρ c)

theorem W3_arg19 : W3 m ρ c (Proc.devRef .tc main_arg19) = (m ((c : Thread nD τ).loc main_arg19)) :=
  (StableHlo.after_of_writes_sub hostOps1 (W2 m ρ c) host1_writes (by decide) : W3 m ρ c (Proc.devRef .tc main_arg19) = W2 m ρ c (Proc.devRef .tc main_arg19)).trans (W2_arg19 m ρ c)

theorem W4_arg19 : W4 m ρ c (Proc.devRef .tc main_arg19) = (m ((c : Thread nD τ).loc main_arg19)) :=
  (W4_of_ne m ρ c main_arg19 (by decide) : W4 m ρ c (Proc.devRef .tc main_arg19) = W3 m ρ c (Proc.devRef .tc main_arg19)).trans (W3_arg19 m ρ c)

theorem W5_arg19 : W5 m ρ c (Proc.devRef .tc main_arg19) = (m ((c : Thread nD τ).loc main_arg19)) :=
  (StableHlo.after_of_writes_sub hostOps2 (W4 m ρ c) host2_writes (by decide) : W5 m ρ c (Proc.devRef .tc main_arg19) = W4 m ρ c (Proc.devRef .tc main_arg19)).trans (W4_arg19 m ρ c)

theorem W6_arg19 : W6 m ρ c (Proc.devRef .tc main_arg19) = (m ((c : Thread nD τ).loc main_arg19)) :=
  (W6_of_ne m ρ c main_arg19 (by decide) : W6 m ρ c (Proc.devRef .tc main_arg19) = W5 m ρ c (Proc.devRef .tc main_arg19)).trans (W5_arg19 m ρ c)

theorem W7_arg19 : W7 m ρ c (Proc.devRef .tc main_arg19) = (m ((c : Thread nD τ).loc main_arg19)) :=
  (StableHlo.after_of_writes_sub hostOps3 (W6 m ρ c) host3_writes (by decide) : W7 m ρ c (Proc.devRef .tc main_arg19) = W6 m ρ c (Proc.devRef .tc main_arg19)).trans (W6_arg19 m ρ c)

theorem W8_arg19 : W8 m ρ c (Proc.devRef .tc main_arg19) = (m ((c : Thread nD τ).loc main_arg19)) :=
  (W8_of_ne m ρ c main_arg19 (by decide) : W8 m ρ c (Proc.devRef .tc main_arg19) = W7 m ρ c (Proc.devRef .tc main_arg19)).trans (W7_arg19 m ρ c)

theorem W9_v100 : W9 m ρ c (Proc.devRef .tc main_v100) = (shapeCast S1x128 (m ((c : Thread nD τ).loc main_arg19)) shapeCasts_S128_S1x128) := by
  have e : W9 m ρ c (Proc.devRef .tc main_v100) = (shapeCast S1x128 (W8 m ρ c (Proc.devRef .tc main_arg19)) shapeCasts_S128_S1x128) := by
    show StableHlo.after hostOps4 (W8 m ρ c) (Proc.devRef .tc main_v100) = _
    after_results
    rfl
  rw [e, W8_arg19]

theorem W5_arg10 : W5 m ρ c (Proc.devRef .tc main_arg10) = (m ((c : Thread nD τ).loc main_arg10)) :=
  (StableHlo.after_of_writes_sub hostOps2 (W4 m ρ c) host2_writes (by decide) : W5 m ρ c (Proc.devRef .tc main_arg10) = W4 m ρ c (Proc.devRef .tc main_arg10)).trans (W4_arg10 m ρ c)

theorem W6_arg10 : W6 m ρ c (Proc.devRef .tc main_arg10) = (m ((c : Thread nD τ).loc main_arg10)) :=
  (W6_of_ne m ρ c main_arg10 (by decide) : W6 m ρ c (Proc.devRef .tc main_arg10) = W5 m ρ c (Proc.devRef .tc main_arg10)).trans (W5_arg10 m ρ c)

theorem W7_arg10 : W7 m ρ c (Proc.devRef .tc main_arg10) = (m ((c : Thread nD τ).loc main_arg10)) :=
  (StableHlo.after_of_writes_sub hostOps3 (W6 m ρ c) host3_writes (by decide) : W7 m ρ c (Proc.devRef .tc main_arg10) = W6 m ρ c (Proc.devRef .tc main_arg10)).trans (W6_arg10 m ρ c)

theorem W8_arg10 : W8 m ρ c (Proc.devRef .tc main_arg10) = (m ((c : Thread nD τ).loc main_arg10)) :=
  (W8_of_ne m ρ c main_arg10 (by decide) : W8 m ρ c (Proc.devRef .tc main_arg10) = W7 m ρ c (Proc.devRef .tc main_arg10)).trans (W7_arg10 m ρ c)

theorem W9_v101 : W9 m ρ c (Proc.devRef .tc main_v101) = (shapeCast S1x128 (m ((c : Thread nD τ).loc main_arg10)) shapeCasts_S128_S1x128) := by
  have e : W9 m ρ c (Proc.devRef .tc main_v101) = (shapeCast S1x128 (W8 m ρ c (Proc.devRef .tc main_arg10)) shapeCasts_S128_S1x128) := by
    show StableHlo.after hostOps4 (W8 m ρ c) (Proc.devRef .tc main_v101) = _
    after_results
    rfl
  rw [e, W8_arg10]

theorem W5_arg11 : W5 m ρ c (Proc.devRef .tc main_arg11) = (m ((c : Thread nD τ).loc main_arg11)) :=
  (StableHlo.after_of_writes_sub hostOps2 (W4 m ρ c) host2_writes (by decide) : W5 m ρ c (Proc.devRef .tc main_arg11) = W4 m ρ c (Proc.devRef .tc main_arg11)).trans (W4_arg11 m ρ c)

theorem W6_arg11 : W6 m ρ c (Proc.devRef .tc main_arg11) = (m ((c : Thread nD τ).loc main_arg11)) :=
  (W6_of_ne m ρ c main_arg11 (by decide) : W6 m ρ c (Proc.devRef .tc main_arg11) = W5 m ρ c (Proc.devRef .tc main_arg11)).trans (W5_arg11 m ρ c)

theorem W7_arg11 : W7 m ρ c (Proc.devRef .tc main_arg11) = (m ((c : Thread nD τ).loc main_arg11)) :=
  (StableHlo.after_of_writes_sub hostOps3 (W6 m ρ c) host3_writes (by decide) : W7 m ρ c (Proc.devRef .tc main_arg11) = W6 m ρ c (Proc.devRef .tc main_arg11)).trans (W6_arg11 m ρ c)

theorem W8_arg11 : W8 m ρ c (Proc.devRef .tc main_arg11) = (m ((c : Thread nD τ).loc main_arg11)) :=
  (W8_of_ne m ρ c main_arg11 (by decide) : W8 m ρ c (Proc.devRef .tc main_arg11) = W7 m ρ c (Proc.devRef .tc main_arg11)).trans (W7_arg11 m ρ c)

theorem W9_v102 : W9 m ρ c (Proc.devRef .tc main_v102) = (shapeCast S1x128 (m ((c : Thread nD τ).loc main_arg11)) shapeCasts_S128_S1x128) := by
  have e : W9 m ρ c (Proc.devRef .tc main_v102) = (shapeCast S1x128 (W8 m ρ c (Proc.devRef .tc main_arg11)) shapeCasts_S128_S1x128) := by
    show StableHlo.after hostOps4 (W8 m ρ c) (Proc.devRef .tc main_v102) = _
    after_results
    rfl
  rw [e, W8_arg11]

theorem W9_v51 : W9 m ρ c (Proc.devRef .tc main_v51) = (hi1 m c) :=
  (StableHlo.after_of_writes_sub hostOps4 (W8 m ρ c) host4_writes (by decide) : W9 m ρ c (Proc.devRef .tc main_v51) = W8 m ρ c (Proc.devRef .tc main_v51)).trans (W8_v51 m ρ c)

theorem W0_arg18 : W0 m ρ c (Proc.devRef .tc main_arg18) = (m ((c : Thread nD τ).loc main_arg18)) := rfl

theorem W1_arg18 : W1 m ρ c (Proc.devRef .tc main_arg18) = (m ((c : Thread nD τ).loc main_arg18)) :=
  (StableHlo.after_of_writes_sub hostOps0 (W0 m ρ c) host0_writes (by decide) : W1 m ρ c (Proc.devRef .tc main_arg18) = W0 m ρ c (Proc.devRef .tc main_arg18)).trans (W0_arg18 m ρ c)

theorem W2_arg18 : W2 m ρ c (Proc.devRef .tc main_arg18) = (m ((c : Thread nD τ).loc main_arg18)) :=
  (W2_of_ne m ρ c main_arg18 (by decide) : W2 m ρ c (Proc.devRef .tc main_arg18) = W1 m ρ c (Proc.devRef .tc main_arg18)).trans (W1_arg18 m ρ c)

theorem W3_arg18 : W3 m ρ c (Proc.devRef .tc main_arg18) = (m ((c : Thread nD τ).loc main_arg18)) :=
  (StableHlo.after_of_writes_sub hostOps1 (W2 m ρ c) host1_writes (by decide) : W3 m ρ c (Proc.devRef .tc main_arg18) = W2 m ρ c (Proc.devRef .tc main_arg18)).trans (W2_arg18 m ρ c)

theorem W4_arg18 : W4 m ρ c (Proc.devRef .tc main_arg18) = (m ((c : Thread nD τ).loc main_arg18)) :=
  (W4_of_ne m ρ c main_arg18 (by decide) : W4 m ρ c (Proc.devRef .tc main_arg18) = W3 m ρ c (Proc.devRef .tc main_arg18)).trans (W3_arg18 m ρ c)

theorem W5_arg18 : W5 m ρ c (Proc.devRef .tc main_arg18) = (m ((c : Thread nD τ).loc main_arg18)) :=
  (StableHlo.after_of_writes_sub hostOps2 (W4 m ρ c) host2_writes (by decide) : W5 m ρ c (Proc.devRef .tc main_arg18) = W4 m ρ c (Proc.devRef .tc main_arg18)).trans (W4_arg18 m ρ c)

theorem W6_arg18 : W6 m ρ c (Proc.devRef .tc main_arg18) = (m ((c : Thread nD τ).loc main_arg18)) :=
  (W6_of_ne m ρ c main_arg18 (by decide) : W6 m ρ c (Proc.devRef .tc main_arg18) = W5 m ρ c (Proc.devRef .tc main_arg18)).trans (W5_arg18 m ρ c)

theorem W7_arg18 : W7 m ρ c (Proc.devRef .tc main_arg18) = (m ((c : Thread nD τ).loc main_arg18)) :=
  (StableHlo.after_of_writes_sub hostOps3 (W6 m ρ c) host3_writes (by decide) : W7 m ρ c (Proc.devRef .tc main_arg18) = W6 m ρ c (Proc.devRef .tc main_arg18)).trans (W6_arg18 m ρ c)

theorem W8_arg18 : W8 m ρ c (Proc.devRef .tc main_arg18) = (m ((c : Thread nD τ).loc main_arg18)) :=
  (W8_of_ne m ρ c main_arg18 (by decide) : W8 m ρ c (Proc.devRef .tc main_arg18) = W7 m ρ c (Proc.devRef .tc main_arg18)).trans (W7_arg18 m ρ c)

theorem W9_arg18 : W9 m ρ c (Proc.devRef .tc main_arg18) = (m ((c : Thread nD τ).loc main_arg18)) :=
  (StableHlo.after_of_writes_sub hostOps4 (W8 m ρ c) host4_writes (by decide) : W9 m ρ c (Proc.devRef .tc main_arg18) = W8 m ρ c (Proc.devRef .tc main_arg18)).trans (W8_arg18 m ρ c)

theorem W0_arg20 : W0 m ρ c (Proc.devRef .tc main_arg20) = (m ((c : Thread nD τ).loc main_arg20)) := rfl

theorem W1_arg20 : W1 m ρ c (Proc.devRef .tc main_arg20) = (m ((c : Thread nD τ).loc main_arg20)) :=
  (StableHlo.after_of_writes_sub hostOps0 (W0 m ρ c) host0_writes (by decide) : W1 m ρ c (Proc.devRef .tc main_arg20) = W0 m ρ c (Proc.devRef .tc main_arg20)).trans (W0_arg20 m ρ c)

theorem W2_arg20 : W2 m ρ c (Proc.devRef .tc main_arg20) = (m ((c : Thread nD τ).loc main_arg20)) :=
  (W2_of_ne m ρ c main_arg20 (by decide) : W2 m ρ c (Proc.devRef .tc main_arg20) = W1 m ρ c (Proc.devRef .tc main_arg20)).trans (W1_arg20 m ρ c)

theorem W3_arg20 : W3 m ρ c (Proc.devRef .tc main_arg20) = (m ((c : Thread nD τ).loc main_arg20)) :=
  (StableHlo.after_of_writes_sub hostOps1 (W2 m ρ c) host1_writes (by decide) : W3 m ρ c (Proc.devRef .tc main_arg20) = W2 m ρ c (Proc.devRef .tc main_arg20)).trans (W2_arg20 m ρ c)

theorem W4_arg20 : W4 m ρ c (Proc.devRef .tc main_arg20) = (m ((c : Thread nD τ).loc main_arg20)) :=
  (W4_of_ne m ρ c main_arg20 (by decide) : W4 m ρ c (Proc.devRef .tc main_arg20) = W3 m ρ c (Proc.devRef .tc main_arg20)).trans (W3_arg20 m ρ c)

theorem W5_arg20 : W5 m ρ c (Proc.devRef .tc main_arg20) = (m ((c : Thread nD τ).loc main_arg20)) :=
  (StableHlo.after_of_writes_sub hostOps2 (W4 m ρ c) host2_writes (by decide) : W5 m ρ c (Proc.devRef .tc main_arg20) = W4 m ρ c (Proc.devRef .tc main_arg20)).trans (W4_arg20 m ρ c)

theorem W6_arg20 : W6 m ρ c (Proc.devRef .tc main_arg20) = (m ((c : Thread nD τ).loc main_arg20)) :=
  (W6_of_ne m ρ c main_arg20 (by decide) : W6 m ρ c (Proc.devRef .tc main_arg20) = W5 m ρ c (Proc.devRef .tc main_arg20)).trans (W5_arg20 m ρ c)

theorem W7_arg20 : W7 m ρ c (Proc.devRef .tc main_arg20) = (m ((c : Thread nD τ).loc main_arg20)) :=
  (StableHlo.after_of_writes_sub hostOps3 (W6 m ρ c) host3_writes (by decide) : W7 m ρ c (Proc.devRef .tc main_arg20) = W6 m ρ c (Proc.devRef .tc main_arg20)).trans (W6_arg20 m ρ c)

theorem W8_arg20 : W8 m ρ c (Proc.devRef .tc main_arg20) = (m ((c : Thread nD τ).loc main_arg20)) :=
  (W8_of_ne m ρ c main_arg20 (by decide) : W8 m ρ c (Proc.devRef .tc main_arg20) = W7 m ρ c (Proc.devRef .tc main_arg20)).trans (W7_arg20 m ρ c)

theorem W9_arg20 : W9 m ρ c (Proc.devRef .tc main_arg20) = (m ((c : Thread nD τ).loc main_arg20)) :=
  (StableHlo.after_of_writes_sub hostOps4 (W8 m ρ c) host4_writes (by decide) : W9 m ρ c (Proc.devRef .tc main_arg20) = W8 m ρ c (Proc.devRef .tc main_arg20)).trans (W8_arg20 m ρ c)

theorem W10_v103 : W10 m ρ c (Proc.devRef .tc main_v103) = (hi2 m c) := by
  refine (W10_arr m ρ c 7).trans ((Region4.final (V9 m ρ) c).trans ?_)
  show layerA (n := 100000) (W9 m ρ c (Proc.devRef .tc main_v77)) (W9 m ρ c (Proc.devRef .tc main_v51)) (transpose S128x128 [1, 0] (W9 m ρ c (Proc.devRef .tc main_arg18)) transposes_S128x128_p1_0_S128x128) (transpose S128x128 [1, 0] (W9 m ρ c (Proc.devRef .tc main_arg20)) transposes_S128x128_p1_0_S128x128) (W9 m ρ c (Proc.devRef .tc main_v100)) (W9 m ρ c (Proc.devRef .tc main_v101)) (W9 m ρ c (Proc.devRef .tc main_v102)) = _
  rw [W9_v77, W9_v51, W9_arg18, W9_v100, W9_arg20, W9_v101, W9_v102]
  rfl

theorem W0_arg22 : W0 m ρ c (Proc.devRef .tc main_arg22) = (m ((c : Thread nD τ).loc main_arg22)) := rfl

theorem W1_arg22 : W1 m ρ c (Proc.devRef .tc main_arg22) = (m ((c : Thread nD τ).loc main_arg22)) :=
  (StableHlo.after_of_writes_sub hostOps0 (W0 m ρ c) host0_writes (by decide) : W1 m ρ c (Proc.devRef .tc main_arg22) = W0 m ρ c (Proc.devRef .tc main_arg22)).trans (W0_arg22 m ρ c)

theorem W2_arg22 : W2 m ρ c (Proc.devRef .tc main_arg22) = (m ((c : Thread nD τ).loc main_arg22)) :=
  (W2_of_ne m ρ c main_arg22 (by decide) : W2 m ρ c (Proc.devRef .tc main_arg22) = W1 m ρ c (Proc.devRef .tc main_arg22)).trans (W1_arg22 m ρ c)

theorem W3_arg22 : W3 m ρ c (Proc.devRef .tc main_arg22) = (m ((c : Thread nD τ).loc main_arg22)) :=
  (StableHlo.after_of_writes_sub hostOps1 (W2 m ρ c) host1_writes (by decide) : W3 m ρ c (Proc.devRef .tc main_arg22) = W2 m ρ c (Proc.devRef .tc main_arg22)).trans (W2_arg22 m ρ c)

theorem W4_arg22 : W4 m ρ c (Proc.devRef .tc main_arg22) = (m ((c : Thread nD τ).loc main_arg22)) :=
  (W4_of_ne m ρ c main_arg22 (by decide) : W4 m ρ c (Proc.devRef .tc main_arg22) = W3 m ρ c (Proc.devRef .tc main_arg22)).trans (W3_arg22 m ρ c)

theorem W5_arg22 : W5 m ρ c (Proc.devRef .tc main_arg22) = (m ((c : Thread nD τ).loc main_arg22)) :=
  (StableHlo.after_of_writes_sub hostOps2 (W4 m ρ c) host2_writes (by decide) : W5 m ρ c (Proc.devRef .tc main_arg22) = W4 m ρ c (Proc.devRef .tc main_arg22)).trans (W4_arg22 m ρ c)

theorem W6_arg22 : W6 m ρ c (Proc.devRef .tc main_arg22) = (m ((c : Thread nD τ).loc main_arg22)) :=
  (W6_of_ne m ρ c main_arg22 (by decide) : W6 m ρ c (Proc.devRef .tc main_arg22) = W5 m ρ c (Proc.devRef .tc main_arg22)).trans (W5_arg22 m ρ c)

theorem W7_arg22 : W7 m ρ c (Proc.devRef .tc main_arg22) = (m ((c : Thread nD τ).loc main_arg22)) :=
  (StableHlo.after_of_writes_sub hostOps3 (W6 m ρ c) host3_writes (by decide) : W7 m ρ c (Proc.devRef .tc main_arg22) = W6 m ρ c (Proc.devRef .tc main_arg22)).trans (W6_arg22 m ρ c)

theorem W8_arg22 : W8 m ρ c (Proc.devRef .tc main_arg22) = (m ((c : Thread nD τ).loc main_arg22)) :=
  (W8_of_ne m ρ c main_arg22 (by decide) : W8 m ρ c (Proc.devRef .tc main_arg22) = W7 m ρ c (Proc.devRef .tc main_arg22)).trans (W7_arg22 m ρ c)

theorem W9_arg22 : W9 m ρ c (Proc.devRef .tc main_arg22) = (m ((c : Thread nD τ).loc main_arg22)) :=
  (StableHlo.after_of_writes_sub hostOps4 (W8 m ρ c) host4_writes (by decide) : W9 m ρ c (Proc.devRef .tc main_arg22) = W8 m ρ c (Proc.devRef .tc main_arg22)).trans (W8_arg22 m ρ c)

theorem W10_arg22 : W10 m ρ c (Proc.devRef .tc main_arg22) = (m ((c : Thread nD τ).loc main_arg22)) :=
  (W10_of_ne m ρ c main_arg22 (by decide) : W10 m ρ c (Proc.devRef .tc main_arg22) = W9 m ρ c (Proc.devRef .tc main_arg22)).trans (W9_arg22 m ρ c)

theorem W11_v104 : W11 m ρ c (Proc.devRef .tc main_v104) = (shapeCast S1x128 (m ((c : Thread nD τ).loc main_arg22)) shapeCasts_S128_S1x128) := by
  have e : W11 m ρ c (Proc.devRef .tc main_v104) = (shapeCast S1x128 (W10 m ρ c (Proc.devRef .tc main_arg22)) shapeCasts_S128_S1x128) := by
    show StableHlo.after hostOps5 (W10 m ρ c) (Proc.devRef .tc main_v104) = _
    after_results
    rfl
  rw [e, W10_arg22]

theorem W7_arg8 : W7 m ρ c (Proc.devRef .tc main_arg8) = (m ((c : Thread nD τ).loc main_arg8)) :=
  (StableHlo.after_of_writes_sub hostOps3 (W6 m ρ c) host3_writes (by decide) : W7 m ρ c (Proc.devRef .tc main_arg8) = W6 m ρ c (Proc.devRef .tc main_arg8)).trans (W6_arg8 m ρ c)

theorem W8_arg8 : W8 m ρ c (Proc.devRef .tc main_arg8) = (m ((c : Thread nD τ).loc main_arg8)) :=
  (W8_of_ne m ρ c main_arg8 (by decide) : W8 m ρ c (Proc.devRef .tc main_arg8) = W7 m ρ c (Proc.devRef .tc main_arg8)).trans (W7_arg8 m ρ c)

theorem W9_arg8 : W9 m ρ c (Proc.devRef .tc main_arg8) = (m ((c : Thread nD τ).loc main_arg8)) :=
  (StableHlo.after_of_writes_sub hostOps4 (W8 m ρ c) host4_writes (by decide) : W9 m ρ c (Proc.devRef .tc main_arg8) = W8 m ρ c (Proc.devRef .tc main_arg8)).trans (W8_arg8 m ρ c)

theorem W10_arg8 : W10 m ρ c (Proc.devRef .tc main_arg8) = (m ((c : Thread nD τ).loc main_arg8)) :=
  (W10_of_ne m ρ c main_arg8 (by decide) : W10 m ρ c (Proc.devRef .tc main_arg8) = W9 m ρ c (Proc.devRef .tc main_arg8)).trans (W9_arg8 m ρ c)

theorem W11_v105 : W11 m ρ c (Proc.devRef .tc main_v105) = (shapeCast S1x128 (m ((c : Thread nD τ).loc main_arg8)) shapeCasts_S128_S1x128) := by
  have e : W11 m ρ c (Proc.devRef .tc main_v105) = (shapeCast S1x128 (W10 m ρ c (Proc.devRef .tc main_arg8)) shapeCasts_S128_S1x128) := by
    show StableHlo.after hostOps5 (W10 m ρ c) (Proc.devRef .tc main_v105) = _
    after_results
    rfl
  rw [e, W10_arg8]

theorem W7_arg9 : W7 m ρ c (Proc.devRef .tc main_arg9) = (m ((c : Thread nD τ).loc main_arg9)) :=
  (StableHlo.after_of_writes_sub hostOps3 (W6 m ρ c) host3_writes (by decide) : W7 m ρ c (Proc.devRef .tc main_arg9) = W6 m ρ c (Proc.devRef .tc main_arg9)).trans (W6_arg9 m ρ c)

theorem W8_arg9 : W8 m ρ c (Proc.devRef .tc main_arg9) = (m ((c : Thread nD τ).loc main_arg9)) :=
  (W8_of_ne m ρ c main_arg9 (by decide) : W8 m ρ c (Proc.devRef .tc main_arg9) = W7 m ρ c (Proc.devRef .tc main_arg9)).trans (W7_arg9 m ρ c)

theorem W9_arg9 : W9 m ρ c (Proc.devRef .tc main_arg9) = (m ((c : Thread nD τ).loc main_arg9)) :=
  (StableHlo.after_of_writes_sub hostOps4 (W8 m ρ c) host4_writes (by decide) : W9 m ρ c (Proc.devRef .tc main_arg9) = W8 m ρ c (Proc.devRef .tc main_arg9)).trans (W8_arg9 m ρ c)

theorem W10_arg9 : W10 m ρ c (Proc.devRef .tc main_arg9) = (m ((c : Thread nD τ).loc main_arg9)) :=
  (W10_of_ne m ρ c main_arg9 (by decide) : W10 m ρ c (Proc.devRef .tc main_arg9) = W9 m ρ c (Proc.devRef .tc main_arg9)).trans (W9_arg9 m ρ c)

theorem W11_v106 : W11 m ρ c (Proc.devRef .tc main_v106) = (shapeCast S1x128 (m ((c : Thread nD τ).loc main_arg9)) shapeCasts_S128_S1x128) := by
  have e : W11 m ρ c (Proc.devRef .tc main_v106) = (shapeCast S1x128 (W10 m ρ c (Proc.devRef .tc main_arg9)) shapeCasts_S128_S1x128) := by
    show StableHlo.after hostOps5 (W10 m ρ c) (Proc.devRef .tc main_v106) = _
    after_results
    rfl
  rw [e, W10_arg9]

theorem W10_v99 : W10 m ρ c (Proc.devRef .tc main_v99) = (segMeanK (hi1 m c) (m ((c : Thread nD τ).loc main_arg3))) :=
  (W10_of_ne m ρ c main_v99 (by decide) : W10 m ρ c (Proc.devRef .tc main_v99) = W9 m ρ c (Proc.devRef .tc main_v99)).trans (W9_v99 m ρ c)

theorem W11_v99 : W11 m ρ c (Proc.devRef .tc main_v99) = (segMeanK (hi1 m c) (m ((c : Thread nD τ).loc main_arg3))) :=
  (StableHlo.after_of_writes_sub hostOps5 (W10 m ρ c) host5_writes (by decide) : W11 m ρ c (Proc.devRef .tc main_v99) = W10 m ρ c (Proc.devRef .tc main_v99)).trans (W10_v99 m ρ c)

theorem W9_v55 : W9 m ρ c (Proc.devRef .tc main_v55) = (hu1 m c) :=
  (StableHlo.after_of_writes_sub hostOps4 (W8 m ρ c) host4_writes (by decide) : W9 m ρ c (Proc.devRef .tc main_v55) = W8 m ρ c (Proc.devRef .tc main_v55)).trans (W8_v55 m ρ c)

theorem W10_v55 : W10 m ρ c (Proc.devRef .tc main_v55) = (hu1 m c) :=
  (W10_of_ne m ρ c main_v55 (by decide) : W10 m ρ c (Proc.devRef .tc main_v55) = W9 m ρ c (Proc.devRef .tc main_v55)).trans (W9_v55 m ρ c)

theorem W11_v55 : W11 m ρ c (Proc.devRef .tc main_v55) = (hu1 m c) :=
  (StableHlo.after_of_writes_sub hostOps5 (W10 m ρ c) host5_writes (by decide) : W11 m ρ c (Proc.devRef .tc main_v55) = W10 m ρ c (Proc.devRef .tc main_v55)).trans (W10_v55 m ρ c)

theorem W0_arg21 : W0 m ρ c (Proc.devRef .tc main_arg21) = (m ((c : Thread nD τ).loc main_arg21)) := rfl

theorem W1_arg21 : W1 m ρ c (Proc.devRef .tc main_arg21) = (m ((c : Thread nD τ).loc main_arg21)) :=
  (StableHlo.after_of_writes_sub hostOps0 (W0 m ρ c) host0_writes (by decide) : W1 m ρ c (Proc.devRef .tc main_arg21) = W0 m ρ c (Proc.devRef .tc main_arg21)).trans (W0_arg21 m ρ c)

theorem W2_arg21 : W2 m ρ c (Proc.devRef .tc main_arg21) = (m ((c : Thread nD τ).loc main_arg21)) :=
  (W2_of_ne m ρ c main_arg21 (by decide) : W2 m ρ c (Proc.devRef .tc main_arg21) = W1 m ρ c (Proc.devRef .tc main_arg21)).trans (W1_arg21 m ρ c)

theorem W3_arg21 : W3 m ρ c (Proc.devRef .tc main_arg21) = (m ((c : Thread nD τ).loc main_arg21)) :=
  (StableHlo.after_of_writes_sub hostOps1 (W2 m ρ c) host1_writes (by decide) : W3 m ρ c (Proc.devRef .tc main_arg21) = W2 m ρ c (Proc.devRef .tc main_arg21)).trans (W2_arg21 m ρ c)

theorem W4_arg21 : W4 m ρ c (Proc.devRef .tc main_arg21) = (m ((c : Thread nD τ).loc main_arg21)) :=
  (W4_of_ne m ρ c main_arg21 (by decide) : W4 m ρ c (Proc.devRef .tc main_arg21) = W3 m ρ c (Proc.devRef .tc main_arg21)).trans (W3_arg21 m ρ c)

theorem W5_arg21 : W5 m ρ c (Proc.devRef .tc main_arg21) = (m ((c : Thread nD τ).loc main_arg21)) :=
  (StableHlo.after_of_writes_sub hostOps2 (W4 m ρ c) host2_writes (by decide) : W5 m ρ c (Proc.devRef .tc main_arg21) = W4 m ρ c (Proc.devRef .tc main_arg21)).trans (W4_arg21 m ρ c)

theorem W6_arg21 : W6 m ρ c (Proc.devRef .tc main_arg21) = (m ((c : Thread nD τ).loc main_arg21)) :=
  (W6_of_ne m ρ c main_arg21 (by decide) : W6 m ρ c (Proc.devRef .tc main_arg21) = W5 m ρ c (Proc.devRef .tc main_arg21)).trans (W5_arg21 m ρ c)

theorem W7_arg21 : W7 m ρ c (Proc.devRef .tc main_arg21) = (m ((c : Thread nD τ).loc main_arg21)) :=
  (StableHlo.after_of_writes_sub hostOps3 (W6 m ρ c) host3_writes (by decide) : W7 m ρ c (Proc.devRef .tc main_arg21) = W6 m ρ c (Proc.devRef .tc main_arg21)).trans (W6_arg21 m ρ c)

theorem W8_arg21 : W8 m ρ c (Proc.devRef .tc main_arg21) = (m ((c : Thread nD τ).loc main_arg21)) :=
  (W8_of_ne m ρ c main_arg21 (by decide) : W8 m ρ c (Proc.devRef .tc main_arg21) = W7 m ρ c (Proc.devRef .tc main_arg21)).trans (W7_arg21 m ρ c)

theorem W9_arg21 : W9 m ρ c (Proc.devRef .tc main_arg21) = (m ((c : Thread nD τ).loc main_arg21)) :=
  (StableHlo.after_of_writes_sub hostOps4 (W8 m ρ c) host4_writes (by decide) : W9 m ρ c (Proc.devRef .tc main_arg21) = W8 m ρ c (Proc.devRef .tc main_arg21)).trans (W8_arg21 m ρ c)

theorem W10_arg21 : W10 m ρ c (Proc.devRef .tc main_arg21) = (m ((c : Thread nD τ).loc main_arg21)) :=
  (W10_of_ne m ρ c main_arg21 (by decide) : W10 m ρ c (Proc.devRef .tc main_arg21) = W9 m ρ c (Proc.devRef .tc main_arg21)).trans (W9_arg21 m ρ c)

theorem W11_arg21 : W11 m ρ c (Proc.devRef .tc main_arg21) = (m ((c : Thread nD τ).loc main_arg21)) :=
  (StableHlo.after_of_writes_sub hostOps5 (W10 m ρ c) host5_writes (by decide) : W11 m ρ c (Proc.devRef .tc main_arg21) = W10 m ρ c (Proc.devRef .tc main_arg21)).trans (W10_arg21 m ρ c)

theorem W0_arg23 : W0 m ρ c (Proc.devRef .tc main_arg23) = (m ((c : Thread nD τ).loc main_arg23)) := rfl

theorem W1_arg23 : W1 m ρ c (Proc.devRef .tc main_arg23) = (m ((c : Thread nD τ).loc main_arg23)) :=
  (StableHlo.after_of_writes_sub hostOps0 (W0 m ρ c) host0_writes (by decide) : W1 m ρ c (Proc.devRef .tc main_arg23) = W0 m ρ c (Proc.devRef .tc main_arg23)).trans (W0_arg23 m ρ c)

theorem W2_arg23 : W2 m ρ c (Proc.devRef .tc main_arg23) = (m ((c : Thread nD τ).loc main_arg23)) :=
  (W2_of_ne m ρ c main_arg23 (by decide) : W2 m ρ c (Proc.devRef .tc main_arg23) = W1 m ρ c (Proc.devRef .tc main_arg23)).trans (W1_arg23 m ρ c)

theorem W3_arg23 : W3 m ρ c (Proc.devRef .tc main_arg23) = (m ((c : Thread nD τ).loc main_arg23)) :=
  (StableHlo.after_of_writes_sub hostOps1 (W2 m ρ c) host1_writes (by decide) : W3 m ρ c (Proc.devRef .tc main_arg23) = W2 m ρ c (Proc.devRef .tc main_arg23)).trans (W2_arg23 m ρ c)

theorem W4_arg23 : W4 m ρ c (Proc.devRef .tc main_arg23) = (m ((c : Thread nD τ).loc main_arg23)) :=
  (W4_of_ne m ρ c main_arg23 (by decide) : W4 m ρ c (Proc.devRef .tc main_arg23) = W3 m ρ c (Proc.devRef .tc main_arg23)).trans (W3_arg23 m ρ c)

theorem W5_arg23 : W5 m ρ c (Proc.devRef .tc main_arg23) = (m ((c : Thread nD τ).loc main_arg23)) :=
  (StableHlo.after_of_writes_sub hostOps2 (W4 m ρ c) host2_writes (by decide) : W5 m ρ c (Proc.devRef .tc main_arg23) = W4 m ρ c (Proc.devRef .tc main_arg23)).trans (W4_arg23 m ρ c)

theorem W6_arg23 : W6 m ρ c (Proc.devRef .tc main_arg23) = (m ((c : Thread nD τ).loc main_arg23)) :=
  (W6_of_ne m ρ c main_arg23 (by decide) : W6 m ρ c (Proc.devRef .tc main_arg23) = W5 m ρ c (Proc.devRef .tc main_arg23)).trans (W5_arg23 m ρ c)

theorem W7_arg23 : W7 m ρ c (Proc.devRef .tc main_arg23) = (m ((c : Thread nD τ).loc main_arg23)) :=
  (StableHlo.after_of_writes_sub hostOps3 (W6 m ρ c) host3_writes (by decide) : W7 m ρ c (Proc.devRef .tc main_arg23) = W6 m ρ c (Proc.devRef .tc main_arg23)).trans (W6_arg23 m ρ c)

theorem W8_arg23 : W8 m ρ c (Proc.devRef .tc main_arg23) = (m ((c : Thread nD τ).loc main_arg23)) :=
  (W8_of_ne m ρ c main_arg23 (by decide) : W8 m ρ c (Proc.devRef .tc main_arg23) = W7 m ρ c (Proc.devRef .tc main_arg23)).trans (W7_arg23 m ρ c)

theorem W9_arg23 : W9 m ρ c (Proc.devRef .tc main_arg23) = (m ((c : Thread nD τ).loc main_arg23)) :=
  (StableHlo.after_of_writes_sub hostOps4 (W8 m ρ c) host4_writes (by decide) : W9 m ρ c (Proc.devRef .tc main_arg23) = W8 m ρ c (Proc.devRef .tc main_arg23)).trans (W8_arg23 m ρ c)

theorem W10_arg23 : W10 m ρ c (Proc.devRef .tc main_arg23) = (m ((c : Thread nD τ).loc main_arg23)) :=
  (W10_of_ne m ρ c main_arg23 (by decide) : W10 m ρ c (Proc.devRef .tc main_arg23) = W9 m ρ c (Proc.devRef .tc main_arg23)).trans (W9_arg23 m ρ c)

theorem W11_arg23 : W11 m ρ c (Proc.devRef .tc main_arg23) = (m ((c : Thread nD τ).loc main_arg23)) :=
  (StableHlo.after_of_writes_sub hostOps5 (W10 m ρ c) host5_writes (by decide) : W11 m ρ c (Proc.devRef .tc main_arg23) = W10 m ρ c (Proc.devRef .tc main_arg23)).trans (W10_arg23 m ρ c)

theorem W12_v107 : W12 m ρ c (Proc.devRef .tc main_v107) = (hu2 m c) := by
  refine (W12_arr m ρ c 7).trans ((Region5.final (V11 m ρ) c).trans ?_)
  show layerA (n := 100000) (W11 m ρ c (Proc.devRef .tc main_v99)) (W11 m ρ c (Proc.devRef .tc main_v55)) (transpose S128x128 [1, 0] (W11 m ρ c (Proc.devRef .tc main_arg21)) transposes_S128x128_p1_0_S128x128) (transpose S128x128 [1, 0] (W11 m ρ c (Proc.devRef .tc main_arg23)) transposes_S128x128_p1_0_S128x128) (W11 m ρ c (Proc.devRef .tc main_v104)) (W11 m ρ c (Proc.devRef .tc main_v105)) (W11 m ρ c (Proc.devRef .tc main_v106)) = _
  rw [W11_v99, W11_v55, W11_arg21, W11_v104, W11_arg23, W11_v105, W11_v106]
  rfl

theorem W11_v103 : W11 m ρ c (Proc.devRef .tc main_v103) = (hi2 m c) :=
  (StableHlo.after_of_writes_sub hostOps5 (W10 m ρ c) host5_writes (by decide) : W11 m ρ c (Proc.devRef .tc main_v103) = W10 m ρ c (Proc.devRef .tc main_v103)).trans (W10_v103 m ρ c)

theorem W12_v103 : W12 m ρ c (Proc.devRef .tc main_v103) = (hi2 m c) :=
  (W12_of_ne m ρ c main_v103 (by decide) : W12 m ρ c (Proc.devRef .tc main_v103) = W11 m ρ c (Proc.devRef .tc main_v103)).trans (W11_v103 m ρ c)

theorem W13_v110 : W13 m ρ c (Proc.devRef .tc main_v110) = (outK m c) := by
  have e : W13 m ρ c (Proc.devRef .tc main_v110) = stackOf (W12 m ρ c (Proc.devRef .tc main_v107)) (W12 m ρ c (Proc.devRef .tc main_v103)) := by
    show StableHlo.after hostOps6 (W12 m ρ c) (Proc.devRef .tc main_v110) = _
    after_results
    rfl
  rw [e, W12_v107, W12_v103]
  rfl

end Cert.KernelIdeal.KValue

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«113096_j6545530159457_1_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.RefStages.lean ====
/-
  The reference's stages as functions of the arrays they read, and each stage as the row-wise mathematics.

  The reference computes on whole arrays of 100000 rows.  Its projection is relu (x · wᵀ + b) with the bias spread over
  the rows; its layer forms the residual x + ((agg · wlᵀ + bl) + x · wrᵀ) and normalizes each row: the row sum (from the
  initial value zero) divided by 128 is the mean, spread back over the row; the same for the squares of the centred row;
  the centred row times the reciprocal square root of that variance plus ε, times g, plus β.  A bias or scale vector of
  128 numbers, made a [1, 128] row and spread over the rows, reads at (r, c) the vector's entry c: the vector reshaped
  to a row.  The mean over the edges (gather, scatter-add, count, divide) is kept as ONE function of the node features and
  the edge list: both programs apply the same operations, so it is never opened.
-/
import proofs.«113096_j6545530159457_1_alg».proof.Proof.Gen.ReferenceIdeal
import proofs.«113096_j6545530159457_1_alg».proof.Proof.Spec
import proofs.«113096_j6545530159457_1_alg».proof.Proof.LibSpread
import Idealize.ShloMosaic.Lib.ValueLayout
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Gen Cert.Spec Cert.Lib.PlainDot
  Cert.Lib.Spread Cert.KernelIdeal.MvnKernel
open scoped BigOperators

/-- A vector of 128 numbers is a [1, 128] row. -/
theorem castRow : S128.ShapeCasts S1x128 := by decide

/-- A [128, 128] weight transposed, a [128, 256] weight transposed, and a vector as a row. -/
abbrev wT (w : S128x128.Idx → EReal) : S128x128.Idx → EReal := transpose S128x128 [1, 0] w transposes_S128x128_S128x128_1_0
abbrev wT256 (w : S128x256.Idx → EReal) : S256x128.Idx → EReal := transpose S256x128 [1, 0] w transposes_S128x256_S256x128_1_0
abbrev asRow (b : S128.Idx → EReal) : S1x128.Idx → EReal := shapeCast S1x128 b castRow

/-! ## The stages as terms of the host operations -/

/-- The source and destination node of every edge, as the programs read them off the edge list. -/
def srcIdx (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000
def dstIdx (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The mean over the incoming edges: gather the source rows (a negative index counted from the end), add them into the
    destination rows, count the edges per destination, divide by the count or by one.  Kept as one function: both programs
    apply these same operations. -/
def segMeanT (h : S100000x128.Idx → EReal) (e : (⟨S2x600000, .i32⟩ : BufTy).Contents (Elt Ideal)) : S100000x128.Idx → EReal :=
  Host.divf (F := Ideal)
    (Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 (dstIdx e))
      (Host.gather gather_S100000x128_S600000x1_S600000x128_1_0_n_n_0_1_1128 h
        (broadcastInDim S600000x1 ![0] bcast_S600000_S600000x1_0
          (select (cmpi .slt (srcIdx e) (broadcastInDim S600000 ![] bcast_S_S600000 (constantI S_ 32 0#32)))
            (addi (srcIdx e) (broadcastInDim S600000 ![] bcast_S_S600000 (constantI S_ 32 100000#32))) (srcIdx e)))))
    (broadcastInDim S100000x128 ![0, 1] bcast_S100000x1_S100000x128_0_1
      (maximumf (F := Ideal) (φ := .f32)
        (Host.scatterAdd (F := Ideal) scatter_S100000x1_S600000x1_S600000x1_1_0_0_1
          (broadcastInDim S100000x1 ![] bcast_S_S100000x1 (constant (F := Ideal) S_ .f32 0x00000000#32))
          (broadcastInDim S600000x1 ![0] bcast_S600000_S600000x1_0 (dstIdx e))
          (broadcastInDim S600000x1 ![] bcast_S_S600000x1 (constant (F := Ideal) S_ .f32 0x3F800000#32)))
        (broadcastInDim S100000x1 ![] bcast_S_S100000x1 (constant (F := Ideal) S_ .f32 0x3F800000#32))))

/-- The two final feature arrays stacked along a new leading axis. -/
def stackOf (hu hi : S100000x128.Idx → EReal) : S2x100000x128.Idx → EReal :=
  concatenate S2x100000x128 0 [⟨S1x100000x128, broadcastInDim S1x100000x128 ![1, 2] bcast_S100000x128_S1x100000x128_1_2 hu⟩,
    ⟨S1x100000x128, broadcastInDim S1x100000x128 ![1, 2] bcast_S100000x128_S1x100000x128_1_2 hi⟩]
    concatenates_S1x100000x128_S1x100000x128_S2x100000x128_d0

/-- A [128] vector made a [1, 128] row and spread over the 100000 rows. -/
abbrev spreadRow (b : S128.Idx → EReal) : S100000x128.Idx → EReal :=
  broadcastInDim S100000x128 ![0, 1] bcast_S1x128_S100000x128_0_1 (broadcastInDim S1x128 ![1] bcast_S128_S1x128_1 b)

/-- The projection relu (x · wᵀ + b). -/
def projT (x : S100000x256.Idx → EReal) (w : S128x256.Idx → EReal) (b : S128.Idx → EReal) : S100000x128.Idx → EReal :=
  maximumf (F := Ideal) (φ := .f32)
    (addf (F := Ideal) (φ := .f32)
      (Host.dotGeneral (F := Ideal) (φ₁ := .f32) (φ₂ := .f32) dot_S100000x256_S256x128_S100000x128_1_0_0_1_n_n none x (transpose S256x128 [1, 0] w transposes_S128x256_S256x128_1_0))
      (spreadRow b))
    (broadcastInDim S100000x128 ![] bcast_S_S100000x128 (constant (F := Ideal) S_ .f32 0x00000000#32))

/-- The linear part (agg · wlᵀ + bl) + x · wrᵀ of a layer. -/
def linT (agg x : S100000x128.Idx → EReal) (wl : S128x128.Idx → EReal) (bl : S128.Idx → EReal) (wr : S128x128.Idx → EReal) :
    S100000x128.Idx → EReal :=
  addf (F := Ideal) (φ := .f32) (addf (F := Ideal) (φ := .f32)
      (Host.dotGeneral (F := Ideal) (φ₁ := .f32) (φ₂ := .f32) dot_S100000x128_S128x128_S100000x128_1_0_0_1_n_n none agg (transpose S128x128 [1, 0] wl transposes_S128x128_S128x128_1_0))
      (spreadRow bl))
    (Host.dotGeneral (F := Ideal) (φ₁ := .f32) (φ₂ := .f32) dot_S100000x128_S128x128_S100000x128_1_0_0_1_n_n none x (transpose S128x128 [1, 0] wr transposes_S128x128_S128x128_1_0))

/-- The residual x + ((agg · wlᵀ + bl) + x · wrᵀ). -/
def residT (agg x : S100000x128.Idx → EReal) (wl : S128x128.Idx → EReal) (bl : S128.Idx → EReal) (wr : S128x128.Idx → EReal) :
    S100000x128.Idx → EReal :=
  addf (F := Ideal) (φ := .f32) x (linT agg x wl bl wr)

/-- A row's mean as a [100000, 1] column: the row sum from zero, divided by 128. -/
def meanT (src : S100000x128.Idx → EReal) : S100000x1.Idx → EReal :=
  Host.divf (F := Ideal) (φ := .f32) (broadcastInDim S100000x1 ![0] bcast_S100000_S100000x1_0
      (Host.reduceAdd (F := Ideal) (φ := .f32) src (constant (F := Ideal) S_ .f32 0x00000000#32) reducesTo_S100000x128_S100000_d1 h_S_))
    (broadcastInDim S100000x1 ![] bcast_S_S100000x1 (constant (F := Ideal) S_ .f32 0x43000000#32))

/-- A [100000, 1] column spread over the 128 lanes. -/
abbrev lanes (v : S100000x1.Idx → EReal) : S100000x128.Idx → EReal :=
  broadcastInDim S100000x128 ![0, 1] bcast_S100000x1_S100000x128_0_1 v

/-- The normalization of a residual array. -/
def normT (res : S100000x128.Idx → EReal) (g be : S128.Idx → EReal) : S100000x128.Idx → EReal :=
  addf (F := Ideal) (φ := .f32) (mulf (F := Ideal) (φ := .f32) (mulf (F := Ideal) (φ := .f32)
        (subf (F := Ideal) (φ := .f32) res (lanes (meanT res)))
        (lanes (Host.rsqrt (F := Ideal) (φ := .f32) (addf (F := Ideal) (φ := .f32)
            (meanT (mulf (F := Ideal) (φ := .f32) (subf (F := Ideal) (φ := .f32) res (lanes (meanT res)))
              (subf (F := Ideal) (φ := .f32) res (lanes (meanT res)))))
            (broadcastInDim S100000x1 ![] bcast_S_S100000x1 (constant (F := Ideal) S_ .f32 0x3727C5AC#32))))))
      (spreadRow g))
    (spreadRow be)

/-- The maximum with zero. -/
def reluT (h : S100000x128.Idx → EReal) : S100000x128.Idx → EReal :=
  maximumf (F := Ideal) (φ := .f32) h (broadcastInDim S100000x128 ![] bcast_S_S100000x128 (constant (F := Ideal) S_ .f32 0x00000000#32))

/-! ## Layout reads -/

theorem bcastCol_apply (v : S100000.Idx → EReal) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

theorem lanes_apply (v : S100000x1.Idx → EReal) (r : Fin 100000) (c : Fin 128) :
    lanes v (ix2 r c) = v (ix2 r (0 : Fin 1)) :=
  broadcastInDim_apply _ bcast_S100000x1_S100000x128_0_1 v (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

theorem bcastScalar_apply {t : Shape} (h : S_.BroadcastsInDim t ![]) (b : BitVec 32) (i : t.Idx) :
    broadcastInDim t ![] h (constant (F := Ideal) S_ .f32 b) i = Ideal.ofBits .f32 b :=
  broadcastInDim_apply _ h (constant (F := Ideal) S_ .f32 b) i ix0 (fun a => a.elim0)

theorem spreadRow_apply (b : S128.Idx → EReal) (r : Fin 100000) (c : Fin 128) :
    spreadRow b (ix2 r c) = asRow b (ix2 (0 : Fin 1) c) :=
  spread_row b bcast_S128_S1x128_1 bcast_S1x128_S100000x128_0_1 castRow (ix2 r c)

/-- The host's row sum from zero, at row r. -/
theorem rowSumT (src : S100000x128.Idx → EReal) (r : Fin 100000) :
    Host.reduceAdd (F := Ideal) (φ := .f32) src (constant (F := Ideal) S_ .f32 0x00000000#32) reducesTo_S100000x128_S100000_d1 h_S_ (ix1 r)
      = ∑ k : Fin 128, src (ix2 r k) := by
  simp only [Host.reduceAdd, Ideal.hostReduceAdd_def]
  rw [Ideal.hostReduceAdd_single reducesTo_S100000x128_S100000_d1 (by decide)]
  rw [constant_apply, Ideal.ofBits_zero_f32, zero_add]
  exact Finset.sum_congr rfl fun k _ => congrArg src (funext fun a => Fin.ext (by match a with | ⟨0, _⟩ => rfl | ⟨1, _⟩ => rfl))

theorem meanT_apply (src : S100000x128.Idx → EReal) (r : Fin 100000) :
    meanT src (ix2 r (0 : Fin 1)) = rowMean (fun k => src (ix2 r k)) := by
  unfold meanT rowMean len128
  show Ideal.div _ _ = _
  rw [bcastCol_apply, rowSumT, bcastScalar_apply]

/-- The host's two matrix products at (r, c): sums over the contracted index. -/
theorem dot256 (x : S100000x256.Idx → EReal) (w : S256x128.Idx → EReal) (r : Fin 100000) (c : Fin 128) :
    Host.dotGeneral (F := Ideal) (φ₁ := .f32) (φ₂ := .f32) dot_S100000x256_S256x128_S100000x128_1_0_0_1_n_n none x w (ix2 r c)
      = ∑ k : Fin 256, x (ix2 r k) * w (ix2 k c) := by
  simp only [Host.dotGeneral]
  exact (dotGeneral_apply dot_S100000x256_S256x128_S100000x128_1_0_0_1_n_n rfl none _ x w (ix2 r c)).trans (mm_ix2 x w r c)

theorem dot128 (x : S100000x128.Idx → EReal) (w : S128x128.Idx → EReal) (r : Fin 100000) (c : Fin 128) :
    Host.dotGeneral (F := Ideal) (φ₁ := .f32) (φ₂ := .f32) dot_S100000x128_S128x128_S100000x128_1_0_0_1_n_n none x w (ix2 r c)
      = ∑ k : Fin 128, x (ix2 r k) * w (ix2 k c) := by
  simp only [Host.dotGeneral]
  exact (dotGeneral_apply dot_S100000x128_S128x128_S100000x128_1_0_0_1_n_n rfl none _ x w (ix2 r c)).trans (mm_ix2 x w r c)

/-! ## Each stage is the row-wise mathematics -/

theorem residT_apply (agg x : S100000x128.Idx → EReal) (wl : S128x128.Idx → EReal) (bl : S128.Idx → EReal) (wr : S128x128.Idx → EReal)
    (r : Fin 100000) (c : Fin 128) :
    residT agg x wl bl wr (ix2 r c) = resid (n := 100000) agg x (wT wl) (wT wr) (asRow bl) r c := by
  unfold residT linT resid
  rw [addf_apply, addf_apply, addf_apply, spreadRow_apply, dot128, dot128]

theorem normT_apply (res : S100000x128.Idx → EReal) (g be : S128.Idx → EReal) (r : Fin 100000) (c : Fin 128) :
    normT res g be (ix2 r c) = normRow (fun k => res (ix2 r k)) (asRow g) (asRow be) c := by
  unfold normT normRow
  rw [addf_apply, mulf_apply, mulf_apply, subf_apply, lanes_apply, lanes_apply, spreadRow_apply, spreadRow_apply, meanT_apply]
  show ((_ - _) * Ideal.rsqrt (meanT _ (ix2 r (0 : Fin 1)) + broadcastInDim S100000x1 ![] bcast_S_S100000x1 (constant (F := Ideal) S_ .f32 0x3727C5AC#32) (ix2 r (0 : Fin 1)))) * _ + _ = _
  rw [meanT_apply, bcastScalar_apply]
  have e : (fun k : Fin 128 => mulf (F := Ideal) (φ := .f32) (subf (F := Ideal) (φ := .f32) res (lanes (meanT res)))
        (subf (F := Ideal) (φ := .f32) res (lanes (meanT res))) (ix2 r k))
      = fun k => (res (ix2 r k) - rowMean (fun k => res (ix2 r k))) * (res (ix2 r k) - rowMean (fun k => res (ix2 r k))) := by
    funext k
    rw [mulf_apply, subf_apply, lanes_apply, meanT_apply]
  rw [e]
  rfl

/-- A layer of the reference without the final relu. -/
theorem layer_ref (agg x : S100000x128.Idx → EReal) (wl : S128x128.Idx → EReal) (bl : S128.Idx → EReal) (wr : S128x128.Idx → EReal)
    (g be : S128.Idx → EReal) :
    normT (residT agg x wl bl wr) g be = layerA (n := 100000) agg x (wT wl) (wT wr) (asRow bl) (asRow g) (asRow be) := by
  funext i
  obtain ⟨r, c, rfl⟩ : ∃ (r : Fin 100000) (c : Fin 128), i = ix2 r c := ⟨i 0, i 1, eq_ix2 i⟩
  rw [normT_apply]
  simp only [residT_apply]
  rfl

/-- A layer of the reference followed by relu. -/
theorem layerRelu_ref (agg x : S100000x128.Idx → EReal) (wl : S128x128.Idx → EReal) (bl : S128.Idx → EReal) (wr : S128x128.Idx → EReal)
    (g be : S128.Idx → EReal) :
    reluT (normT (residT agg x wl bl wr) g be) = layerReluA (n := 100000) agg x (wT wl) (wT wr) (asRow bl) (asRow g) (asRow be) := by
  funext i
  obtain ⟨r, c, rfl⟩ : ∃ (r : Fin 100000) (c : Fin 128), i = ix2 r c := ⟨i 0, i 1, eq_ix2 i⟩
  unfold reluT
  rw [maximumf_apply, bcastScalar_apply, normT_apply]
  simp only [residT_apply]
  rfl

/-- The reference's projection. -/
theorem proj_ref (x : S100000x256.Idx → EReal) (w : S128x256.Idx → EReal) (b : S128.Idx → EReal) :
    projT x w b = projA (n := 100000) (K := 256) x (wT256 w) (asRow b) := by
  funext i
  obtain ⟨r, c, rfl⟩ : ∃ (r : Fin 100000) (c : Fin 128), i = ix2 r c := ⟨i 0, i 1, eq_ix2 i⟩
  unfold projT
  rw [maximumf_apply, addf_apply, bcastScalar_apply, spreadRow_apply, dot256]
  rfl

end Cert.ReferenceIdeal.RefValue

end
-- ==== Proof.RefRun.lean ====
/-
  The idealized reference's run and its result as a function of its arguments.

  The reference is one line of host operations.  It is followed in fourteen stretches from the launch memory: a stretch
  leaves each buffer it writes at its operation's value of the buffers it reads and every other buffer as it was.  Read in
  order: the two projections; the edge mean of the users' features and the linear part on the item side; the edge mean of
  the items' features; the users' first layer, then the items'; relu on both; the same once more without relu; the two
  results stacked.  Each layer is stated through the row-wise mathematics, each projection too, and the edge mean stays one function.
-/
import proofs.«113096_j6545530159457_1_alg».proof.Proof.RefOps
import proofs.«113096_j6545530159457_1_alg».proof.Proof.RefStages

set_option maxRecDepth 16384

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.Spec

variable (m : (ℓ : Loc nD τ sig) → Buf (Elt Ideal) ℓ) (ρ : Dev nD → PrngReg) (c : Dev nD)

/-- Running two stretches in a row is running the second from what the first leaves. -/
theorem after_append : ∀ (l₁ l₂ : List (HloOp τ sig (Elt Ideal))) (V : Valuation τ sig (Elt Ideal)),
    after (l₁ ++ l₂) V = after l₂ (after l₁ V)
  | [], _, _ => rfl
  | op :: l, l₂, V => after_append l l₂ (op.result V)

/-! ## The buffer contents at the fourteen boundaries

Each is a definition that is opened only where a stretch is run from it, so that reading one stretch never reopens the earlier ones. -/

def R0 : Valuation τ sig (Elt Ideal) := launchContents m c
def R1 : Valuation τ sig (Elt Ideal) := after ops0 (R0 m c)
def R2 : Valuation τ sig (Elt Ideal) := after ops1 (R1 m c)
def R3 : Valuation τ sig (Elt Ideal) := after ops2 (R2 m c)
def R4 : Valuation τ sig (Elt Ideal) := after ops3 (R3 m c)
def R5 : Valuation τ sig (Elt Ideal) := after ops4 (R4 m c)
def R6 : Valuation τ sig (Elt Ideal) := after ops5 (R5 m c)
def R7 : Valuation τ sig (Elt Ideal) := after ops6 (R6 m c)
def R8 : Valuation τ sig (Elt Ideal) := after ops7 (R7 m c)
def R9 : Valuation τ sig (Elt Ideal) := after ops8 (R8 m c)
def R10 : Valuation τ sig (Elt Ideal) := after ops9 (R9 m c)
def R11 : Valuation τ sig (Elt Ideal) := after ops10 (R10 m c)
def R12 : Valuation τ sig (Elt Ideal) := after ops11 (R11 m c)
def R13 : Valuation τ sig (Elt Ideal) := after ops12 (R12 m c)
def R14 : Valuation τ sig (Elt Ideal) := after ops13 (R13 m c)

theorem after_ops : after (ops (F := Ideal)) (launchContents m c) = R14 m c := by
  rw [ops_eq]
  simp only [after_append]
  rfl

/-! ## The stages' values, from the launch memory -/

def hu0 : S100000x128.Idx → EReal := projA (n := 100000) (K := 256) (m ((c.tc : Thread nD τ).loc main_arg0)) (wT256 (m ((c.tc : Thread nD τ).loc main_arg4))) (asRow (m ((c.tc : Thread nD τ).loc main_arg5)))
def hi0 : S100000x128.Idx → EReal := projA (n := 100000) (K := 256) (m ((c.tc : Thread nD τ).loc main_arg1)) (wT256 (m ((c.tc : Thread nD τ).loc main_arg6))) (asRow (m ((c.tc : Thread nD τ).loc main_arg7)))
def hi1 : S100000x128.Idx → EReal :=
  layerReluA (n := 100000) (segMeanT (hu0 m c) (m ((c.tc : Thread nD τ).loc main_arg2))) (hi0 m c) (wT (m ((c.tc : Thread nD τ).loc main_arg12))) (wT (m ((c.tc : Thread nD τ).loc main_arg14))) (asRow (m ((c.tc : Thread nD τ).loc main_arg13))) (asRow (m ((c.tc : Thread nD τ).loc main_arg10))) (asRow (m ((c.tc : Thread nD τ).loc main_arg11)))
def hu1 : S100000x128.Idx → EReal :=
  layerReluA (n := 100000) (segMeanT (hi0 m c) (m ((c.tc : Thread nD τ).loc main_arg3))) (hu0 m c) (wT (m ((c.tc : Thread nD τ).loc main_arg15))) (wT (m ((c.tc : Thread nD τ).loc main_arg17))) (asRow (m ((c.tc : Thread nD τ).loc main_arg16))) (asRow (m ((c.tc : Thread nD τ).loc main_arg8))) (asRow (m ((c.tc : Thread nD τ).loc main_arg9)))
def hi2 : S100000x128.Idx → EReal :=
  layerA (n := 100000) (segMeanT (hu1 m c) (m ((c.tc : Thread nD τ).loc main_arg2))) (hi1 m c) (wT (m ((c.tc : Thread nD τ).loc main_arg18))) (wT (m ((c.tc : Thread nD τ).loc main_arg20))) (asRow (m ((c.tc : Thread nD τ).loc main_arg19))) (asRow (m ((c.tc : Thread nD τ).loc main_arg10))) (asRow (m ((c.tc : Thread nD τ).loc main_arg11)))
def hu2 : S100000x128.Idx → EReal :=
  layerA (n := 100000) (segMeanT (hi1 m c) (m ((c.tc : Thread nD τ).loc main_arg3))) (hu1 m c) (wT (m ((c.tc : Thread nD τ).loc main_arg21))) (wT (m ((c.tc : Thread nD τ).loc main_arg23))) (asRow (m ((c.tc : Thread nD τ).loc main_arg22))) (asRow (m ((c.tc : Thread nD τ).loc main_arg8))) (asRow (m ((c.tc : Thread nD τ).loc main_arg9)))
def outR : S2x100000x128.Idx → EReal := stackOf (hu2 m c) (hi2 m c)

/-! ## Each buffer at each boundary where it is read -/

theorem R0_arg0 : R0 m c (Proc.devRef .tc main_arg0) = (m ((c.tc : Thread nD τ).loc main_arg0)) := rfl

theorem R0_arg4 : R0 m c (Proc.devRef .tc main_arg4) = (m ((c.tc : Thread nD τ).loc main_arg4)) := rfl

theorem R0_arg5 : R0 m c (Proc.devRef .tc main_arg5) = (m ((c.tc : Thread nD τ).loc main_arg5)) := rfl

set_option maxHeartbeats 4000000 in
theorem R1_v5 : R1 m c (Proc.devRef .tc main_v5) = (hu0 m c) := by
  have e : R1 m c (Proc.devRef .tc main_v5) = projT (R0 m c (Proc.devRef .tc main_arg0)) (R0 m c (Proc.devRef .tc main_arg4)) (R0 m c (Proc.devRef .tc main_arg5)) := by
    show StableHlo.after ops0 (R0 m c) (Proc.devRef .tc main_v5) = _
    after_results_simp
    rfl
  rw [e, R0_arg0, R0_arg4, R0_arg5]
  exact proj_ref _ _ _

theorem R0_arg1 : R0 m c (Proc.devRef .tc main_arg1) = (m ((c.tc : Thread nD τ).loc main_arg1)) := rfl

theorem R1_arg1 : R1 m c (Proc.devRef .tc main_arg1) = (m ((c.tc : Thread nD τ).loc main_arg1)) :=
  (StableHlo.after_of_writes_sub ops0 (R0 m c) ops0_writes (by decide) : R1 m c (Proc.devRef .tc main_arg1) = R0 m c (Proc.devRef .tc main_arg1)).trans (R0_arg1 m c)

theorem R0_arg6 : R0 m c (Proc.devRef .tc main_arg6) = (m ((c.tc : Thread nD τ).loc main_arg6)) := rfl

theorem R1_arg6 : R1 m c (Proc.devRef .tc main_arg6) = (m ((c.tc : Thread nD τ).loc main_arg6)) :=
  (StableHlo.after_of_writes_sub ops0 (R0 m c) ops0_writes (by decide) : R1 m c (Proc.devRef .tc main_arg6) = R0 m c (Proc.devRef .tc main_arg6)).trans (R0_arg6 m c)

theorem R0_arg7 : R0 m c (Proc.devRef .tc main_arg7) = (m ((c.tc : Thread nD τ).loc main_arg7)) := rfl

theorem R1_arg7 : R1 m c (Proc.devRef .tc main_arg7) = (m ((c.tc : Thread nD τ).loc main_arg7)) :=
  (StableHlo.after_of_writes_sub ops0 (R0 m c) ops0_writes (by decide) : R1 m c (Proc.devRef .tc main_arg7) = R0 m c (Proc.devRef .tc main_arg7)).trans (R0_arg7 m c)

set_option maxHeartbeats 4000000 in
theorem R2_v11 : R2 m c (Proc.devRef .tc main_v11) = (hi0 m c) := by
  have e : R2 m c (Proc.devRef .tc main_v11) = projT (R1 m c (Proc.devRef .tc main_arg1)) (R1 m c (Proc.devRef .tc main_arg6)) (R1 m c (Proc.devRef .tc main_arg7)) := by
    show StableHlo.after ops1 (R1 m c) (Proc.devRef .tc main_v11) = _
    after_results_simp
    rfl
  rw [e, R1_arg1, R1_arg6, R1_arg7]
  exact proj_ref _ _ _

theorem R2_v5 : R2 m c (Proc.devRef .tc main_v5) = (hu0 m c) :=
  (StableHlo.after_of_writes_sub ops1 (R1 m c) ops1_writes (by decide) : R2 m c (Proc.devRef .tc main_v5) = R1 m c (Proc.devRef .tc main_v5)).trans (R1_v5 m c)

theorem R0_arg2 : R0 m c (Proc.devRef .tc main_arg2) = (m ((c.tc : Thread nD τ).loc main_arg2)) := rfl

theorem R1_arg2 : R1 m c (Proc.devRef .tc main_arg2) = (m ((c.tc : Thread nD τ).loc main_arg2)) :=
  (StableHlo.after_of_writes_sub ops0 (R0 m c) ops0_writes (by decide) : R1 m c (Proc.devRef .tc main_arg2) = R0 m c (Proc.devRef .tc main_arg2)).trans (R0_arg2 m c)

theorem R2_arg2 : R2 m c (Proc.devRef .tc main_arg2) = (m ((c.tc : Thread nD τ).loc main_arg2)) :=
  (StableHlo.after_of_writes_sub ops1 (R1 m c) ops1_writes (by decide) : R2 m c (Proc.devRef .tc main_arg2) = R1 m c (Proc.devRef .tc main_arg2)).trans (R1_arg2 m c)

set_option maxHeartbeats 4000000 in
theorem R3_v33 : R3 m c (Proc.devRef .tc main_v33) = (segMeanT (hu0 m c) (m ((c.tc : Thread nD τ).loc main_arg2))) := by
  have e : R3 m c (Proc.devRef .tc main_v33) = segMeanT (R2 m c (Proc.devRef .tc main_v5)) (R2 m c (Proc.devRef .tc main_arg2)) := by
    show StableHlo.after ops2 (R2 m c) (Proc.devRef .tc main_v33) = _
    after_results_simp
    rfl
  rw [e, R2_v5, R2_arg2]

theorem R3_v11 : R3 m c (Proc.devRef .tc main_v11) = (hi0 m c) :=
  (StableHlo.after_of_writes_sub ops2 (R2 m c) ops2_writes (by decide) : R3 m c (Proc.devRef .tc main_v11) = R2 m c (Proc.devRef .tc main_v11)).trans (R2_v11 m c)

theorem R0_arg12 : R0 m c (Proc.devRef .tc main_arg12) = (m ((c.tc : Thread nD τ).loc main_arg12)) := rfl

theorem R1_arg12 : R1 m c (Proc.devRef .tc main_arg12) = (m ((c.tc : Thread nD τ).loc main_arg12)) :=
  (StableHlo.after_of_writes_sub ops0 (R0 m c) ops0_writes (by decide) : R1 m c (Proc.devRef .tc main_arg12) = R0 m c (Proc.devRef .tc main_arg12)).trans (R0_arg12 m c)

theorem R2_arg12 : R2 m c (Proc.devRef .tc main_arg12) = (m ((c.tc : Thread nD τ).loc main_arg12)) :=
  (StableHlo.after_of_writes_sub ops1 (R1 m c) ops1_writes (by decide) : R2 m c (Proc.devRef .tc main_arg12) = R1 m c (Proc.devRef .tc main_arg12)).trans (R1_arg12 m c)

theorem R3_arg12 : R3 m c (Proc.devRef .tc main_arg12) = (m ((c.tc : Thread nD τ).loc main_arg12)) :=
  (StableHlo.after_of_writes_sub ops2 (R2 m c) ops2_writes (by decide) : R3 m c (Proc.devRef .tc main_arg12) = R2 m c (Proc.devRef .tc main_arg12)).trans (R2_arg12 m c)

theorem R0_arg13 : R0 m c (Proc.devRef .tc main_arg13) = (m ((c.tc : Thread nD τ).loc main_arg13)) := rfl

theorem R1_arg13 : R1 m c (Proc.devRef .tc main_arg13) = (m ((c.tc : Thread nD τ).loc main_arg13)) :=
  (StableHlo.after_of_writes_sub ops0 (R0 m c) ops0_writes (by decide) : R1 m c (Proc.devRef .tc main_arg13) = R0 m c (Proc.devRef .tc main_arg13)).trans (R0_arg13 m c)

theorem R2_arg13 : R2 m c (Proc.devRef .tc main_arg13) = (m ((c.tc : Thread nD τ).loc main_arg13)) :=
  (StableHlo.after_of_writes_sub ops1 (R1 m c) ops1_writes (by decide) : R2 m c (Proc.devRef .tc main_arg13) = R1 m c (Proc.devRef .tc main_arg13)).trans (R1_arg13 m c)

theorem R3_arg13 : R3 m c (Proc.devRef .tc main_arg13) = (m ((c.tc : Thread nD τ).loc main_arg13)) :=
  (StableHlo.after_of_writes_sub ops2 (R2 m c) ops2_writes (by decide) : R3 m c (Proc.devRef .tc main_arg13) = R2 m c (Proc.devRef .tc main_arg13)).trans (R2_arg13 m c)

theorem R0_arg14 : R0 m c (Proc.devRef .tc main_arg14) = (m ((c.tc : Thread nD τ).loc main_arg14)) := rfl

theorem R1_arg14 : R1 m c (Proc.devRef .tc main_arg14) = (m ((c.tc : Thread nD τ).loc main_arg14)) :=
  (StableHlo.after_of_writes_sub ops0 (R0 m c) ops0_writes (by decide) : R1 m c (Proc.devRef .tc main_arg14) = R0 m c (Proc.devRef .tc main_arg14)).trans (R0_arg14 m c)

theorem R2_arg14 : R2 m c (Proc.devRef .tc main_arg14) = (m ((c.tc : Thread nD τ).loc main_arg14)) :=
  (StableHlo.after_of_writes_sub ops1 (R1 m c) ops1_writes (by decide) : R2 m c (Proc.devRef .tc main_arg14) = R1 m c (Proc.devRef .tc main_arg14)).trans (R1_arg14 m c)

theorem R3_arg14 : R3 m c (Proc.devRef .tc main_arg14) = (m ((c.tc : Thread nD τ).loc main_arg14)) :=
  (StableHlo.after_of_writes_sub ops2 (R2 m c) ops2_writes (by decide) : R3 m c (Proc.devRef .tc main_arg14) = R2 m c (Proc.devRef .tc main_arg14)).trans (R2_arg14 m c)

set_option maxHeartbeats 4000000 in
theorem R4_v41 : R4 m c (Proc.devRef .tc main_v41) = (linT (segMeanT (hu0 m c) (m ((c.tc : Thread nD τ).loc main_arg2))) (hi0 m c) (m ((c.tc : Thread nD τ).loc main_arg12)) (m ((c.tc : Thread nD τ).loc main_arg13)) (m ((c.tc : Thread nD τ).loc main_arg14))) := by
  have e : R4 m c (Proc.devRef .tc main_v41) = linT (R3 m c (Proc.devRef .tc main_v33)) (R3 m c (Proc.devRef .tc main_v11)) (R3 m c (Proc.devRef .tc main_arg12)) (R3 m c (Proc.devRef .tc main_arg13)) (R3 m c (Proc.devRef .tc main_arg14)) := by
    show StableHlo.after ops3 (R3 m c) (Proc.devRef .tc main_v41) = _
    after_results_simp
    rfl
  rw [e, R3_v33, R3_v11, R3_arg12, R3_arg13, R3_arg14]

theorem R4_v11 : R4 m c (Proc.devRef .tc main_v11) = (hi0 m c) :=
  (StableHlo.after_of_writes_sub ops3 (R3 m c) ops3_writes (by decide) : R4 m c (Proc.devRef .tc main_v11) = R3 m c (Proc.devRef .tc main_v11)).trans (R3_v11 m c)

theorem R0_arg3 : R0 m c (Proc.devRef .tc main_arg3) = (m ((c.tc : Thread nD τ).loc main_arg3)) := rfl

theorem R1_arg3 : R1 m c (Proc.devRef .tc main_arg3) = (m ((c.tc : Thread nD τ).loc main_arg3)) :=
  (StableHlo.after_of_writes_sub ops0 (R0 m c) ops0_writes (by decide) : R1 m c (Proc.devRef .tc main_arg3) = R0 m c (Proc.devRef .tc main_arg3)).trans (R0_arg3 m c)

theorem R2_arg3 : R2 m c (Proc.devRef .tc main_arg3) = (m ((c.tc : Thread nD τ).loc main_arg3)) :=
  (StableHlo.after_of_writes_sub ops1 (R1 m c) ops1_writes (by decide) : R2 m c (Proc.devRef .tc main_arg3) = R1 m c (Proc.devRef .tc main_arg3)).trans (R1_arg3 m c)

theorem R3_arg3 : R3 m c (Proc.devRef .tc main_arg3) = (m ((c.tc : Thread nD τ).loc main_arg3)) :=
  (StableHlo.after_of_writes_sub ops2 (R2 m c) ops2_writes (by decide) : R3 m c (Proc.devRef .tc main_arg3) = R2 m c (Proc.devRef .tc main_arg3)).trans (R2_arg3 m c)

theorem R4_arg3 : R4 m c (Proc.devRef .tc main_arg3) = (m ((c.tc : Thread nD τ).loc main_arg3)) :=
  (StableHlo.after_of_writes_sub ops3 (R3 m c) ops3_writes (by decide) : R4 m c (Proc.devRef .tc main_arg3) = R3 m c (Proc.devRef .tc main_arg3)).trans (R3_arg3 m c)

set_option maxHeartbeats 4000000 in
theorem R5_v63 : R5 m c (Proc.devRef .tc main_v63) = (segMeanT (hi0 m c) (m ((c.tc : Thread nD τ).loc main_arg3))) := by
  have e : R5 m c (Proc.devRef .tc main_v63) = segMeanT (R4 m c (Proc.devRef .tc main_v11)) (R4 m c (Proc.devRef .tc main_arg3)) := by
    show StableHlo.after ops4 (R4 m c) (Proc.devRef .tc main_v63) = _
    after_results_simp
    rfl
  rw [e, R4_v11, R4_arg3]

theorem R3_v5 : R3 m c (Proc.devRef .tc main_v5) = (hu0 m c) :=
  (StableHlo.after_of_writes_sub ops2 (R2 m c) ops2_writes (by decide) : R3 m c (Proc.devRef .tc main_v5) = R2 m c (Proc.devRef .tc main_v5)).trans (R2_v5 m c)

theorem R4_v5 : R4 m c (Proc.devRef .tc main_v5) = (hu0 m c) :=
  (StableHlo.after_of_writes_sub ops3 (R3 m c) ops3_writes (by decide) : R4 m c (Proc.devRef .tc main_v5) = R3 m c (Proc.devRef .tc main_v5)).trans (R3_v5 m c)

theorem R5_v5 : R5 m c (Proc.devRef .tc main_v5) = (hu0 m c) :=
  (StableHlo.after_of_writes_sub ops4 (R4 m c) ops4_writes (by decide) : R5 m c (Proc.devRef .tc main_v5) = R4 m c (Proc.devRef .tc main_v5)).trans (R4_v5 m c)

theorem R0_arg15 : R0 m c (Proc.devRef .tc main_arg15) = (m ((c.tc : Thread nD τ).loc main_arg15)) := rfl

theorem R1_arg15 : R1 m c (Proc.devRef .tc main_arg15) = (m ((c.tc : Thread nD τ).loc main_arg15)) :=
  (StableHlo.after_of_writes_sub ops0 (R0 m c) ops0_writes (by decide) : R1 m c (Proc.devRef .tc main_arg15) = R0 m c (Proc.devRef .tc main_arg15)).trans (R0_arg15 m c)

theorem R2_arg15 : R2 m c (Proc.devRef .tc main_arg15) = (m ((c.tc : Thread nD τ).loc main_arg15)) :=
  (StableHlo.after_of_writes_sub ops1 (R1 m c) ops1_writes (by decide) : R2 m c (Proc.devRef .tc main_arg15) = R1 m c (Proc.devRef .tc main_arg15)).trans (R1_arg15 m c)

theorem R3_arg15 : R3 m c (Proc.devRef .tc main_arg15) = (m ((c.tc : Thread nD τ).loc main_arg15)) :=
  (StableHlo.after_of_writes_sub ops2 (R2 m c) ops2_writes (by decide) : R3 m c (Proc.devRef .tc main_arg15) = R2 m c (Proc.devRef .tc main_arg15)).trans (R2_arg15 m c)

theorem R4_arg15 : R4 m c (Proc.devRef .tc main_arg15) = (m ((c.tc : Thread nD τ).loc main_arg15)) :=
  (StableHlo.after_of_writes_sub ops3 (R3 m c) ops3_writes (by decide) : R4 m c (Proc.devRef .tc main_arg15) = R3 m c (Proc.devRef .tc main_arg15)).trans (R3_arg15 m c)

theorem R5_arg15 : R5 m c (Proc.devRef .tc main_arg15) = (m ((c.tc : Thread nD τ).loc main_arg15)) :=
  (StableHlo.after_of_writes_sub ops4 (R4 m c) ops4_writes (by decide) : R5 m c (Proc.devRef .tc main_arg15) = R4 m c (Proc.devRef .tc main_arg15)).trans (R4_arg15 m c)

theorem R0_arg16 : R0 m c (Proc.devRef .tc main_arg16) = (m ((c.tc : Thread nD τ).loc main_arg16)) := rfl

theorem R1_arg16 : R1 m c (Proc.devRef .tc main_arg16) = (m ((c.tc : Thread nD τ).loc main_arg16)) :=
  (StableHlo.after_of_writes_sub ops0 (R0 m c) ops0_writes (by decide) : R1 m c (Proc.devRef .tc main_arg16) = R0 m c (Proc.devRef .tc main_arg16)).trans (R0_arg16 m c)

theorem R2_arg16 : R2 m c (Proc.devRef .tc main_arg16) = (m ((c.tc : Thread nD τ).loc main_arg16)) :=
  (StableHlo.after_of_writes_sub ops1 (R1 m c) ops1_writes (by decide) : R2 m c (Proc.devRef .tc main_arg16) = R1 m c (Proc.devRef .tc main_arg16)).trans (R1_arg16 m c)

theorem R3_arg16 : R3 m c (Proc.devRef .tc main_arg16) = (m ((c.tc : Thread nD τ).loc main_arg16)) :=
  (StableHlo.after_of_writes_sub ops2 (R2 m c) ops2_writes (by decide) : R3 m c (Proc.devRef .tc main_arg16) = R2 m c (Proc.devRef .tc main_arg16)).trans (R2_arg16 m c)

theorem R4_arg16 : R4 m c (Proc.devRef .tc main_arg16) = (m ((c.tc : Thread nD τ).loc main_arg16)) :=
  (StableHlo.after_of_writes_sub ops3 (R3 m c) ops3_writes (by decide) : R4 m c (Proc.devRef .tc main_arg16) = R3 m c (Proc.devRef .tc main_arg16)).trans (R3_arg16 m c)

theorem R5_arg16 : R5 m c (Proc.devRef .tc main_arg16) = (m ((c.tc : Thread nD τ).loc main_arg16)) :=
  (StableHlo.after_of_writes_sub ops4 (R4 m c) ops4_writes (by decide) : R5 m c (Proc.devRef .tc main_arg16) = R4 m c (Proc.devRef .tc main_arg16)).trans (R4_arg16 m c)

theorem R0_arg17 : R0 m c (Proc.devRef .tc main_arg17) = (m ((c.tc : Thread nD τ).loc main_arg17)) := rfl

theorem R1_arg17 : R1 m c (Proc.devRef .tc main_arg17) = (m ((c.tc : Thread nD τ).loc main_arg17)) :=
  (StableHlo.after_of_writes_sub ops0 (R0 m c) ops0_writes (by decide) : R1 m c (Proc.devRef .tc main_arg17) = R0 m c (Proc.devRef .tc main_arg17)).trans (R0_arg17 m c)

theorem R2_arg17 : R2 m c (Proc.devRef .tc main_arg17) = (m ((c.tc : Thread nD τ).loc main_arg17)) :=
  (StableHlo.after_of_writes_sub ops1 (R1 m c) ops1_writes (by decide) : R2 m c (Proc.devRef .tc main_arg17) = R1 m c (Proc.devRef .tc main_arg17)).trans (R1_arg17 m c)

theorem R3_arg17 : R3 m c (Proc.devRef .tc main_arg17) = (m ((c.tc : Thread nD τ).loc main_arg17)) :=
  (StableHlo.after_of_writes_sub ops2 (R2 m c) ops2_writes (by decide) : R3 m c (Proc.devRef .tc main_arg17) = R2 m c (Proc.devRef .tc main_arg17)).trans (R2_arg17 m c)

theorem R4_arg17 : R4 m c (Proc.devRef .tc main_arg17) = (m ((c.tc : Thread nD τ).loc main_arg17)) :=
  (StableHlo.after_of_writes_sub ops3 (R3 m c) ops3_writes (by decide) : R4 m c (Proc.devRef .tc main_arg17) = R3 m c (Proc.devRef .tc main_arg17)).trans (R3_arg17 m c)

theorem R5_arg17 : R5 m c (Proc.devRef .tc main_arg17) = (m ((c.tc : Thread nD τ).loc main_arg17)) :=
  (StableHlo.after_of_writes_sub ops4 (R4 m c) ops4_writes (by decide) : R5 m c (Proc.devRef .tc main_arg17) = R4 m c (Proc.devRef .tc main_arg17)).trans (R4_arg17 m c)

theorem R0_arg8 : R0 m c (Proc.devRef .tc main_arg8) = (m ((c.tc : Thread nD τ).loc main_arg8)) := rfl

theorem R1_arg8 : R1 m c (Proc.devRef .tc main_arg8) = (m ((c.tc : Thread nD τ).loc main_arg8)) :=
  (StableHlo.after_of_writes_sub ops0 (R0 m c) ops0_writes (by decide) : R1 m c (Proc.devRef .tc main_arg8) = R0 m c (Proc.devRef .tc main_arg8)).trans (R0_arg8 m c)

theorem R2_arg8 : R2 m c (Proc.devRef .tc main_arg8) = (m ((c.tc : Thread nD τ).loc main_arg8)) :=
  (StableHlo.after_of_writes_sub ops1 (R1 m c) ops1_writes (by decide) : R2 m c (Proc.devRef .tc main_arg8) = R1 m c (Proc.devRef .tc main_arg8)).trans (R1_arg8 m c)

theorem R3_arg8 : R3 m c (Proc.devRef .tc main_arg8) = (m ((c.tc : Thread nD τ).loc main_arg8)) :=
  (StableHlo.after_of_writes_sub ops2 (R2 m c) ops2_writes (by decide) : R3 m c (Proc.devRef .tc main_arg8) = R2 m c (Proc.devRef .tc main_arg8)).trans (R2_arg8 m c)

theorem R4_arg8 : R4 m c (Proc.devRef .tc main_arg8) = (m ((c.tc : Thread nD τ).loc main_arg8)) :=
  (StableHlo.after_of_writes_sub ops3 (R3 m c) ops3_writes (by decide) : R4 m c (Proc.devRef .tc main_arg8) = R3 m c (Proc.devRef .tc main_arg8)).trans (R3_arg8 m c)

theorem R5_arg8 : R5 m c (Proc.devRef .tc main_arg8) = (m ((c.tc : Thread nD τ).loc main_arg8)) :=
  (StableHlo.after_of_writes_sub ops4 (R4 m c) ops4_writes (by decide) : R5 m c (Proc.devRef .tc main_arg8) = R4 m c (Proc.devRef .tc main_arg8)).trans (R4_arg8 m c)

theorem R0_arg9 : R0 m c (Proc.devRef .tc main_arg9) = (m ((c.tc : Thread nD τ).loc main_arg9)) := rfl

theorem R1_arg9 : R1 m c (Proc.devRef .tc main_arg9) = (m ((c.tc : Thread nD τ).loc main_arg9)) :=
  (StableHlo.after_of_writes_sub ops0 (R0 m c) ops0_writes (by decide) : R1 m c (Proc.devRef .tc main_arg9) = R0 m c (Proc.devRef .tc main_arg9)).trans (R0_arg9 m c)

theorem R2_arg9 : R2 m c (Proc.devRef .tc main_arg9) = (m ((c.tc : Thread nD τ).loc main_arg9)) :=
  (StableHlo.after_of_writes_sub ops1 (R1 m c) ops1_writes (by decide) : R2 m c (Proc.devRef .tc main_arg9) = R1 m c (Proc.devRef .tc main_arg9)).trans (R1_arg9 m c)

theorem R3_arg9 : R3 m c (Proc.devRef .tc main_arg9) = (m ((c.tc : Thread nD τ).loc main_arg9)) :=
  (StableHlo.after_of_writes_sub ops2 (R2 m c) ops2_writes (by decide) : R3 m c (Proc.devRef .tc main_arg9) = R2 m c (Proc.devRef .tc main_arg9)).trans (R2_arg9 m c)

theorem R4_arg9 : R4 m c (Proc.devRef .tc main_arg9) = (m ((c.tc : Thread nD τ).loc main_arg9)) :=
  (StableHlo.after_of_writes_sub ops3 (R3 m c) ops3_writes (by decide) : R4 m c (Proc.devRef .tc main_arg9) = R3 m c (Proc.devRef .tc main_arg9)).trans (R3_arg9 m c)

theorem R5_arg9 : R5 m c (Proc.devRef .tc main_arg9) = (m ((c.tc : Thread nD τ).loc main_arg9)) :=
  (StableHlo.after_of_writes_sub ops4 (R4 m c) ops4_writes (by decide) : R5 m c (Proc.devRef .tc main_arg9) = R4 m c (Proc.devRef .tc main_arg9)).trans (R4_arg9 m c)

set_option maxHeartbeats 4000000 in
theorem R6_v96 : R6 m c (Proc.devRef .tc main_v96) = (normT (residT (segMeanT (hi0 m c) (m ((c.tc : Thread nD τ).loc main_arg3))) (hu0 m c) (m ((c.tc : Thread nD τ).loc main_arg15)) (m ((c.tc : Thread nD τ).loc main_arg16)) (m ((c.tc : Thread nD τ).loc main_arg17))) (m ((c.tc : Thread nD τ).loc main_arg8)) (m ((c.tc : Thread nD τ).loc main_arg9))) := by
  have e : R6 m c (Proc.devRef .tc main_v96) = normT (residT (R5 m c (Proc.devRef .tc main_v63)) (R5 m c (Proc.devRef .tc main_v5)) (R5 m c (Proc.devRef .tc main_arg15)) (R5 m c (Proc.devRef .tc main_arg16)) (R5 m c (Proc.devRef .tc main_arg17))) (R5 m c (Proc.devRef .tc main_arg8)) (R5 m c (Proc.devRef .tc main_arg9)) := by
    show StableHlo.after ops5 (R5 m c) (Proc.devRef .tc main_v96) = _
    after_results_simp
    rfl
  rw [e, R5_v63, R5_v5, R5_arg15, R5_arg16, R5_arg17, R5_arg8, R5_arg9]

theorem R5_v11 : R5 m c (Proc.devRef .tc main_v11) = (hi0 m c) :=
  (StableHlo.after_of_writes_sub ops4 (R4 m c) ops4_writes (by decide) : R5 m c (Proc.devRef .tc main_v11) = R4 m c (Proc.devRef .tc main_v11)).trans (R4_v11 m c)

theorem R6_v11 : R6 m c (Proc.devRef .tc main_v11) = (hi0 m c) :=
  (StableHlo.after_of_writes_sub ops5 (R5 m c) ops5_writes (by decide) : R6 m c (Proc.devRef .tc main_v11) = R5 m c (Proc.devRef .tc main_v11)).trans (R5_v11 m c)

theorem R5_v41 : R5 m c (Proc.devRef .tc main_v41) = (linT (segMeanT (hu0 m c) (m ((c.tc : Thread nD τ).loc main_arg2))) (hi0 m c) (m ((c.tc : Thread nD τ).loc main_arg12)) (m ((c.tc : Thread nD τ).loc main_arg13)) (m ((c.tc : Thread nD τ).loc main_arg14))) :=
  (StableHlo.after_of_writes_sub ops4 (R4 m c) ops4_writes (by decide) : R5 m c (Proc.devRef .tc main_v41) = R4 m c (Proc.devRef .tc main_v41)).trans (R4_v41 m c)

theorem R6_v41 : R6 m c (Proc.devRef .tc main_v41) = (linT (segMeanT (hu0 m c) (m ((c.tc : Thread nD τ).loc main_arg2))) (hi0 m c) (m ((c.tc : Thread nD τ).loc main_arg12)) (m ((c.tc : Thread nD τ).loc main_arg13)) (m ((c.tc : Thread nD τ).loc main_arg14))) :=
  (StableHlo.after_of_writes_sub ops5 (R5 m c) ops5_writes (by decide) : R6 m c (Proc.devRef .tc main_v41) = R5 m c (Proc.devRef .tc main_v41)).trans (R5_v41 m c)

theorem R0_arg10 : R0 m c (Proc.devRef .tc main_arg10) = (m ((c.tc : Thread nD τ).loc main_arg10)) := rfl

theorem R1_arg10 : R1 m c (Proc.devRef .tc main_arg10) = (m ((c.tc : Thread nD τ).loc main_arg10)) :=
  (StableHlo.after_of_writes_sub ops0 (R0 m c) ops0_writes (by decide) : R1 m c (Proc.devRef .tc main_arg10) = R0 m c (Proc.devRef .tc main_arg10)).trans (R0_arg10 m c)

theorem R2_arg10 : R2 m c (Proc.devRef .tc main_arg10) = (m ((c.tc : Thread nD τ).loc main_arg10)) :=
  (StableHlo.after_of_writes_sub ops1 (R1 m c) ops1_writes (by decide) : R2 m c (Proc.devRef .tc main_arg10) = R1 m c (Proc.devRef .tc main_arg10)).trans (R1_arg10 m c)

theorem R3_arg10 : R3 m c (Proc.devRef .tc main_arg10) = (m ((c.tc : Thread nD τ).loc main_arg10)) :=
  (StableHlo.after_of_writes_sub ops2 (R2 m c) ops2_writes (by decide) : R3 m c (Proc.devRef .tc main_arg10) = R2 m c (Proc.devRef .tc main_arg10)).trans (R2_arg10 m c)

theorem R4_arg10 : R4 m c (Proc.devRef .tc main_arg10) = (m ((c.tc : Thread nD τ).loc main_arg10)) :=
  (StableHlo.after_of_writes_sub ops3 (R3 m c) ops3_writes (by decide) : R4 m c (Proc.devRef .tc main_arg10) = R3 m c (Proc.devRef .tc main_arg10)).trans (R3_arg10 m c)

theorem R5_arg10 : R5 m c (Proc.devRef .tc main_arg10) = (m ((c.tc : Thread nD τ).loc main_arg10)) :=
  (StableHlo.after_of_writes_sub ops4 (R4 m c) ops4_writes (by decide) : R5 m c (Proc.devRef .tc main_arg10) = R4 m c (Proc.devRef .tc main_arg10)).trans (R4_arg10 m c)

theorem R6_arg10 : R6 m c (Proc.devRef .tc main_arg10) = (m ((c.tc : Thread nD τ).loc main_arg10)) :=
  (StableHlo.after_of_writes_sub ops5 (R5 m c) ops5_writes (by decide) : R6 m c (Proc.devRef .tc main_arg10) = R5 m c (Proc.devRef .tc main_arg10)).trans (R5_arg10 m c)

theorem R0_arg11 : R0 m c (Proc.devRef .tc main_arg11) = (m ((c.tc : Thread nD τ).loc main_arg11)) := rfl

theorem R1_arg11 : R1 m c (Proc.devRef .tc main_arg11) = (m ((c.tc : Thread nD τ).loc main_arg11)) :=
  (StableHlo.after_of_writes_sub ops0 (R0 m c) ops0_writes (by decide) : R1 m c (Proc.devRef .tc main_arg11) = R0 m c (Proc.devRef .tc main_arg11)).trans (R0_arg11 m c)

theorem R2_arg11 : R2 m c (Proc.devRef .tc main_arg11) = (m ((c.tc : Thread nD τ).loc main_arg11)) :=
  (StableHlo.after_of_writes_sub ops1 (R1 m c) ops1_writes (by decide) : R2 m c (Proc.devRef .tc main_arg11) = R1 m c (Proc.devRef .tc main_arg11)).trans (R1_arg11 m c)

theorem R3_arg11 : R3 m c (Proc.devRef .tc main_arg11) = (m ((c.tc : Thread nD τ).loc main_arg11)) :=
  (StableHlo.after_of_writes_sub ops2 (R2 m c) ops2_writes (by decide) : R3 m c (Proc.devRef .tc main_arg11) = R2 m c (Proc.devRef .tc main_arg11)).trans (R2_arg11 m c)

theorem R4_arg11 : R4 m c (Proc.devRef .tc main_arg11) = (m ((c.tc : Thread nD τ).loc main_arg11)) :=
  (StableHlo.after_of_writes_sub ops3 (R3 m c) ops3_writes (by decide) : R4 m c (Proc.devRef .tc main_arg11) = R3 m c (Proc.devRef .tc main_arg11)).trans (R3_arg11 m c)

theorem R5_arg11 : R5 m c (Proc.devRef .tc main_arg11) = (m ((c.tc : Thread nD τ).loc main_arg11)) :=
  (StableHlo.after_of_writes_sub ops4 (R4 m c) ops4_writes (by decide) : R5 m c (Proc.devRef .tc main_arg11) = R4 m c (Proc.devRef .tc main_arg11)).trans (R4_arg11 m c)

theorem R6_arg11 : R6 m c (Proc.devRef .tc main_arg11) = (m ((c.tc : Thread nD τ).loc main_arg11)) :=
  (StableHlo.after_of_writes_sub ops5 (R5 m c) ops5_writes (by decide) : R6 m c (Proc.devRef .tc main_arg11) = R5 m c (Proc.devRef .tc main_arg11)).trans (R5_arg11 m c)

set_option maxHeartbeats 4000000 in
theorem R7_v121 : R7 m c (Proc.devRef .tc main_v121) = (normT (residT (segMeanT (hu0 m c) (m ((c.tc : Thread nD τ).loc main_arg2))) (hi0 m c) (m ((c.tc : Thread nD τ).loc main_arg12)) (m ((c.tc : Thread nD τ).loc main_arg13)) (m ((c.tc : Thread nD τ).loc main_arg14))) (m ((c.tc : Thread nD τ).loc main_arg10)) (m ((c.tc : Thread nD τ).loc main_arg11))) := by
  have e : R7 m c (Proc.devRef .tc main_v121) = normT (addf (F := Ideal) (φ := .f32) (R6 m c (Proc.devRef .tc main_v11)) (R6 m c (Proc.devRef .tc main_v41))) (R6 m c (Proc.devRef .tc main_arg10)) (R6 m c (Proc.devRef .tc main_arg11)) := by
    show StableHlo.after ops6 (R6 m c) (Proc.devRef .tc main_v121) = _
    after_results_simp
    rfl
  rw [e, R6_v11, R6_v41, R6_arg10, R6_arg11]
  rfl

theorem R7_v96 : R7 m c (Proc.devRef .tc main_v96) = (normT (residT (segMeanT (hi0 m c) (m ((c.tc : Thread nD τ).loc main_arg3))) (hu0 m c) (m ((c.tc : Thread nD τ).loc main_arg15)) (m ((c.tc : Thread nD τ).loc main_arg16)) (m ((c.tc : Thread nD τ).loc main_arg17))) (m ((c.tc : Thread nD τ).loc main_arg8)) (m ((c.tc : Thread nD τ).loc main_arg9))) :=
  (StableHlo.after_of_writes_sub ops6 (R6 m c) ops6_writes (by decide) : R7 m c (Proc.devRef .tc main_v96) = R6 m c (Proc.devRef .tc main_v96)).trans (R6_v96 m c)

set_option maxHeartbeats 4000000 in
theorem R8_v122 : R8 m c (Proc.devRef .tc main_v122) = (hu1 m c) := by
  have e : R8 m c (Proc.devRef .tc main_v122) = reluT (R7 m c (Proc.devRef .tc main_v96)) := by
    show StableHlo.after ops7 (R7 m c) (Proc.devRef .tc main_v122) = _
    after_results_simp
    rfl
  rw [e, R7_v96]
  exact layerRelu_ref _ _ _ _ _ _ _

set_option maxHeartbeats 4000000 in
theorem R8_v123 : R8 m c (Proc.devRef .tc main_v123) = (hi1 m c) := by
  have e : R8 m c (Proc.devRef .tc main_v123) = reluT (R7 m c (Proc.devRef .tc main_v121)) := by
    show StableHlo.after ops7 (R7 m c) (Proc.devRef .tc main_v123) = _
    after_results_simp
    rfl
  rw [e, R7_v121]
  exact layerRelu_ref _ _ _ _ _ _ _

theorem R3_arg2 : R3 m c (Proc.devRef .tc main_arg2) = (m ((c.tc : Thread nD τ).loc main_arg2)) :=
  (StableHlo.after_of_writes_sub ops2 (R2 m c) ops2_writes (by decide) : R3 m c (Proc.devRef .tc main_arg2) = R2 m c (Proc.devRef .tc main_arg2)).trans (R2_arg2 m c)

theorem R4_arg2 : R4 m c (Proc.devRef .tc main_arg2) = (m ((c.tc : Thread nD τ).loc main_arg2)) :=
  (StableHlo.after_of_writes_sub ops3 (R3 m c) ops3_writes (by decide) : R4 m c (Proc.devRef .tc main_arg2) = R3 m c (Proc.devRef .tc main_arg2)).trans (R3_arg2 m c)

theorem R5_arg2 : R5 m c (Proc.devRef .tc main_arg2) = (m ((c.tc : Thread nD τ).loc main_arg2)) :=
  (StableHlo.after_of_writes_sub ops4 (R4 m c) ops4_writes (by decide) : R5 m c (Proc.devRef .tc main_arg2) = R4 m c (Proc.devRef .tc main_arg2)).trans (R4_arg2 m c)

theorem R6_arg2 : R6 m c (Proc.devRef .tc main_arg2) = (m ((c.tc : Thread nD τ).loc main_arg2)) :=
  (StableHlo.after_of_writes_sub ops5 (R5 m c) ops5_writes (by decide) : R6 m c (Proc.devRef .tc main_arg2) = R5 m c (Proc.devRef .tc main_arg2)).trans (R5_arg2 m c)

theorem R7_arg2 : R7 m c (Proc.devRef .tc main_arg2) = (m ((c.tc : Thread nD τ).loc main_arg2)) :=
  (StableHlo.after_of_writes_sub ops6 (R6 m c) ops6_writes (by decide) : R7 m c (Proc.devRef .tc main_arg2) = R6 m c (Proc.devRef .tc main_arg2)).trans (R6_arg2 m c)

theorem R8_arg2 : R8 m c (Proc.devRef .tc main_arg2) = (m ((c.tc : Thread nD τ).loc main_arg2)) :=
  (StableHlo.after_of_writes_sub ops7 (R7 m c) ops7_writes (by decide) : R8 m c (Proc.devRef .tc main_arg2) = R7 m c (Proc.devRef .tc main_arg2)).trans (R7_arg2 m c)

set_option maxHeartbeats 4000000 in
theorem R9_v145 : R9 m c (Proc.devRef .tc main_v145) = (segMeanT (hu1 m c) (m ((c.tc : Thread nD τ).loc main_arg2))) := by
  have e : R9 m c (Proc.devRef .tc main_v145) = segMeanT (R8 m c (Proc.devRef .tc main_v122)) (R8 m c (Proc.devRef .tc main_arg2)) := by
    show StableHlo.after ops8 (R8 m c) (Proc.devRef .tc main_v145) = _
    after_results_simp
    rfl
  rw [e, R8_v122, R8_arg2]

theorem R9_v123 : R9 m c (Proc.devRef .tc main_v123) = (hi1 m c) :=
  (StableHlo.after_of_writes_sub ops8 (R8 m c) ops8_writes (by decide) : R9 m c (Proc.devRef .tc main_v123) = R8 m c (Proc.devRef .tc main_v123)).trans (R8_v123 m c)

theorem R0_arg18 : R0 m c (Proc.devRef .tc main_arg18) = (m ((c.tc : Thread nD τ).loc main_arg18)) := rfl

theorem R1_arg18 : R1 m c (Proc.devRef .tc main_arg18) = (m ((c.tc : Thread nD τ).loc main_arg18)) :=
  (StableHlo.after_of_writes_sub ops0 (R0 m c) ops0_writes (by decide) : R1 m c (Proc.devRef .tc main_arg18) = R0 m c (Proc.devRef .tc main_arg18)).trans (R0_arg18 m c)

theorem R2_arg18 : R2 m c (Proc.devRef .tc main_arg18) = (m ((c.tc : Thread nD τ).loc main_arg18)) :=
  (StableHlo.after_of_writes_sub ops1 (R1 m c) ops1_writes (by decide) : R2 m c (Proc.devRef .tc main_arg18) = R1 m c (Proc.devRef .tc main_arg18)).trans (R1_arg18 m c)

theorem R3_arg18 : R3 m c (Proc.devRef .tc main_arg18) = (m ((c.tc : Thread nD τ).loc main_arg18)) :=
  (StableHlo.after_of_writes_sub ops2 (R2 m c) ops2_writes (by decide) : R3 m c (Proc.devRef .tc main_arg18) = R2 m c (Proc.devRef .tc main_arg18)).trans (R2_arg18 m c)

theorem R4_arg18 : R4 m c (Proc.devRef .tc main_arg18) = (m ((c.tc : Thread nD τ).loc main_arg18)) :=
  (StableHlo.after_of_writes_sub ops3 (R3 m c) ops3_writes (by decide) : R4 m c (Proc.devRef .tc main_arg18) = R3 m c (Proc.devRef .tc main_arg18)).trans (R3_arg18 m c)

theorem R5_arg18 : R5 m c (Proc.devRef .tc main_arg18) = (m ((c.tc : Thread nD τ).loc main_arg18)) :=
  (StableHlo.after_of_writes_sub ops4 (R4 m c) ops4_writes (by decide) : R5 m c (Proc.devRef .tc main_arg18) = R4 m c (Proc.devRef .tc main_arg18)).trans (R4_arg18 m c)

theorem R6_arg18 : R6 m c (Proc.devRef .tc main_arg18) = (m ((c.tc : Thread nD τ).loc main_arg18)) :=
  (StableHlo.after_of_writes_sub ops5 (R5 m c) ops5_writes (by decide) : R6 m c (Proc.devRef .tc main_arg18) = R5 m c (Proc.devRef .tc main_arg18)).trans (R5_arg18 m c)

theorem R7_arg18 : R7 m c (Proc.devRef .tc main_arg18) = (m ((c.tc : Thread nD τ).loc main_arg18)) :=
  (StableHlo.after_of_writes_sub ops6 (R6 m c) ops6_writes (by decide) : R7 m c (Proc.devRef .tc main_arg18) = R6 m c (Proc.devRef .tc main_arg18)).trans (R6_arg18 m c)

theorem R8_arg18 : R8 m c (Proc.devRef .tc main_arg18) = (m ((c.tc : Thread nD τ).loc main_arg18)) :=
  (StableHlo.after_of_writes_sub ops7 (R7 m c) ops7_writes (by decide) : R8 m c (Proc.devRef .tc main_arg18) = R7 m c (Proc.devRef .tc main_arg18)).trans (R7_arg18 m c)

theorem R9_arg18 : R9 m c (Proc.devRef .tc main_arg18) = (m ((c.tc : Thread nD τ).loc main_arg18)) :=
  (StableHlo.after_of_writes_sub ops8 (R8 m c) ops8_writes (by decide) : R9 m c (Proc.devRef .tc main_arg18) = R8 m c (Proc.devRef .tc main_arg18)).trans (R8_arg18 m c)

theorem R0_arg19 : R0 m c (Proc.devRef .tc main_arg19) = (m ((c.tc : Thread nD τ).loc main_arg19)) := rfl

theorem R1_arg19 : R1 m c (Proc.devRef .tc main_arg19) = (m ((c.tc : Thread nD τ).loc main_arg19)) :=
  (StableHlo.after_of_writes_sub ops0 (R0 m c) ops0_writes (by decide) : R1 m c (Proc.devRef .tc main_arg19) = R0 m c (Proc.devRef .tc main_arg19)).trans (R0_arg19 m c)

theorem R2_arg19 : R2 m c (Proc.devRef .tc main_arg19) = (m ((c.tc : Thread nD τ).loc main_arg19)) :=
  (StableHlo.after_of_writes_sub ops1 (R1 m c) ops1_writes (by decide) : R2 m c (Proc.devRef .tc main_arg19) = R1 m c (Proc.devRef .tc main_arg19)).trans (R1_arg19 m c)

theorem R3_arg19 : R3 m c (Proc.devRef .tc main_arg19) = (m ((c.tc : Thread nD τ).loc main_arg19)) :=
  (StableHlo.after_of_writes_sub ops2 (R2 m c) ops2_writes (by decide) : R3 m c (Proc.devRef .tc main_arg19) = R2 m c (Proc.devRef .tc main_arg19)).trans (R2_arg19 m c)

theorem R4_arg19 : R4 m c (Proc.devRef .tc main_arg19) = (m ((c.tc : Thread nD τ).loc main_arg19)) :=
  (StableHlo.after_of_writes_sub ops3 (R3 m c) ops3_writes (by decide) : R4 m c (Proc.devRef .tc main_arg19) = R3 m c (Proc.devRef .tc main_arg19)).trans (R3_arg19 m c)

theorem R5_arg19 : R5 m c (Proc.devRef .tc main_arg19) = (m ((c.tc : Thread nD τ).loc main_arg19)) :=
  (StableHlo.after_of_writes_sub ops4 (R4 m c) ops4_writes (by decide) : R5 m c (Proc.devRef .tc main_arg19) = R4 m c (Proc.devRef .tc main_arg19)).trans (R4_arg19 m c)

theorem R6_arg19 : R6 m c (Proc.devRef .tc main_arg19) = (m ((c.tc : Thread nD τ).loc main_arg19)) :=
  (StableHlo.after_of_writes_sub ops5 (R5 m c) ops5_writes (by decide) : R6 m c (Proc.devRef .tc main_arg19) = R5 m c (Proc.devRef .tc main_arg19)).trans (R5_arg19 m c)

theorem R7_arg19 : R7 m c (Proc.devRef .tc main_arg19) = (m ((c.tc : Thread nD τ).loc main_arg19)) :=
  (StableHlo.after_of_writes_sub ops6 (R6 m c) ops6_writes (by decide) : R7 m c (Proc.devRef .tc main_arg19) = R6 m c (Proc.devRef .tc main_arg19)).trans (R6_arg19 m c)

theorem R8_arg19 : R8 m c (Proc.devRef .tc main_arg19) = (m ((c.tc : Thread nD τ).loc main_arg19)) :=
  (StableHlo.after_of_writes_sub ops7 (R7 m c) ops7_writes (by decide) : R8 m c (Proc.devRef .tc main_arg19) = R7 m c (Proc.devRef .tc main_arg19)).trans (R7_arg19 m c)

theorem R9_arg19 : R9 m c (Proc.devRef .tc main_arg19) = (m ((c.tc : Thread nD τ).loc main_arg19)) :=
  (StableHlo.after_of_writes_sub ops8 (R8 m c) ops8_writes (by decide) : R9 m c (Proc.devRef .tc main_arg19) = R8 m c (Proc.devRef .tc main_arg19)).trans (R8_arg19 m c)

theorem R0_arg20 : R0 m c (Proc.devRef .tc main_arg20) = (m ((c.tc : Thread nD τ).loc main_arg20)) := rfl

theorem R1_arg20 : R1 m c (Proc.devRef .tc main_arg20) = (m ((c.tc : Thread nD τ).loc main_arg20)) :=
  (StableHlo.after_of_writes_sub ops0 (R0 m c) ops0_writes (by decide) : R1 m c (Proc.devRef .tc main_arg20) = R0 m c (Proc.devRef .tc main_arg20)).trans (R0_arg20 m c)

theorem R2_arg20 : R2 m c (Proc.devRef .tc main_arg20) = (m ((c.tc : Thread nD τ).loc main_arg20)) :=
  (StableHlo.after_of_writes_sub ops1 (R1 m c) ops1_writes (by decide) : R2 m c (Proc.devRef .tc main_arg20) = R1 m c (Proc.devRef .tc main_arg20)).trans (R1_arg20 m c)

theorem R3_arg20 : R3 m c (Proc.devRef .tc main_arg20) = (m ((c.tc : Thread nD τ).loc main_arg20)) :=
  (StableHlo.after_of_writes_sub ops2 (R2 m c) ops2_writes (by decide) : R3 m c (Proc.devRef .tc main_arg20) = R2 m c (Proc.devRef .tc main_arg20)).trans (R2_arg20 m c)

theorem R4_arg20 : R4 m c (Proc.devRef .tc main_arg20) = (m ((c.tc : Thread nD τ).loc main_arg20)) :=
  (StableHlo.after_of_writes_sub ops3 (R3 m c) ops3_writes (by decide) : R4 m c (Proc.devRef .tc main_arg20) = R3 m c (Proc.devRef .tc main_arg20)).trans (R3_arg20 m c)

theorem R5_arg20 : R5 m c (Proc.devRef .tc main_arg20) = (m ((c.tc : Thread nD τ).loc main_arg20)) :=
  (StableHlo.after_of_writes_sub ops4 (R4 m c) ops4_writes (by decide) : R5 m c (Proc.devRef .tc main_arg20) = R4 m c (Proc.devRef .tc main_arg20)).trans (R4_arg20 m c)

theorem R6_arg20 : R6 m c (Proc.devRef .tc main_arg20) = (m ((c.tc : Thread nD τ).loc main_arg20)) :=
  (StableHlo.after_of_writes_sub ops5 (R5 m c) ops5_writes (by decide) : R6 m c (Proc.devRef .tc main_arg20) = R5 m c (Proc.devRef .tc main_arg20)).trans (R5_arg20 m c)

theorem R7_arg20 : R7 m c (Proc.devRef .tc main_arg20) = (m ((c.tc : Thread nD τ).loc main_arg20)) :=
  (StableHlo.after_of_writes_sub ops6 (R6 m c) ops6_writes (by decide) : R7 m c (Proc.devRef .tc main_arg20) = R6 m c (Proc.devRef .tc main_arg20)).trans (R6_arg20 m c)

theorem R8_arg20 : R8 m c (Proc.devRef .tc main_arg20) = (m ((c.tc : Thread nD τ).loc main_arg20)) :=
  (StableHlo.after_of_writes_sub ops7 (R7 m c) ops7_writes (by decide) : R8 m c (Proc.devRef .tc main_arg20) = R7 m c (Proc.devRef .tc main_arg20)).trans (R7_arg20 m c)

theorem R9_arg20 : R9 m c (Proc.devRef .tc main_arg20) = (m ((c.tc : Thread nD τ).loc main_arg20)) :=
  (StableHlo.after_of_writes_sub ops8 (R8 m c) ops8_writes (by decide) : R9 m c (Proc.devRef .tc main_arg20) = R8 m c (Proc.devRef .tc main_arg20)).trans (R8_arg20 m c)

set_option maxHeartbeats 4000000 in
theorem R10_v153 : R10 m c (Proc.devRef .tc main_v153) = (linT (segMeanT (hu1 m c) (m ((c.tc : Thread nD τ).loc main_arg2))) (hi1 m c) (m ((c.tc : Thread nD τ).loc main_arg18)) (m ((c.tc : Thread nD τ).loc main_arg19)) (m ((c.tc : Thread nD τ).loc main_arg20))) := by
  have e : R10 m c (Proc.devRef .tc main_v153) = linT (R9 m c (Proc.devRef .tc main_v145)) (R9 m c (Proc.devRef .tc main_v123)) (R9 m c (Proc.devRef .tc main_arg18)) (R9 m c (Proc.devRef .tc main_arg19)) (R9 m c (Proc.devRef .tc main_arg20)) := by
    show StableHlo.after ops9 (R9 m c) (Proc.devRef .tc main_v153) = _
    after_results_simp
    rfl
  rw [e, R9_v145, R9_v123, R9_arg18, R9_arg19, R9_arg20]

theorem R10_v123 : R10 m c (Proc.devRef .tc main_v123) = (hi1 m c) :=
  (StableHlo.after_of_writes_sub ops9 (R9 m c) ops9_writes (by decide) : R10 m c (Proc.devRef .tc main_v123) = R9 m c (Proc.devRef .tc main_v123)).trans (R9_v123 m c)

theorem R5_arg3 : R5 m c (Proc.devRef .tc main_arg3) = (m ((c.tc : Thread nD τ).loc main_arg3)) :=
  (StableHlo.after_of_writes_sub ops4 (R4 m c) ops4_writes (by decide) : R5 m c (Proc.devRef .tc main_arg3) = R4 m c (Proc.devRef .tc main_arg3)).trans (R4_arg3 m c)

theorem R6_arg3 : R6 m c (Proc.devRef .tc main_arg3) = (m ((c.tc : Thread nD τ).loc main_arg3)) :=
  (StableHlo.after_of_writes_sub ops5 (R5 m c) ops5_writes (by decide) : R6 m c (Proc.devRef .tc main_arg3) = R5 m c (Proc.devRef .tc main_arg3)).trans (R5_arg3 m c)

theorem R7_arg3 : R7 m c (Proc.devRef .tc main_arg3) = (m ((c.tc : Thread nD τ).loc main_arg3)) :=
  (StableHlo.after_of_writes_sub ops6 (R6 m c) ops6_writes (by decide) : R7 m c (Proc.devRef .tc main_arg3) = R6 m c (Proc.devRef .tc main_arg3)).trans (R6_arg3 m c)

theorem R8_arg3 : R8 m c (Proc.devRef .tc main_arg3) = (m ((c.tc : Thread nD τ).loc main_arg3)) :=
  (StableHlo.after_of_writes_sub ops7 (R7 m c) ops7_writes (by decide) : R8 m c (Proc.devRef .tc main_arg3) = R7 m c (Proc.devRef .tc main_arg3)).trans (R7_arg3 m c)

theorem R9_arg3 : R9 m c (Proc.devRef .tc main_arg3) = (m ((c.tc : Thread nD τ).loc main_arg3)) :=
  (StableHlo.after_of_writes_sub ops8 (R8 m c) ops8_writes (by decide) : R9 m c (Proc.devRef .tc main_arg3) = R8 m c (Proc.devRef .tc main_arg3)).trans (R8_arg3 m c)

theorem R10_arg3 : R10 m c (Proc.devRef .tc main_arg3) = (m ((c.tc : Thread nD τ).loc main_arg3)) :=
  (StableHlo.after_of_writes_sub ops9 (R9 m c) ops9_writes (by decide) : R10 m c (Proc.devRef .tc main_arg3) = R9 m c (Proc.devRef .tc main_arg3)).trans (R9_arg3 m c)

set_option maxHeartbeats 4000000 in
theorem R11_v175 : R11 m c (Proc.devRef .tc main_v175) = (segMeanT (hi1 m c) (m ((c.tc : Thread nD τ).loc main_arg3))) := by
  have e : R11 m c (Proc.devRef .tc main_v175) = segMeanT (R10 m c (Proc.devRef .tc main_v123)) (R10 m c (Proc.devRef .tc main_arg3)) := by
    show StableHlo.after ops10 (R10 m c) (Proc.devRef .tc main_v175) = _
    after_results_simp
    rfl
  rw [e, R10_v123, R10_arg3]

theorem R9_v122 : R9 m c (Proc.devRef .tc main_v122) = (hu1 m c) :=
  (StableHlo.after_of_writes_sub ops8 (R8 m c) ops8_writes (by decide) : R9 m c (Proc.devRef .tc main_v122) = R8 m c (Proc.devRef .tc main_v122)).trans (R8_v122 m c)

theorem R10_v122 : R10 m c (Proc.devRef .tc main_v122) = (hu1 m c) :=
  (StableHlo.after_of_writes_sub ops9 (R9 m c) ops9_writes (by decide) : R10 m c (Proc.devRef .tc main_v122) = R9 m c (Proc.devRef .tc main_v122)).trans (R9_v122 m c)

theorem R11_v122 : R11 m c (Proc.devRef .tc main_v122) = (hu1 m c) :=
  (StableHlo.after_of_writes_sub ops10 (R10 m c) ops10_writes (by decide) : R11 m c (Proc.devRef .tc main_v122) = R10 m c (Proc.devRef .tc main_v122)).trans (R10_v122 m c)

theorem R0_arg21 : R0 m c (Proc.devRef .tc main_arg21) = (m ((c.tc : Thread nD τ).loc main_arg21)) := rfl

theorem R1_arg21 : R1 m c (Proc.devRef .tc main_arg21) = (m ((c.tc : Thread nD τ).loc main_arg21)) :=
  (StableHlo.after_of_writes_sub ops0 (R0 m c) ops0_writes (by decide) : R1 m c (Proc.devRef .tc main_arg21) = R0 m c (Proc.devRef .tc main_arg21)).trans (R0_arg21 m c)

theorem R2_arg21 : R2 m c (Proc.devRef .tc main_arg21) = (m ((c.tc : Thread nD τ).loc main_arg21)) :=
  (StableHlo.after_of_writes_sub ops1 (R1 m c) ops1_writes (by decide) : R2 m c (Proc.devRef .tc main_arg21) = R1 m c (Proc.devRef .tc main_arg21)).trans (R1_arg21 m c)

theorem R3_arg21 : R3 m c (Proc.devRef .tc main_arg21) = (m ((c.tc : Thread nD τ).loc main_arg21)) :=
  (StableHlo.after_of_writes_sub ops2 (R2 m c) ops2_writes (by decide) : R3 m c (Proc.devRef .tc main_arg21) = R2 m c (Proc.devRef .tc main_arg21)).trans (R2_arg21 m c)

theorem R4_arg21 : R4 m c (Proc.devRef .tc main_arg21) = (m ((c.tc : Thread nD τ).loc main_arg21)) :=
  (StableHlo.after_of_writes_sub ops3 (R3 m c) ops3_writes (by decide) : R4 m c (Proc.devRef .tc main_arg21) = R3 m c (Proc.devRef .tc main_arg21)).trans (R3_arg21 m c)

theorem R5_arg21 : R5 m c (Proc.devRef .tc main_arg21) = (m ((c.tc : Thread nD τ).loc main_arg21)) :=
  (StableHlo.after_of_writes_sub ops4 (R4 m c) ops4_writes (by decide) : R5 m c (Proc.devRef .tc main_arg21) = R4 m c (Proc.devRef .tc main_arg21)).trans (R4_arg21 m c)

theorem R6_arg21 : R6 m c (Proc.devRef .tc main_arg21) = (m ((c.tc : Thread nD τ).loc main_arg21)) :=
  (StableHlo.after_of_writes_sub ops5 (R5 m c) ops5_writes (by decide) : R6 m c (Proc.devRef .tc main_arg21) = R5 m c (Proc.devRef .tc main_arg21)).trans (R5_arg21 m c)

theorem R7_arg21 : R7 m c (Proc.devRef .tc main_arg21) = (m ((c.tc : Thread nD τ).loc main_arg21)) :=
  (StableHlo.after_of_writes_sub ops6 (R6 m c) ops6_writes (by decide) : R7 m c (Proc.devRef .tc main_arg21) = R6 m c (Proc.devRef .tc main_arg21)).trans (R6_arg21 m c)

theorem R8_arg21 : R8 m c (Proc.devRef .tc main_arg21) = (m ((c.tc : Thread nD τ).loc main_arg21)) :=
  (StableHlo.after_of_writes_sub ops7 (R7 m c) ops7_writes (by decide) : R8 m c (Proc.devRef .tc main_arg21) = R7 m c (Proc.devRef .tc main_arg21)).trans (R7_arg21 m c)

theorem R9_arg21 : R9 m c (Proc.devRef .tc main_arg21) = (m ((c.tc : Thread nD τ).loc main_arg21)) :=
  (StableHlo.after_of_writes_sub ops8 (R8 m c) ops8_writes (by decide) : R9 m c (Proc.devRef .tc main_arg21) = R8 m c (Proc.devRef .tc main_arg21)).trans (R8_arg21 m c)

theorem R10_arg21 : R10 m c (Proc.devRef .tc main_arg21) = (m ((c.tc : Thread nD τ).loc main_arg21)) :=
  (StableHlo.after_of_writes_sub ops9 (R9 m c) ops9_writes (by decide) : R10 m c (Proc.devRef .tc main_arg21) = R9 m c (Proc.devRef .tc main_arg21)).trans (R9_arg21 m c)

theorem R11_arg21 : R11 m c (Proc.devRef .tc main_arg21) = (m ((c.tc : Thread nD τ).loc main_arg21)) :=
  (StableHlo.after_of_writes_sub ops10 (R10 m c) ops10_writes (by decide) : R11 m c (Proc.devRef .tc main_arg21) = R10 m c (Proc.devRef .tc main_arg21)).trans (R10_arg21 m c)

theorem R0_arg22 : R0 m c (Proc.devRef .tc main_arg22) = (m ((c.tc : Thread nD τ).loc main_arg22)) := rfl

theorem R1_arg22 : R1 m c (Proc.devRef .tc main_arg22) = (m ((c.tc : Thread nD τ).loc main_arg22)) :=
  (StableHlo.after_of_writes_sub ops0 (R0 m c) ops0_writes (by decide) : R1 m c (Proc.devRef .tc main_arg22) = R0 m c (Proc.devRef .tc main_arg22)).trans (R0_arg22 m c)

theorem R2_arg22 : R2 m c (Proc.devRef .tc main_arg22) = (m ((c.tc : Thread nD τ).loc main_arg22)) :=
  (StableHlo.after_of_writes_sub ops1 (R1 m c) ops1_writes (by decide) : R2 m c (Proc.devRef .tc main_arg22) = R1 m c (Proc.devRef .tc main_arg22)).trans (R1_arg22 m c)

theorem R3_arg22 : R3 m c (Proc.devRef .tc main_arg22) = (m ((c.tc : Thread nD τ).loc main_arg22)) :=
  (StableHlo.after_of_writes_sub ops2 (R2 m c) ops2_writes (by decide) : R3 m c (Proc.devRef .tc main_arg22) = R2 m c (Proc.devRef .tc main_arg22)).trans (R2_arg22 m c)

theorem R4_arg22 : R4 m c (Proc.devRef .tc main_arg22) = (m ((c.tc : Thread nD τ).loc main_arg22)) :=
  (StableHlo.after_of_writes_sub ops3 (R3 m c) ops3_writes (by decide) : R4 m c (Proc.devRef .tc main_arg22) = R3 m c (Proc.devRef .tc main_arg22)).trans (R3_arg22 m c)

theorem R5_arg22 : R5 m c (Proc.devRef .tc main_arg22) = (m ((c.tc : Thread nD τ).loc main_arg22)) :=
  (StableHlo.after_of_writes_sub ops4 (R4 m c) ops4_writes (by decide) : R5 m c (Proc.devRef .tc main_arg22) = R4 m c (Proc.devRef .tc main_arg22)).trans (R4_arg22 m c)

theorem R6_arg22 : R6 m c (Proc.devRef .tc main_arg22) = (m ((c.tc : Thread nD τ).loc main_arg22)) :=
  (StableHlo.after_of_writes_sub ops5 (R5 m c) ops5_writes (by decide) : R6 m c (Proc.devRef .tc main_arg22) = R5 m c (Proc.devRef .tc main_arg22)).trans (R5_arg22 m c)

theorem R7_arg22 : R7 m c (Proc.devRef .tc main_arg22) = (m ((c.tc : Thread nD τ).loc main_arg22)) :=
  (StableHlo.after_of_writes_sub ops6 (R6 m c) ops6_writes (by decide) : R7 m c (Proc.devRef .tc main_arg22) = R6 m c (Proc.devRef .tc main_arg22)).trans (R6_arg22 m c)

theorem R8_arg22 : R8 m c (Proc.devRef .tc main_arg22) = (m ((c.tc : Thread nD τ).loc main_arg22)) :=
  (StableHlo.after_of_writes_sub ops7 (R7 m c) ops7_writes (by decide) : R8 m c (Proc.devRef .tc main_arg22) = R7 m c (Proc.devRef .tc main_arg22)).trans (R7_arg22 m c)

theorem R9_arg22 : R9 m c (Proc.devRef .tc main_arg22) = (m ((c.tc : Thread nD τ).loc main_arg22)) :=
  (StableHlo.after_of_writes_sub ops8 (R8 m c) ops8_writes (by decide) : R9 m c (Proc.devRef .tc main_arg22) = R8 m c (Proc.devRef .tc main_arg22)).trans (R8_arg22 m c)

theorem R10_arg22 : R10 m c (Proc.devRef .tc main_arg22) = (m ((c.tc : Thread nD τ).loc main_arg22)) :=
  (StableHlo.after_of_writes_sub ops9 (R9 m c) ops9_writes (by decide) : R10 m c (Proc.devRef .tc main_arg22) = R9 m c (Proc.devRef .tc main_arg22)).trans (R9_arg22 m c)

theorem R11_arg22 : R11 m c (Proc.devRef .tc main_arg22) = (m ((c.tc : Thread nD τ).loc main_arg22)) :=
  (StableHlo.after_of_writes_sub ops10 (R10 m c) ops10_writes (by decide) : R11 m c (Proc.devRef .tc main_arg22) = R10 m c (Proc.devRef .tc main_arg22)).trans (R10_arg22 m c)

theorem R0_arg23 : R0 m c (Proc.devRef .tc main_arg23) = (m ((c.tc : Thread nD τ).loc main_arg23)) := rfl

theorem R1_arg23 : R1 m c (Proc.devRef .tc main_arg23) = (m ((c.tc : Thread nD τ).loc main_arg23)) :=
  (StableHlo.after_of_writes_sub ops0 (R0 m c) ops0_writes (by decide) : R1 m c (Proc.devRef .tc main_arg23) = R0 m c (Proc.devRef .tc main_arg23)).trans (R0_arg23 m c)

theorem R2_arg23 : R2 m c (Proc.devRef .tc main_arg23) = (m ((c.tc : Thread nD τ).loc main_arg23)) :=
  (StableHlo.after_of_writes_sub ops1 (R1 m c) ops1_writes (by decide) : R2 m c (Proc.devRef .tc main_arg23) = R1 m c (Proc.devRef .tc main_arg23)).trans (R1_arg23 m c)

theorem R3_arg23 : R3 m c (Proc.devRef .tc main_arg23) = (m ((c.tc : Thread nD τ).loc main_arg23)) :=
  (StableHlo.after_of_writes_sub ops2 (R2 m c) ops2_writes (by decide) : R3 m c (Proc.devRef .tc main_arg23) = R2 m c (Proc.devRef .tc main_arg23)).trans (R2_arg23 m c)

theorem R4_arg23 : R4 m c (Proc.devRef .tc main_arg23) = (m ((c.tc : Thread nD τ).loc main_arg23)) :=
  (StableHlo.after_of_writes_sub ops3 (R3 m c) ops3_writes (by decide) : R4 m c (Proc.devRef .tc main_arg23) = R3 m c (Proc.devRef .tc main_arg23)).trans (R3_arg23 m c)

theorem R5_arg23 : R5 m c (Proc.devRef .tc main_arg23) = (m ((c.tc : Thread nD τ).loc main_arg23)) :=
  (StableHlo.after_of_writes_sub ops4 (R4 m c) ops4_writes (by decide) : R5 m c (Proc.devRef .tc main_arg23) = R4 m c (Proc.devRef .tc main_arg23)).trans (R4_arg23 m c)

theorem R6_arg23 : R6 m c (Proc.devRef .tc main_arg23) = (m ((c.tc : Thread nD τ).loc main_arg23)) :=
  (StableHlo.after_of_writes_sub ops5 (R5 m c) ops5_writes (by decide) : R6 m c (Proc.devRef .tc main_arg23) = R5 m c (Proc.devRef .tc main_arg23)).trans (R5_arg23 m c)

theorem R7_arg23 : R7 m c (Proc.devRef .tc main_arg23) = (m ((c.tc : Thread nD τ).loc main_arg23)) :=
  (StableHlo.after_of_writes_sub ops6 (R6 m c) ops6_writes (by decide) : R7 m c (Proc.devRef .tc main_arg23) = R6 m c (Proc.devRef .tc main_arg23)).trans (R6_arg23 m c)

theorem R8_arg23 : R8 m c (Proc.devRef .tc main_arg23) = (m ((c.tc : Thread nD τ).loc main_arg23)) :=
  (StableHlo.after_of_writes_sub ops7 (R7 m c) ops7_writes (by decide) : R8 m c (Proc.devRef .tc main_arg23) = R7 m c (Proc.devRef .tc main_arg23)).trans (R7_arg23 m c)

theorem R9_arg23 : R9 m c (Proc.devRef .tc main_arg23) = (m ((c.tc : Thread nD τ).loc main_arg23)) :=
  (StableHlo.after_of_writes_sub ops8 (R8 m c) ops8_writes (by decide) : R9 m c (Proc.devRef .tc main_arg23) = R8 m c (Proc.devRef .tc main_arg23)).trans (R8_arg23 m c)

theorem R10_arg23 : R10 m c (Proc.devRef .tc main_arg23) = (m ((c.tc : Thread nD τ).loc main_arg23)) :=
  (StableHlo.after_of_writes_sub ops9 (R9 m c) ops9_writes (by decide) : R10 m c (Proc.devRef .tc main_arg23) = R9 m c (Proc.devRef .tc main_arg23)).trans (R9_arg23 m c)

theorem R11_arg23 : R11 m c (Proc.devRef .tc main_arg23) = (m ((c.tc : Thread nD τ).loc main_arg23)) :=
  (StableHlo.after_of_writes_sub ops10 (R10 m c) ops10_writes (by decide) : R11 m c (Proc.devRef .tc main_arg23) = R10 m c (Proc.devRef .tc main_arg23)).trans (R10_arg23 m c)

theorem R6_arg8 : R6 m c (Proc.devRef .tc main_arg8) = (m ((c.tc : Thread nD τ).loc main_arg8)) :=
  (StableHlo.after_of_writes_sub ops5 (R5 m c) ops5_writes (by decide) : R6 m c (Proc.devRef .tc main_arg8) = R5 m c (Proc.devRef .tc main_arg8)).trans (R5_arg8 m c)

theorem R7_arg8 : R7 m c (Proc.devRef .tc main_arg8) = (m ((c.tc : Thread nD τ).loc main_arg8)) :=
  (StableHlo.after_of_writes_sub ops6 (R6 m c) ops6_writes (by decide) : R7 m c (Proc.devRef .tc main_arg8) = R6 m c (Proc.devRef .tc main_arg8)).trans (R6_arg8 m c)

theorem R8_arg8 : R8 m c (Proc.devRef .tc main_arg8) = (m ((c.tc : Thread nD τ).loc main_arg8)) :=
  (StableHlo.after_of_writes_sub ops7 (R7 m c) ops7_writes (by decide) : R8 m c (Proc.devRef .tc main_arg8) = R7 m c (Proc.devRef .tc main_arg8)).trans (R7_arg8 m c)

theorem R9_arg8 : R9 m c (Proc.devRef .tc main_arg8) = (m ((c.tc : Thread nD τ).loc main_arg8)) :=
  (StableHlo.after_of_writes_sub ops8 (R8 m c) ops8_writes (by decide) : R9 m c (Proc.devRef .tc main_arg8) = R8 m c (Proc.devRef .tc main_arg8)).trans (R8_arg8 m c)

theorem R10_arg8 : R10 m c (Proc.devRef .tc main_arg8) = (m ((c.tc : Thread nD τ).loc main_arg8)) :=
  (StableHlo.after_of_writes_sub ops9 (R9 m c) ops9_writes (by decide) : R10 m c (Proc.devRef .tc main_arg8) = R9 m c (Proc.devRef .tc main_arg8)).trans (R9_arg8 m c)

theorem R11_arg8 : R11 m c (Proc.devRef .tc main_arg8) = (m ((c.tc : Thread nD τ).loc main_arg8)) :=
  (StableHlo.after_of_writes_sub ops10 (R10 m c) ops10_writes (by decide) : R11 m c (Proc.devRef .tc main_arg8) = R10 m c (Proc.devRef .tc main_arg8)).trans (R10_arg8 m c)

theorem R6_arg9 : R6 m c (Proc.devRef .tc main_arg9) = (m ((c.tc : Thread nD τ).loc main_arg9)) :=
  (StableHlo.after_of_writes_sub ops5 (R5 m c) ops5_writes (by decide) : R6 m c (Proc.devRef .tc main_arg9) = R5 m c (Proc.devRef .tc main_arg9)).trans (R5_arg9 m c)

theorem R7_arg9 : R7 m c (Proc.devRef .tc main_arg9) = (m ((c.tc : Thread nD τ).loc main_arg9)) :=
  (StableHlo.after_of_writes_sub ops6 (R6 m c) ops6_writes (by decide) : R7 m c (Proc.devRef .tc main_arg9) = R6 m c (Proc.devRef .tc main_arg9)).trans (R6_arg9 m c)

theorem R8_arg9 : R8 m c (Proc.devRef .tc main_arg9) = (m ((c.tc : Thread nD τ).loc main_arg9)) :=
  (StableHlo.after_of_writes_sub ops7 (R7 m c) ops7_writes (by decide) : R8 m c (Proc.devRef .tc main_arg9) = R7 m c (Proc.devRef .tc main_arg9)).trans (R7_arg9 m c)

theorem R9_arg9 : R9 m c (Proc.devRef .tc main_arg9) = (m ((c.tc : Thread nD τ).loc main_arg9)) :=
  (StableHlo.after_of_writes_sub ops8 (R8 m c) ops8_writes (by decide) : R9 m c (Proc.devRef .tc main_arg9) = R8 m c (Proc.devRef .tc main_arg9)).trans (R8_arg9 m c)

theorem R10_arg9 : R10 m c (Proc.devRef .tc main_arg9) = (m ((c.tc : Thread nD τ).loc main_arg9)) :=
  (StableHlo.after_of_writes_sub ops9 (R9 m c) ops9_writes (by decide) : R10 m c (Proc.devRef .tc main_arg9) = R9 m c (Proc.devRef .tc main_arg9)).trans (R9_arg9 m c)

theorem R11_arg9 : R11 m c (Proc.devRef .tc main_arg9) = (m ((c.tc : Thread nD τ).loc main_arg9)) :=
  (StableHlo.after_of_writes_sub ops10 (R10 m c) ops10_writes (by decide) : R11 m c (Proc.devRef .tc main_arg9) = R10 m c (Proc.devRef .tc main_arg9)).trans (R10_arg9 m c)

set_option maxHeartbeats 4000000 in
theorem R12_v208 : R12 m c (Proc.devRef .tc main_v208) = (hu2 m c) := by
  have e : R12 m c (Proc.devRef .tc main_v208) = normT (residT (R11 m c (Proc.devRef .tc main_v175)) (R11 m c (Proc.devRef .tc main_v122)) (R11 m c (Proc.devRef .tc main_arg21)) (R11 m c (Proc.devRef .tc main_arg22)) (R11 m c (Proc.devRef .tc main_arg23))) (R11 m c (Proc.devRef .tc main_arg8)) (R11 m c (Proc.devRef .tc main_arg9)) := by
    show StableHlo.after ops11 (R11 m c) (Proc.devRef .tc main_v208) = _
    after_results_simp
    rfl
  rw [e, R11_v175, R11_v122, R11_arg21, R11_arg22, R11_arg23, R11_arg8, R11_arg9]
  exact layer_ref _ _ _ _ _ _ _

theorem R11_v123 : R11 m c (Proc.devRef .tc main_v123) = (hi1 m c) :=
  (StableHlo.after_of_writes_sub ops10 (R10 m c) ops10_writes (by decide) : R11 m c (Proc.devRef .tc main_v123) = R10 m c (Proc.devRef .tc main_v123)).trans (R10_v123 m c)

theorem R12_v123 : R12 m c (Proc.devRef .tc main_v123) = (hi1 m c) :=
  (StableHlo.after_of_writes_sub ops11 (R11 m c) ops11_writes (by decide) : R12 m c (Proc.devRef .tc main_v123) = R11 m c (Proc.devRef .tc main_v123)).trans (R11_v123 m c)

theorem R11_v153 : R11 m c (Proc.devRef .tc main_v153) = (linT (segMeanT (hu1 m c) (m ((c.tc : Thread nD τ).loc main_arg2))) (hi1 m c) (m ((c.tc : Thread nD τ).loc main_arg18)) (m ((c.tc : Thread nD τ).loc main_arg19)) (m ((c.tc : Thread nD τ).loc main_arg20))) :=
  (StableHlo.after_of_writes_sub ops10 (R10 m c) ops10_writes (by decide) : R11 m c (Proc.devRef .tc main_v153) = R10 m c (Proc.devRef .tc main_v153)).trans (R10_v153 m c)

theorem R12_v153 : R12 m c (Proc.devRef .tc main_v153) = (linT (segMeanT (hu1 m c) (m ((c.tc : Thread nD τ).loc main_arg2))) (hi1 m c) (m ((c.tc : Thread nD τ).loc main_arg18)) (m ((c.tc : Thread nD τ).loc main_arg19)) (m ((c.tc : Thread nD τ).loc main_arg20))) :=
  (StableHlo.after_of_writes_sub ops11 (R11 m c) ops11_writes (by decide) : R12 m c (Proc.devRef .tc main_v153) = R11 m c (Proc.devRef .tc main_v153)).trans (R11_v153 m c)

theorem R7_arg10 : R7 m c (Proc.devRef .tc main_arg10) = (m ((c.tc : Thread nD τ).loc main_arg10)) :=
  (StableHlo.after_of_writes_sub ops6 (R6 m c) ops6_writes (by decide) : R7 m c (Proc.devRef .tc main_arg10) = R6 m c (Proc.devRef .tc main_arg10)).trans (R6_arg10 m c)

theorem R8_arg10 : R8 m c (Proc.devRef .tc main_arg10) = (m ((c.tc : Thread nD τ).loc main_arg10)) :=
  (StableHlo.after_of_writes_sub ops7 (R7 m c) ops7_writes (by decide) : R8 m c (Proc.devRef .tc main_arg10) = R7 m c (Proc.devRef .tc main_arg10)).trans (R7_arg10 m c)

theorem R9_arg10 : R9 m c (Proc.devRef .tc main_arg10) = (m ((c.tc : Thread nD τ).loc main_arg10)) :=
  (StableHlo.after_of_writes_sub ops8 (R8 m c) ops8_writes (by decide) : R9 m c (Proc.devRef .tc main_arg10) = R8 m c (Proc.devRef .tc main_arg10)).trans (R8_arg10 m c)

theorem R10_arg10 : R10 m c (Proc.devRef .tc main_arg10) = (m ((c.tc : Thread nD τ).loc main_arg10)) :=
  (StableHlo.after_of_writes_sub ops9 (R9 m c) ops9_writes (by decide) : R10 m c (Proc.devRef .tc main_arg10) = R9 m c (Proc.devRef .tc main_arg10)).trans (R9_arg10 m c)

theorem R11_arg10 : R11 m c (Proc.devRef .tc main_arg10) = (m ((c.tc : Thread nD τ).loc main_arg10)) :=
  (StableHlo.after_of_writes_sub ops10 (R10 m c) ops10_writes (by decide) : R11 m c (Proc.devRef .tc main_arg10) = R10 m c (Proc.devRef .tc main_arg10)).trans (R10_arg10 m c)

theorem R12_arg10 : R12 m c (Proc.devRef .tc main_arg10) = (m ((c.tc : Thread nD τ).loc main_arg10)) :=
  (StableHlo.after_of_writes_sub ops11 (R11 m c) ops11_writes (by decide) : R12 m c (Proc.devRef .tc main_arg10) = R11 m c (Proc.devRef .tc main_arg10)).trans (R11_arg10 m c)

theorem R7_arg11 : R7 m c (Proc.devRef .tc main_arg11) = (m ((c.tc : Thread nD τ).loc main_arg11)) :=
  (StableHlo.after_of_writes_sub ops6 (R6 m c) ops6_writes (by decide) : R7 m c (Proc.devRef .tc main_arg11) = R6 m c (Proc.devRef .tc main_arg11)).trans (R6_arg11 m c)

theorem R8_arg11 : R8 m c (Proc.devRef .tc main_arg11) = (m ((c.tc : Thread nD τ).loc main_arg11)) :=
  (StableHlo.after_of_writes_sub ops7 (R7 m c) ops7_writes (by decide) : R8 m c (Proc.devRef .tc main_arg11) = R7 m c (Proc.devRef .tc main_arg11)).trans (R7_arg11 m c)

theorem R9_arg11 : R9 m c (Proc.devRef .tc main_arg11) = (m ((c.tc : Thread nD τ).loc main_arg11)) :=
  (StableHlo.after_of_writes_sub ops8 (R8 m c) ops8_writes (by decide) : R9 m c (Proc.devRef .tc main_arg11) = R8 m c (Proc.devRef .tc main_arg11)).trans (R8_arg11 m c)

theorem R10_arg11 : R10 m c (Proc.devRef .tc main_arg11) = (m ((c.tc : Thread nD τ).loc main_arg11)) :=
  (StableHlo.after_of_writes_sub ops9 (R9 m c) ops9_writes (by decide) : R10 m c (Proc.devRef .tc main_arg11) = R9 m c (Proc.devRef .tc main_arg11)).trans (R9_arg11 m c)

theorem R11_arg11 : R11 m c (Proc.devRef .tc main_arg11) = (m ((c.tc : Thread nD τ).loc main_arg11)) :=
  (StableHlo.after_of_writes_sub ops10 (R10 m c) ops10_writes (by decide) : R11 m c (Proc.devRef .tc main_arg11) = R10 m c (Proc.devRef .tc main_arg11)).trans (R10_arg11 m c)

theorem R12_arg11 : R12 m c (Proc.devRef .tc main_arg11) = (m ((c.tc : Thread nD τ).loc main_arg11)) :=
  (StableHlo.after_of_writes_sub ops11 (R11 m c) ops11_writes (by decide) : R12 m c (Proc.devRef .tc main_arg11) = R11 m c (Proc.devRef .tc main_arg11)).trans (R11_arg11 m c)

set_option maxHeartbeats 4000000 in
theorem R13_v233 : R13 m c (Proc.devRef .tc main_v233) = (hi2 m c) := by
  have e : R13 m c (Proc.devRef .tc main_v233) = normT (addf (F := Ideal) (φ := .f32) (R12 m c (Proc.devRef .tc main_v123)) (R12 m c (Proc.devRef .tc main_v153))) (R12 m c (Proc.devRef .tc main_arg10)) (R12 m c (Proc.devRef .tc main_arg11)) := by
    show StableHlo.after ops12 (R12 m c) (Proc.devRef .tc main_v233) = _
    after_results_simp
    rfl
  rw [e, R12_v123, R12_v153, R12_arg10, R12_arg11]
  exact layer_ref _ _ _ _ _ _ _

theorem R13_v208 : R13 m c (Proc.devRef .tc main_v208) = (hu2 m c) :=
  (StableHlo.after_of_writes_sub ops12 (R12 m c) ops12_writes (by decide) : R13 m c (Proc.devRef .tc main_v208) = R12 m c (Proc.devRef .tc main_v208)).trans (R12_v208 m c)

set_option maxHeartbeats 4000000 in
theorem R14_v236 : R14 m c (Proc.devRef .tc main_v236) = (outR m c) := by
  have e : R14 m c (Proc.devRef .tc main_v236) = stackOf (R13 m c (Proc.devRef .tc main_v208)) (R13 m c (Proc.devRef .tc main_v233)) := by
    show StableHlo.after ops13 (R13 m c) (Proc.devRef .tc main_v236) = _
    after_results_simp
    rfl
  rw [e, R13_v208, R13_v233]
  rfl

theorem R1_arg0 : R1 m c (Proc.devRef .tc main_arg0) = (m ((c.tc : Thread nD τ).loc main_arg0)) :=
  (StableHlo.after_of_writes_sub ops0 (R0 m c) ops0_writes (by decide) : R1 m c (Proc.devRef .tc main_arg0) = R0 m c (Proc.devRef .tc main_arg0)).trans (R0_arg0 m c)

theorem R2_arg0 : R2 m c (Proc.devRef .tc main_arg0) = (m ((c.tc : Thread nD τ).loc main_arg0)) :=
  (StableHlo.after_of_writes_sub ops1 (R1 m c) ops1_writes (by decide) : R2 m c (Proc.devRef .tc main_arg0) = R1 m c (Proc.devRef .tc main_arg0)).trans (R1_arg0 m c)

theorem R3_arg0 : R3 m c (Proc.devRef .tc main_arg0) = (m ((c.tc : Thread nD τ).loc main_arg0)) :=
  (StableHlo.after_of_writes_sub ops2 (R2 m c) ops2_writes (by decide) : R3 m c (Proc.devRef .tc main_arg0) = R2 m c (Proc.devRef .tc main_arg0)).trans (R2_arg0 m c)

theorem R4_arg0 : R4 m c (Proc.devRef .tc main_arg0) = (m ((c.tc : Thread nD τ).loc main_arg0)) :=
  (StableHlo.after_of_writes_sub ops3 (R3 m c) ops3_writes (by decide) : R4 m c (Proc.devRef .tc main_arg0) = R3 m c (Proc.devRef .tc main_arg0)).trans (R3_arg0 m c)

theorem R5_arg0 : R5 m c (Proc.devRef .tc main_arg0) = (m ((c.tc : Thread nD τ).loc main_arg0)) :=
  (StableHlo.after_of_writes_sub ops4 (R4 m c) ops4_writes (by decide) : R5 m c (Proc.devRef .tc main_arg0) = R4 m c (Proc.devRef .tc main_arg0)).trans (R4_arg0 m c)

theorem R6_arg0 : R6 m c (Proc.devRef .tc main_arg0) = (m ((c.tc : Thread nD τ).loc main_arg0)) :=
  (StableHlo.after_of_writes_sub ops5 (R5 m c) ops5_writes (by decide) : R6 m c (Proc.devRef .tc main_arg0) = R5 m c (Proc.devRef .tc main_arg0)).trans (R5_arg0 m c)

theorem R7_arg0 : R7 m c (Proc.devRef .tc main_arg0) = (m ((c.tc : Thread nD τ).loc main_arg0)) :=
  (StableHlo.after_of_writes_sub ops6 (R6 m c) ops6_writes (by decide) : R7 m c (Proc.devRef .tc main_arg0) = R6 m c (Proc.devRef .tc main_arg0)).trans (R6_arg0 m c)

theorem R8_arg0 : R8 m c (Proc.devRef .tc main_arg0) = (m ((c.tc : Thread nD τ).loc main_arg0)) :=
  (StableHlo.after_of_writes_sub ops7 (R7 m c) ops7_writes (by decide) : R8 m c (Proc.devRef .tc main_arg0) = R7 m c (Proc.devRef .tc main_arg0)).trans (R7_arg0 m c)

theorem R9_arg0 : R9 m c (Proc.devRef .tc main_arg0) = (m ((c.tc : Thread nD τ).loc main_arg0)) :=
  (StableHlo.after_of_writes_sub ops8 (R8 m c) ops8_writes (by decide) : R9 m c (Proc.devRef .tc main_arg0) = R8 m c (Proc.devRef .tc main_arg0)).trans (R8_arg0 m c)

theorem R10_arg0 : R10 m c (Proc.devRef .tc main_arg0) = (m ((c.tc : Thread nD τ).loc main_arg0)) :=
  (StableHlo.after_of_writes_sub ops9 (R9 m c) ops9_writes (by decide) : R10 m c (Proc.devRef .tc main_arg0) = R9 m c (Proc.devRef .tc main_arg0)).trans (R9_arg0 m c)

theorem R11_arg0 : R11 m c (Proc.devRef .tc main_arg0) = (m ((c.tc : Thread nD τ).loc main_arg0)) :=
  (StableHlo.after_of_writes_sub ops10 (R10 m c) ops10_writes (by decide) : R11 m c (Proc.devRef .tc main_arg0) = R10 m c (Proc.devRef .tc main_arg0)).trans (R10_arg0 m c)

theorem R12_arg0 : R12 m c (Proc.devRef .tc main_arg0) = (m ((c.tc : Thread nD τ).loc main_arg0)) :=
  (StableHlo.after_of_writes_sub ops11 (R11 m c) ops11_writes (by decide) : R12 m c (Proc.devRef .tc main_arg0) = R11 m c (Proc.devRef .tc main_arg0)).trans (R11_arg0 m c)

theorem R13_arg0 : R13 m c (Proc.devRef .tc main_arg0) = (m ((c.tc : Thread nD τ).loc main_arg0)) :=
  (StableHlo.after_of_writes_sub ops12 (R12 m c) ops12_writes (by decide) : R13 m c (Proc.devRef .tc main_arg0) = R12 m c (Proc.devRef .tc main_arg0)).trans (R12_arg0 m c)

theorem R14_arg0 : R14 m c (Proc.devRef .tc main_arg0) = (m ((c.tc : Thread nD τ).loc main_arg0)) :=
  (StableHlo.after_of_writes_sub ops13 (R13 m c) ops13_writes (by decide) : R14 m c (Proc.devRef .tc main_arg0) = R13 m c (Proc.devRef .tc main_arg0)).trans (R13_arg0 m c)

theorem R2_arg1 : R2 m c (Proc.devRef .tc main_arg1) = (m ((c.tc : Thread nD τ).loc main_arg1)) :=
  (StableHlo.after_of_writes_sub ops1 (R1 m c) ops1_writes (by decide) : R2 m c (Proc.devRef .tc main_arg1) = R1 m c (Proc.devRef .tc main_arg1)).trans (R1_arg1 m c)

theorem R3_arg1 : R3 m c (Proc.devRef .tc main_arg1) = (m ((c.tc : Thread nD τ).loc main_arg1)) :=
  (StableHlo.after_of_writes_sub ops2 (R2 m c) ops2_writes (by decide) : R3 m c (Proc.devRef .tc main_arg1) = R2 m c (Proc.devRef .tc main_arg1)).trans (R2_arg1 m c)

theorem R4_arg1 : R4 m c (Proc.devRef .tc main_arg1) = (m ((c.tc : Thread nD τ).loc main_arg1)) :=
  (StableHlo.after_of_writes_sub ops3 (R3 m c) ops3_writes (by decide) : R4 m c (Proc.devRef .tc main_arg1) = R3 m c (Proc.devRef .tc main_arg1)).trans (R3_arg1 m c)

theorem R5_arg1 : R5 m c (Proc.devRef .tc main_arg1) = (m ((c.tc : Thread nD τ).loc main_arg1)) :=
  (StableHlo.after_of_writes_sub ops4 (R4 m c) ops4_writes (by decide) : R5 m c (Proc.devRef .tc main_arg1) = R4 m c (Proc.devRef .tc main_arg1)).trans (R4_arg1 m c)

theorem R6_arg1 : R6 m c (Proc.devRef .tc main_arg1) = (m ((c.tc : Thread nD τ).loc main_arg1)) :=
  (StableHlo.after_of_writes_sub ops5 (R5 m c) ops5_writes (by decide) : R6 m c (Proc.devRef .tc main_arg1) = R5 m c (Proc.devRef .tc main_arg1)).trans (R5_arg1 m c)

theorem R7_arg1 : R7 m c (Proc.devRef .tc main_arg1) = (m ((c.tc : Thread nD τ).loc main_arg1)) :=
  (StableHlo.after_of_writes_sub ops6 (R6 m c) ops6_writes (by decide) : R7 m c (Proc.devRef .tc main_arg1) = R6 m c (Proc.devRef .tc main_arg1)).trans (R6_arg1 m c)

theorem R8_arg1 : R8 m c (Proc.devRef .tc main_arg1) = (m ((c.tc : Thread nD τ).loc main_arg1)) :=
  (StableHlo.after_of_writes_sub ops7 (R7 m c) ops7_writes (by decide) : R8 m c (Proc.devRef .tc main_arg1) = R7 m c (Proc.devRef .tc main_arg1)).trans (R7_arg1 m c)

theorem R9_arg1 : R9 m c (Proc.devRef .tc main_arg1) = (m ((c.tc : Thread nD τ).loc main_arg1)) :=
  (StableHlo.after_of_writes_sub ops8 (R8 m c) ops8_writes (by decide) : R9 m c (Proc.devRef .tc main_arg1) = R8 m c (Proc.devRef .tc main_arg1)).trans (R8_arg1 m c)

theorem R10_arg1 : R10 m c (Proc.devRef .tc main_arg1) = (m ((c.tc : Thread nD τ).loc main_arg1)) :=
  (StableHlo.after_of_writes_sub ops9 (R9 m c) ops9_writes (by decide) : R10 m c (Proc.devRef .tc main_arg1) = R9 m c (Proc.devRef .tc main_arg1)).trans (R9_arg1 m c)

theorem R11_arg1 : R11 m c (Proc.devRef .tc main_arg1) = (m ((c.tc : Thread nD τ).loc main_arg1)) :=
  (StableHlo.after_of_writes_sub ops10 (R10 m c) ops10_writes (by decide) : R11 m c (Proc.devRef .tc main_arg1) = R10 m c (Proc.devRef .tc main_arg1)).trans (R10_arg1 m c)

theorem R12_arg1 : R12 m c (Proc.devRef .tc main_arg1) = (m ((c.tc : Thread nD τ).loc main_arg1)) :=
  (StableHlo.after_of_writes_sub ops11 (R11 m c) ops11_writes (by decide) : R12 m c (Proc.devRef .tc main_arg1) = R11 m c (Proc.devRef .tc main_arg1)).trans (R11_arg1 m c)

theorem R13_arg1 : R13 m c (Proc.devRef .tc main_arg1) = (m ((c.tc : Thread nD τ).loc main_arg1)) :=
  (StableHlo.after_of_writes_sub ops12 (R12 m c) ops12_writes (by decide) : R13 m c (Proc.devRef .tc main_arg1) = R12 m c (Proc.devRef .tc main_arg1)).trans (R12_arg1 m c)

theorem R14_arg1 : R14 m c (Proc.devRef .tc main_arg1) = (m ((c.tc : Thread nD τ).loc main_arg1)) :=
  (StableHlo.after_of_writes_sub ops13 (R13 m c) ops13_writes (by decide) : R14 m c (Proc.devRef .tc main_arg1) = R13 m c (Proc.devRef .tc main_arg1)).trans (R13_arg1 m c)

theorem R9_arg2 : R9 m c (Proc.devRef .tc main_arg2) = (m ((c.tc : Thread nD τ).loc main_arg2)) :=
  (StableHlo.after_of_writes_sub ops8 (R8 m c) ops8_writes (by decide) : R9 m c (Proc.devRef .tc main_arg2) = R8 m c (Proc.devRef .tc main_arg2)).trans (R8_arg2 m c)

theorem R10_arg2 : R10 m c (Proc.devRef .tc main_arg2) = (m ((c.tc : Thread nD τ).loc main_arg2)) :=
  (StableHlo.after_of_writes_sub ops9 (R9 m c) ops9_writes (by decide) : R10 m c (Proc.devRef .tc main_arg2) = R9 m c (Proc.devRef .tc main_arg2)).trans (R9_arg2 m c)

theorem R11_arg2 : R11 m c (Proc.devRef .tc main_arg2) = (m ((c.tc : Thread nD τ).loc main_arg2)) :=
  (StableHlo.after_of_writes_sub ops10 (R10 m c) ops10_writes (by decide) : R11 m c (Proc.devRef .tc main_arg2) = R10 m c (Proc.devRef .tc main_arg2)).trans (R10_arg2 m c)

theorem R12_arg2 : R12 m c (Proc.devRef .tc main_arg2) = (m ((c.tc : Thread nD τ).loc main_arg2)) :=
  (StableHlo.after_of_writes_sub ops11 (R11 m c) ops11_writes (by decide) : R12 m c (Proc.devRef .tc main_arg2) = R11 m c (Proc.devRef .tc main_arg2)).trans (R11_arg2 m c)

theorem R13_arg2 : R13 m c (Proc.devRef .tc main_arg2) = (m ((c.tc : Thread nD τ).loc main_arg2)) :=
  (StableHlo.after_of_writes_sub ops12 (R12 m c) ops12_writes (by decide) : R13 m c (Proc.devRef .tc main_arg2) = R12 m c (Proc.devRef .tc main_arg2)).trans (R12_arg2 m c)

theorem R14_arg2 : R14 m c (Proc.devRef .tc main_arg2) = (m ((c.tc : Thread nD τ).loc main_arg2)) :=
  (StableHlo.after_of_writes_sub ops13 (R13 m c) ops13_writes (by decide) : R14 m c (Proc.devRef .tc main_arg2) = R13 m c (Proc.devRef .tc main_arg2)).trans (R13_arg2 m c)

theorem R11_arg3 : R11 m c (Proc.devRef .tc main_arg3) = (m ((c.tc : Thread nD τ).loc main_arg3)) :=
  (StableHlo.after_of_writes_sub ops10 (R10 m c) ops10_writes (by decide) : R11 m c (Proc.devRef .tc main_arg3) = R10 m c (Proc.devRef .tc main_arg3)).trans (R10_arg3 m c)

theorem R12_arg3 : R12 m c (Proc.devRef .tc main_arg3) = (m ((c.tc : Thread nD τ).loc main_arg3)) :=
  (StableHlo.after_of_writes_sub ops11 (R11 m c) ops11_writes (by decide) : R12 m c (Proc.devRef .tc main_arg3) = R11 m c (Proc.devRef .tc main_arg3)).trans (R11_arg3 m c)

theorem R13_arg3 : R13 m c (Proc.devRef .tc main_arg3) = (m ((c.tc : Thread nD τ).loc main_arg3)) :=
  (StableHlo.after_of_writes_sub ops12 (R12 m c) ops12_writes (by decide) : R13 m c (Proc.devRef .tc main_arg3) = R12 m c (Proc.devRef .tc main_arg3)).trans (R12_arg3 m c)

theorem R14_arg3 : R14 m c (Proc.devRef .tc main_arg3) = (m ((c.tc : Thread nD τ).loc main_arg3)) :=
  (StableHlo.after_of_writes_sub ops13 (R13 m c) ops13_writes (by decide) : R14 m c (Proc.devRef .tc main_arg3) = R13 m c (Proc.devRef .tc main_arg3)).trans (R13_arg3 m c)

theorem R1_arg4 : R1 m c (Proc.devRef .tc main_arg4) = (m ((c.tc : Thread nD τ).loc main_arg4)) :=
  (StableHlo.after_of_writes_sub ops0 (R0 m c) ops0_writes (by decide) : R1 m c (Proc.devRef .tc main_arg4) = R0 m c (Proc.devRef .tc main_arg4)).trans (R0_arg4 m c)

theorem R2_arg4 : R2 m c (Proc.devRef .tc main_arg4) = (m ((c.tc : Thread nD τ).loc main_arg4)) :=
  (StableHlo.after_of_writes_sub ops1 (R1 m c) ops1_writes (by decide) : R2 m c (Proc.devRef .tc main_arg4) = R1 m c (Proc.devRef .tc main_arg4)).trans (R1_arg4 m c)

theorem R3_arg4 : R3 m c (Proc.devRef .tc main_arg4) = (m ((c.tc : Thread nD τ).loc main_arg4)) :=
  (StableHlo.after_of_writes_sub ops2 (R2 m c) ops2_writes (by decide) : R3 m c (Proc.devRef .tc main_arg4) = R2 m c (Proc.devRef .tc main_arg4)).trans (R2_arg4 m c)

theorem R4_arg4 : R4 m c (Proc.devRef .tc main_arg4) = (m ((c.tc : Thread nD τ).loc main_arg4)) :=
  (StableHlo.after_of_writes_sub ops3 (R3 m c) ops3_writes (by decide) : R4 m c (Proc.devRef .tc main_arg4) = R3 m c (Proc.devRef .tc main_arg4)).trans (R3_arg4 m c)

theorem R5_arg4 : R5 m c (Proc.devRef .tc main_arg4) = (m ((c.tc : Thread nD τ).loc main_arg4)) :=
  (StableHlo.after_of_writes_sub ops4 (R4 m c) ops4_writes (by decide) : R5 m c (Proc.devRef .tc main_arg4) = R4 m c (Proc.devRef .tc main_arg4)).trans (R4_arg4 m c)

theorem R6_arg4 : R6 m c (Proc.devRef .tc main_arg4) = (m ((c.tc : Thread nD τ).loc main_arg4)) :=
  (StableHlo.after_of_writes_sub ops5 (R5 m c) ops5_writes (by decide) : R6 m c (Proc.devRef .tc main_arg4) = R5 m c (Proc.devRef .tc main_arg4)).trans (R5_arg4 m c)

theorem R7_arg4 : R7 m c (Proc.devRef .tc main_arg4) = (m ((c.tc : Thread nD τ).loc main_arg4)) :=
  (StableHlo.after_of_writes_sub ops6 (R6 m c) ops6_writes (by decide) : R7 m c (Proc.devRef .tc main_arg4) = R6 m c (Proc.devRef .tc main_arg4)).trans (R6_arg4 m c)

theorem R8_arg4 : R8 m c (Proc.devRef .tc main_arg4) = (m ((c.tc : Thread nD τ).loc main_arg4)) :=
  (StableHlo.after_of_writes_sub ops7 (R7 m c) ops7_writes (by decide) : R8 m c (Proc.devRef .tc main_arg4) = R7 m c (Proc.devRef .tc main_arg4)).trans (R7_arg4 m c)

theorem R9_arg4 : R9 m c (Proc.devRef .tc main_arg4) = (m ((c.tc : Thread nD τ).loc main_arg4)) :=
  (StableHlo.after_of_writes_sub ops8 (R8 m c) ops8_writes (by decide) : R9 m c (Proc.devRef .tc main_arg4) = R8 m c (Proc.devRef .tc main_arg4)).trans (R8_arg4 m c)

theorem R10_arg4 : R10 m c (Proc.devRef .tc main_arg4) = (m ((c.tc : Thread nD τ).loc main_arg4)) :=
  (StableHlo.after_of_writes_sub ops9 (R9 m c) ops9_writes (by decide) : R10 m c (Proc.devRef .tc main_arg4) = R9 m c (Proc.devRef .tc main_arg4)).trans (R9_arg4 m c)

theorem R11_arg4 : R11 m c (Proc.devRef .tc main_arg4) = (m ((c.tc : Thread nD τ).loc main_arg4)) :=
  (StableHlo.after_of_writes_sub ops10 (R10 m c) ops10_writes (by decide) : R11 m c (Proc.devRef .tc main_arg4) = R10 m c (Proc.devRef .tc main_arg4)).trans (R10_arg4 m c)

theorem R12_arg4 : R12 m c (Proc.devRef .tc main_arg4) = (m ((c.tc : Thread nD τ).loc main_arg4)) :=
  (StableHlo.after_of_writes_sub ops11 (R11 m c) ops11_writes (by decide) : R12 m c (Proc.devRef .tc main_arg4) = R11 m c (Proc.devRef .tc main_arg4)).trans (R11_arg4 m c)

theorem R13_arg4 : R13 m c (Proc.devRef .tc main_arg4) = (m ((c.tc : Thread nD τ).loc main_arg4)) :=
  (StableHlo.after_of_writes_sub ops12 (R12 m c) ops12_writes (by decide) : R13 m c (Proc.devRef .tc main_arg4) = R12 m c (Proc.devRef .tc main_arg4)).trans (R12_arg4 m c)

theorem R14_arg4 : R14 m c (Proc.devRef .tc main_arg4) = (m ((c.tc : Thread nD τ).loc main_arg4)) :=
  (StableHlo.after_of_writes_sub ops13 (R13 m c) ops13_writes (by decide) : R14 m c (Proc.devRef .tc main_arg4) = R13 m c (Proc.devRef .tc main_arg4)).trans (R13_arg4 m c)

theorem R1_arg5 : R1 m c (Proc.devRef .tc main_arg5) = (m ((c.tc : Thread nD τ).loc main_arg5)) :=
  (StableHlo.after_of_writes_sub ops0 (R0 m c) ops0_writes (by decide) : R1 m c (Proc.devRef .tc main_arg5) = R0 m c (Proc.devRef .tc main_arg5)).trans (R0_arg5 m c)

theorem R2_arg5 : R2 m c (Proc.devRef .tc main_arg5) = (m ((c.tc : Thread nD τ).loc main_arg5)) :=
  (StableHlo.after_of_writes_sub ops1 (R1 m c) ops1_writes (by decide) : R2 m c (Proc.devRef .tc main_arg5) = R1 m c (Proc.devRef .tc main_arg5)).trans (R1_arg5 m c)

theorem R3_arg5 : R3 m c (Proc.devRef .tc main_arg5) = (m ((c.tc : Thread nD τ).loc main_arg5)) :=
  (StableHlo.after_of_writes_sub ops2 (R2 m c) ops2_writes (by decide) : R3 m c (Proc.devRef .tc main_arg5) = R2 m c (Proc.devRef .tc main_arg5)).trans (R2_arg5 m c)

theorem R4_arg5 : R4 m c (Proc.devRef .tc main_arg5) = (m ((c.tc : Thread nD τ).loc main_arg5)) :=
  (StableHlo.after_of_writes_sub ops3 (R3 m c) ops3_writes (by decide) : R4 m c (Proc.devRef .tc main_arg5) = R3 m c (Proc.devRef .tc main_arg5)).trans (R3_arg5 m c)

theorem R5_arg5 : R5 m c (Proc.devRef .tc main_arg5) = (m ((c.tc : Thread nD τ).loc main_arg5)) :=
  (StableHlo.after_of_writes_sub ops4 (R4 m c) ops4_writes (by decide) : R5 m c (Proc.devRef .tc main_arg5) = R4 m c (Proc.devRef .tc main_arg5)).trans (R4_arg5 m c)

theorem R6_arg5 : R6 m c (Proc.devRef .tc main_arg5) = (m ((c.tc : Thread nD τ).loc main_arg5)) :=
  (StableHlo.after_of_writes_sub ops5 (R5 m c) ops5_writes (by decide) : R6 m c (Proc.devRef .tc main_arg5) = R5 m c (Proc.devRef .tc main_arg5)).trans (R5_arg5 m c)

theorem R7_arg5 : R7 m c (Proc.devRef .tc main_arg5) = (m ((c.tc : Thread nD τ).loc main_arg5)) :=
  (StableHlo.after_of_writes_sub ops6 (R6 m c) ops6_writes (by decide) : R7 m c (Proc.devRef .tc main_arg5) = R6 m c (Proc.devRef .tc main_arg5)).trans (R6_arg5 m c)

theorem R8_arg5 : R8 m c (Proc.devRef .tc main_arg5) = (m ((c.tc : Thread nD τ).loc main_arg5)) :=
  (StableHlo.after_of_writes_sub ops7 (R7 m c) ops7_writes (by decide) : R8 m c (Proc.devRef .tc main_arg5) = R7 m c (Proc.devRef .tc main_arg5)).trans (R7_arg5 m c)

theorem R9_arg5 : R9 m c (Proc.devRef .tc main_arg5) = (m ((c.tc : Thread nD τ).loc main_arg5)) :=
  (StableHlo.after_of_writes_sub ops8 (R8 m c) ops8_writes (by decide) : R9 m c (Proc.devRef .tc main_arg5) = R8 m c (Proc.devRef .tc main_arg5)).trans (R8_arg5 m c)

theorem R10_arg5 : R10 m c (Proc.devRef .tc main_arg5) = (m ((c.tc : Thread nD τ).loc main_arg5)) :=
  (StableHlo.after_of_writes_sub ops9 (R9 m c) ops9_writes (by decide) : R10 m c (Proc.devRef .tc main_arg5) = R9 m c (Proc.devRef .tc main_arg5)).trans (R9_arg5 m c)

theorem R11_arg5 : R11 m c (Proc.devRef .tc main_arg5) = (m ((c.tc : Thread nD τ).loc main_arg5)) :=
  (StableHlo.after_of_writes_sub ops10 (R10 m c) ops10_writes (by decide) : R11 m c (Proc.devRef .tc main_arg5) = R10 m c (Proc.devRef .tc main_arg5)).trans (R10_arg5 m c)

theorem R12_arg5 : R12 m c (Proc.devRef .tc main_arg5) = (m ((c.tc : Thread nD τ).loc main_arg5)) :=
  (StableHlo.after_of_writes_sub ops11 (R11 m c) ops11_writes (by decide) : R12 m c (Proc.devRef .tc main_arg5) = R11 m c (Proc.devRef .tc main_arg5)).trans (R11_arg5 m c)

theorem R13_arg5 : R13 m c (Proc.devRef .tc main_arg5) = (m ((c.tc : Thread nD τ).loc main_arg5)) :=
  (StableHlo.after_of_writes_sub ops12 (R12 m c) ops12_writes (by decide) : R13 m c (Proc.devRef .tc main_arg5) = R12 m c (Proc.devRef .tc main_arg5)).trans (R12_arg5 m c)

theorem R14_arg5 : R14 m c (Proc.devRef .tc main_arg5) = (m ((c.tc : Thread nD τ).loc main_arg5)) :=
  (StableHlo.after_of_writes_sub ops13 (R13 m c) ops13_writes (by decide) : R14 m c (Proc.devRef .tc main_arg5) = R13 m c (Proc.devRef .tc main_arg5)).trans (R13_arg5 m c)

theorem R2_arg6 : R2 m c (Proc.devRef .tc main_arg6) = (m ((c.tc : Thread nD τ).loc main_arg6)) :=
  (StableHlo.after_of_writes_sub ops1 (R1 m c) ops1_writes (by decide) : R2 m c (Proc.devRef .tc main_arg6) = R1 m c (Proc.devRef .tc main_arg6)).trans (R1_arg6 m c)

theorem R3_arg6 : R3 m c (Proc.devRef .tc main_arg6) = (m ((c.tc : Thread nD τ).loc main_arg6)) :=
  (StableHlo.after_of_writes_sub ops2 (R2 m c) ops2_writes (by decide) : R3 m c (Proc.devRef .tc main_arg6) = R2 m c (Proc.devRef .tc main_arg6)).trans (R2_arg6 m c)

theorem R4_arg6 : R4 m c (Proc.devRef .tc main_arg6) = (m ((c.tc : Thread nD τ).loc main_arg6)) :=
  (StableHlo.after_of_writes_sub ops3 (R3 m c) ops3_writes (by decide) : R4 m c (Proc.devRef .tc main_arg6) = R3 m c (Proc.devRef .tc main_arg6)).trans (R3_arg6 m c)

theorem R5_arg6 : R5 m c (Proc.devRef .tc main_arg6) = (m ((c.tc : Thread nD τ).loc main_arg6)) :=
  (StableHlo.after_of_writes_sub ops4 (R4 m c) ops4_writes (by decide) : R5 m c (Proc.devRef .tc main_arg6) = R4 m c (Proc.devRef .tc main_arg6)).trans (R4_arg6 m c)

theorem R6_arg6 : R6 m c (Proc.devRef .tc main_arg6) = (m ((c.tc : Thread nD τ).loc main_arg6)) :=
  (StableHlo.after_of_writes_sub ops5 (R5 m c) ops5_writes (by decide) : R6 m c (Proc.devRef .tc main_arg6) = R5 m c (Proc.devRef .tc main_arg6)).trans (R5_arg6 m c)

theorem R7_arg6 : R7 m c (Proc.devRef .tc main_arg6) = (m ((c.tc : Thread nD τ).loc main_arg6)) :=
  (StableHlo.after_of_writes_sub ops6 (R6 m c) ops6_writes (by decide) : R7 m c (Proc.devRef .tc main_arg6) = R6 m c (Proc.devRef .tc main_arg6)).trans (R6_arg6 m c)

theorem R8_arg6 : R8 m c (Proc.devRef .tc main_arg6) = (m ((c.tc : Thread nD τ).loc main_arg6)) :=
  (StableHlo.after_of_writes_sub ops7 (R7 m c) ops7_writes (by decide) : R8 m c (Proc.devRef .tc main_arg6) = R7 m c (Proc.devRef .tc main_arg6)).trans (R7_arg6 m c)

theorem R9_arg6 : R9 m c (Proc.devRef .tc main_arg6) = (m ((c.tc : Thread nD τ).loc main_arg6)) :=
  (StableHlo.after_of_writes_sub ops8 (R8 m c) ops8_writes (by decide) : R9 m c (Proc.devRef .tc main_arg6) = R8 m c (Proc.devRef .tc main_arg6)).trans (R8_arg6 m c)

theorem R10_arg6 : R10 m c (Proc.devRef .tc main_arg6) = (m ((c.tc : Thread nD τ).loc main_arg6)) :=
  (StableHlo.after_of_writes_sub ops9 (R9 m c) ops9_writes (by decide) : R10 m c (Proc.devRef .tc main_arg6) = R9 m c (Proc.devRef .tc main_arg6)).trans (R9_arg6 m c)

theorem R11_arg6 : R11 m c (Proc.devRef .tc main_arg6) = (m ((c.tc : Thread nD τ).loc main_arg6)) :=
  (StableHlo.after_of_writes_sub ops10 (R10 m c) ops10_writes (by decide) : R11 m c (Proc.devRef .tc main_arg6) = R10 m c (Proc.devRef .tc main_arg6)).trans (R10_arg6 m c)

theorem R12_arg6 : R12 m c (Proc.devRef .tc main_arg6) = (m ((c.tc : Thread nD τ).loc main_arg6)) :=
  (StableHlo.after_of_writes_sub ops11 (R11 m c) ops11_writes (by decide) : R12 m c (Proc.devRef .tc main_arg6) = R11 m c (Proc.devRef .tc main_arg6)).trans (R11_arg6 m c)

theorem R13_arg6 : R13 m c (Proc.devRef .tc main_arg6) = (m ((c.tc : Thread nD τ).loc main_arg6)) :=
  (StableHlo.after_of_writes_sub ops12 (R12 m c) ops12_writes (by decide) : R13 m c (Proc.devRef .tc main_arg6) = R12 m c (Proc.devRef .tc main_arg6)).trans (R12_arg6 m c)

theorem R14_arg6 : R14 m c (Proc.devRef .tc main_arg6) = (m ((c.tc : Thread nD τ).loc main_arg6)) :=
  (StableHlo.after_of_writes_sub ops13 (R13 m c) ops13_writes (by decide) : R14 m c (Proc.devRef .tc main_arg6) = R13 m c (Proc.devRef .tc main_arg6)).trans (R13_arg6 m c)

theorem R2_arg7 : R2 m c (Proc.devRef .tc main_arg7) = (m ((c.tc : Thread nD τ).loc main_arg7)) :=
  (StableHlo.after_of_writes_sub ops1 (R1 m c) ops1_writes (by decide) : R2 m c (Proc.devRef .tc main_arg7) = R1 m c (Proc.devRef .tc main_arg7)).trans (R1_arg7 m c)

theorem R3_arg7 : R3 m c (Proc.devRef .tc main_arg7) = (m ((c.tc : Thread nD τ).loc main_arg7)) :=
  (StableHlo.after_of_writes_sub ops2 (R2 m c) ops2_writes (by decide) : R3 m c (Proc.devRef .tc main_arg7) = R2 m c (Proc.devRef .tc main_arg7)).trans (R2_arg7 m c)

theorem R4_arg7 : R4 m c (Proc.devRef .tc main_arg7) = (m ((c.tc : Thread nD τ).loc main_arg7)) :=
  (StableHlo.after_of_writes_sub ops3 (R3 m c) ops3_writes (by decide) : R4 m c (Proc.devRef .tc main_arg7) = R3 m c (Proc.devRef .tc main_arg7)).trans (R3_arg7 m c)

theorem R5_arg7 : R5 m c (Proc.devRef .tc main_arg7) = (m ((c.tc : Thread nD τ).loc main_arg7)) :=
  (StableHlo.after_of_writes_sub ops4 (R4 m c) ops4_writes (by decide) : R5 m c (Proc.devRef .tc main_arg7) = R4 m c (Proc.devRef .tc main_arg7)).trans (R4_arg7 m c)

theorem R6_arg7 : R6 m c (Proc.devRef .tc main_arg7) = (m ((c.tc : Thread nD τ).loc main_arg7)) :=
  (StableHlo.after_of_writes_sub ops5 (R5 m c) ops5_writes (by decide) : R6 m c (Proc.devRef .tc main_arg7) = R5 m c (Proc.devRef .tc main_arg7)).trans (R5_arg7 m c)

theorem R7_arg7 : R7 m c (Proc.devRef .tc main_arg7) = (m ((c.tc : Thread nD τ).loc main_arg7)) :=
  (StableHlo.after_of_writes_sub ops6 (R6 m c) ops6_writes (by decide) : R7 m c (Proc.devRef .tc main_arg7) = R6 m c (Proc.devRef .tc main_arg7)).trans (R6_arg7 m c)

theorem R8_arg7 : R8 m c (Proc.devRef .tc main_arg7) = (m ((c.tc : Thread nD τ).loc main_arg7)) :=
  (StableHlo.after_of_writes_sub ops7 (R7 m c) ops7_writes (by decide) : R8 m c (Proc.devRef .tc main_arg7) = R7 m c (Proc.devRef .tc main_arg7)).trans (R7_arg7 m c)

theorem R9_arg7 : R9 m c (Proc.devRef .tc main_arg7) = (m ((c.tc : Thread nD τ).loc main_arg7)) :=
  (StableHlo.after_of_writes_sub ops8 (R8 m c) ops8_writes (by decide) : R9 m c (Proc.devRef .tc main_arg7) = R8 m c (Proc.devRef .tc main_arg7)).trans (R8_arg7 m c)

theorem R10_arg7 : R10 m c (Proc.devRef .tc main_arg7) = (m ((c.tc : Thread nD τ).loc main_arg7)) :=
  (StableHlo.after_of_writes_sub ops9 (R9 m c) ops9_writes (by decide) : R10 m c (Proc.devRef .tc main_arg7) = R9 m c (Proc.devRef .tc main_arg7)).trans (R9_arg7 m c)

theorem R11_arg7 : R11 m c (Proc.devRef .tc main_arg7) = (m ((c.tc : Thread nD τ).loc main_arg7)) :=
  (StableHlo.after_of_writes_sub ops10 (R10 m c) ops10_writes (by decide) : R11 m c (Proc.devRef .tc main_arg7) = R10 m c (Proc.devRef .tc main_arg7)).trans (R10_arg7 m c)

theorem R12_arg7 : R12 m c (Proc.devRef .tc main_arg7) = (m ((c.tc : Thread nD τ).loc main_arg7)) :=
  (StableHlo.after_of_writes_sub ops11 (R11 m c) ops11_writes (by decide) : R12 m c (Proc.devRef .tc main_arg7) = R11 m c (Proc.devRef .tc main_arg7)).trans (R11_arg7 m c)

theorem R13_arg7 : R13 m c (Proc.devRef .tc main_arg7) = (m ((c.tc : Thread nD τ).loc main_arg7)) :=
  (StableHlo.after_of_writes_sub ops12 (R12 m c) ops12_writes (by decide) : R13 m c (Proc.devRef .tc main_arg7) = R12 m c (Proc.devRef .tc main_arg7)).trans (R12_arg7 m c)

theorem R14_arg7 : R14 m c (Proc.devRef .tc main_arg7) = (m ((c.tc : Thread nD τ).loc main_arg7)) :=
  (StableHlo.after_of_writes_sub ops13 (R13 m c) ops13_writes (by decide) : R14 m c (Proc.devRef .tc main_arg7) = R13 m c (Proc.devRef .tc main_arg7)).trans (R13_arg7 m c)

theorem R12_arg8 : R12 m c (Proc.devRef .tc main_arg8) = (m ((c.tc : Thread nD τ).loc main_arg8)) :=
  (StableHlo.after_of_writes_sub ops11 (R11 m c) ops11_writes (by decide) : R12 m c (Proc.devRef .tc main_arg8) = R11 m c (Proc.devRef .tc main_arg8)).trans (R11_arg8 m c)

theorem R13_arg8 : R13 m c (Proc.devRef .tc main_arg8) = (m ((c.tc : Thread nD τ).loc main_arg8)) :=
  (StableHlo.after_of_writes_sub ops12 (R12 m c) ops12_writes (by decide) : R13 m c (Proc.devRef .tc main_arg8) = R12 m c (Proc.devRef .tc main_arg8)).trans (R12_arg8 m c)

theorem R14_arg8 : R14 m c (Proc.devRef .tc main_arg8) = (m ((c.tc : Thread nD τ).loc main_arg8)) :=
  (StableHlo.after_of_writes_sub ops13 (R13 m c) ops13_writes (by decide) : R14 m c (Proc.devRef .tc main_arg8) = R13 m c (Proc.devRef .tc main_arg8)).trans (R13_arg8 m c)

theorem R12_arg9 : R12 m c (Proc.devRef .tc main_arg9) = (m ((c.tc : Thread nD τ).loc main_arg9)) :=
  (StableHlo.after_of_writes_sub ops11 (R11 m c) ops11_writes (by decide) : R12 m c (Proc.devRef .tc main_arg9) = R11 m c (Proc.devRef .tc main_arg9)).trans (R11_arg9 m c)

theorem R13_arg9 : R13 m c (Proc.devRef .tc main_arg9) = (m ((c.tc : Thread nD τ).loc main_arg9)) :=
  (StableHlo.after_of_writes_sub ops12 (R12 m c) ops12_writes (by decide) : R13 m c (Proc.devRef .tc main_arg9) = R12 m c (Proc.devRef .tc main_arg9)).trans (R12_arg9 m c)

theorem R14_arg9 : R14 m c (Proc.devRef .tc main_arg9) = (m ((c.tc : Thread nD τ).loc main_arg9)) :=
  (StableHlo.after_of_writes_sub ops13 (R13 m c) ops13_writes (by decide) : R14 m c (Proc.devRef .tc main_arg9) = R13 m c (Proc.devRef .tc main_arg9)).trans (R13_arg9 m c)

theorem R13_arg10 : R13 m c (Proc.devRef .tc main_arg10) = (m ((c.tc : Thread nD τ).loc main_arg10)) :=
  (StableHlo.after_of_writes_sub ops12 (R12 m c) ops12_writes (by decide) : R13 m c (Proc.devRef .tc main_arg10) = R12 m c (Proc.devRef .tc main_arg10)).trans (R12_arg10 m c)

theorem R14_arg10 : R14 m c (Proc.devRef .tc main_arg10) = (m ((c.tc : Thread nD τ).loc main_arg10)) :=
  (StableHlo.after_of_writes_sub ops13 (R13 m c) ops13_writes (by decide) : R14 m c (Proc.devRef .tc main_arg10) = R13 m c (Proc.devRef .tc main_arg10)).trans (R13_arg10 m c)

theorem R13_arg11 : R13 m c (Proc.devRef .tc main_arg11) = (m ((c.tc : Thread nD τ).loc main_arg11)) :=
  (StableHlo.after_of_writes_sub ops12 (R12 m c) ops12_writes (by decide) : R13 m c (Proc.devRef .tc main_arg11) = R12 m c (Proc.devRef .tc main_arg11)).trans (R12_arg11 m c)

theorem R14_arg11 : R14 m c (Proc.devRef .tc main_arg11) = (m ((c.tc : Thread nD τ).loc main_arg11)) :=
  (StableHlo.after_of_writes_sub ops13 (R13 m c) ops13_writes (by decide) : R14 m c (Proc.devRef .tc main_arg11) = R13 m c (Proc.devRef .tc main_arg11)).trans (R13_arg11 m c)

theorem R4_arg12 : R4 m c (Proc.devRef .tc main_arg12) = (m ((c.tc : Thread nD τ).loc main_arg12)) :=
  (StableHlo.after_of_writes_sub ops3 (R3 m c) ops3_writes (by decide) : R4 m c (Proc.devRef .tc main_arg12) = R3 m c (Proc.devRef .tc main_arg12)).trans (R3_arg12 m c)

theorem R5_arg12 : R5 m c (Proc.devRef .tc main_arg12) = (m ((c.tc : Thread nD τ).loc main_arg12)) :=
  (StableHlo.after_of_writes_sub ops4 (R4 m c) ops4_writes (by decide) : R5 m c (Proc.devRef .tc main_arg12) = R4 m c (Proc.devRef .tc main_arg12)).trans (R4_arg12 m c)

theorem R6_arg12 : R6 m c (Proc.devRef .tc main_arg12) = (m ((c.tc : Thread nD τ).loc main_arg12)) :=
  (StableHlo.after_of_writes_sub ops5 (R5 m c) ops5_writes (by decide) : R6 m c (Proc.devRef .tc main_arg12) = R5 m c (Proc.devRef .tc main_arg12)).trans (R5_arg12 m c)

theorem R7_arg12 : R7 m c (Proc.devRef .tc main_arg12) = (m ((c.tc : Thread nD τ).loc main_arg12)) :=
  (StableHlo.after_of_writes_sub ops6 (R6 m c) ops6_writes (by decide) : R7 m c (Proc.devRef .tc main_arg12) = R6 m c (Proc.devRef .tc main_arg12)).trans (R6_arg12 m c)

theorem R8_arg12 : R8 m c (Proc.devRef .tc main_arg12) = (m ((c.tc : Thread nD τ).loc main_arg12)) :=
  (StableHlo.after_of_writes_sub ops7 (R7 m c) ops7_writes (by decide) : R8 m c (Proc.devRef .tc main_arg12) = R7 m c (Proc.devRef .tc main_arg12)).trans (R7_arg12 m c)

theorem R9_arg12 : R9 m c (Proc.devRef .tc main_arg12) = (m ((c.tc : Thread nD τ).loc main_arg12)) :=
  (StableHlo.after_of_writes_sub ops8 (R8 m c) ops8_writes (by decide) : R9 m c (Proc.devRef .tc main_arg12) = R8 m c (Proc.devRef .tc main_arg12)).trans (R8_arg12 m c)

theorem R10_arg12 : R10 m c (Proc.devRef .tc main_arg12) = (m ((c.tc : Thread nD τ).loc main_arg12)) :=
  (StableHlo.after_of_writes_sub ops9 (R9 m c) ops9_writes (by decide) : R10 m c (Proc.devRef .tc main_arg12) = R9 m c (Proc.devRef .tc main_arg12)).trans (R9_arg12 m c)

theorem R11_arg12 : R11 m c (Proc.devRef .tc main_arg12) = (m ((c.tc : Thread nD τ).loc main_arg12)) :=
  (StableHlo.after_of_writes_sub ops10 (R10 m c) ops10_writes (by decide) : R11 m c (Proc.devRef .tc main_arg12) = R10 m c (Proc.devRef .tc main_arg12)).trans (R10_arg12 m c)

theorem R12_arg12 : R12 m c (Proc.devRef .tc main_arg12) = (m ((c.tc : Thread nD τ).loc main_arg12)) :=
  (StableHlo.after_of_writes_sub ops11 (R11 m c) ops11_writes (by decide) : R12 m c (Proc.devRef .tc main_arg12) = R11 m c (Proc.devRef .tc main_arg12)).trans (R11_arg12 m c)

theorem R13_arg12 : R13 m c (Proc.devRef .tc main_arg12) = (m ((c.tc : Thread nD τ).loc main_arg12)) :=
  (StableHlo.after_of_writes_sub ops12 (R12 m c) ops12_writes (by decide) : R13 m c (Proc.devRef .tc main_arg12) = R12 m c (Proc.devRef .tc main_arg12)).trans (R12_arg12 m c)

theorem R14_arg12 : R14 m c (Proc.devRef .tc main_arg12) = (m ((c.tc : Thread nD τ).loc main_arg12)) :=
  (StableHlo.after_of_writes_sub ops13 (R13 m c) ops13_writes (by decide) : R14 m c (Proc.devRef .tc main_arg12) = R13 m c (Proc.devRef .tc main_arg12)).trans (R13_arg12 m c)

theorem R4_arg13 : R4 m c (Proc.devRef .tc main_arg13) = (m ((c.tc : Thread nD τ).loc main_arg13)) :=
  (StableHlo.after_of_writes_sub ops3 (R3 m c) ops3_writes (by decide) : R4 m c (Proc.devRef .tc main_arg13) = R3 m c (Proc.devRef .tc main_arg13)).trans (R3_arg13 m c)

theorem R5_arg13 : R5 m c (Proc.devRef .tc main_arg13) = (m ((c.tc : Thread nD τ).loc main_arg13)) :=
  (StableHlo.after_of_writes_sub ops4 (R4 m c) ops4_writes (by decide) : R5 m c (Proc.devRef .tc main_arg13) = R4 m c (Proc.devRef .tc main_arg13)).trans (R4_arg13 m c)

theorem R6_arg13 : R6 m c (Proc.devRef .tc main_arg13) = (m ((c.tc : Thread nD τ).loc main_arg13)) :=
  (StableHlo.after_of_writes_sub ops5 (R5 m c) ops5_writes (by decide) : R6 m c (Proc.devRef .tc main_arg13) = R5 m c (Proc.devRef .tc main_arg13)).trans (R5_arg13 m c)

theorem R7_arg13 : R7 m c (Proc.devRef .tc main_arg13) = (m ((c.tc : Thread nD τ).loc main_arg13)) :=
  (StableHlo.after_of_writes_sub ops6 (R6 m c) ops6_writes (by decide) : R7 m c (Proc.devRef .tc main_arg13) = R6 m c (Proc.devRef .tc main_arg13)).trans (R6_arg13 m c)

theorem R8_arg13 : R8 m c (Proc.devRef .tc main_arg13) = (m ((c.tc : Thread nD τ).loc main_arg13)) :=
  (StableHlo.after_of_writes_sub ops7 (R7 m c) ops7_writes (by decide) : R8 m c (Proc.devRef .tc main_arg13) = R7 m c (Proc.devRef .tc main_arg13)).trans (R7_arg13 m c)

theorem R9_arg13 : R9 m c (Proc.devRef .tc main_arg13) = (m ((c.tc : Thread nD τ).loc main_arg13)) :=
  (StableHlo.after_of_writes_sub ops8 (R8 m c) ops8_writes (by decide) : R9 m c (Proc.devRef .tc main_arg13) = R8 m c (Proc.devRef .tc main_arg13)).trans (R8_arg13 m c)

theorem R10_arg13 : R10 m c (Proc.devRef .tc main_arg13) = (m ((c.tc : Thread nD τ).loc main_arg13)) :=
  (StableHlo.after_of_writes_sub ops9 (R9 m c) ops9_writes (by decide) : R10 m c (Proc.devRef .tc main_arg13) = R9 m c (Proc.devRef .tc main_arg13)).trans (R9_arg13 m c)

theorem R11_arg13 : R11 m c (Proc.devRef .tc main_arg13) = (m ((c.tc : Thread nD τ).loc main_arg13)) :=
  (StableHlo.after_of_writes_sub ops10 (R10 m c) ops10_writes (by decide) : R11 m c (Proc.devRef .tc main_arg13) = R10 m c (Proc.devRef .tc main_arg13)).trans (R10_arg13 m c)

theorem R12_arg13 : R12 m c (Proc.devRef .tc main_arg13) = (m ((c.tc : Thread nD τ).loc main_arg13)) :=
  (StableHlo.after_of_writes_sub ops11 (R11 m c) ops11_writes (by decide) : R12 m c (Proc.devRef .tc main_arg13) = R11 m c (Proc.devRef .tc main_arg13)).trans (R11_arg13 m c)

theorem R13_arg13 : R13 m c (Proc.devRef .tc main_arg13) = (m ((c.tc : Thread nD τ).loc main_arg13)) :=
  (StableHlo.after_of_writes_sub ops12 (R12 m c) ops12_writes (by decide) : R13 m c (Proc.devRef .tc main_arg13) = R12 m c (Proc.devRef .tc main_arg13)).trans (R12_arg13 m c)

theorem R14_arg13 : R14 m c (Proc.devRef .tc main_arg13) = (m ((c.tc : Thread nD τ).loc main_arg13)) :=
  (StableHlo.after_of_writes_sub ops13 (R13 m c) ops13_writes (by decide) : R14 m c (Proc.devRef .tc main_arg13) = R13 m c (Proc.devRef .tc main_arg13)).trans (R13_arg13 m c)

theorem R4_arg14 : R4 m c (Proc.devRef .tc main_arg14) = (m ((c.tc : Thread nD τ).loc main_arg14)) :=
  (StableHlo.after_of_writes_sub ops3 (R3 m c) ops3_writes (by decide) : R4 m c (Proc.devRef .tc main_arg14) = R3 m c (Proc.devRef .tc main_arg14)).trans (R3_arg14 m c)

theorem R5_arg14 : R5 m c (Proc.devRef .tc main_arg14) = (m ((c.tc : Thread nD τ).loc main_arg14)) :=
  (StableHlo.after_of_writes_sub ops4 (R4 m c) ops4_writes (by decide) : R5 m c (Proc.devRef .tc main_arg14) = R4 m c (Proc.devRef .tc main_arg14)).trans (R4_arg14 m c)

theorem R6_arg14 : R6 m c (Proc.devRef .tc main_arg14) = (m ((c.tc : Thread nD τ).loc main_arg14)) :=
  (StableHlo.after_of_writes_sub ops5 (R5 m c) ops5_writes (by decide) : R6 m c (Proc.devRef .tc main_arg14) = R5 m c (Proc.devRef .tc main_arg14)).trans (R5_arg14 m c)

theorem R7_arg14 : R7 m c (Proc.devRef .tc main_arg14) = (m ((c.tc : Thread nD τ).loc main_arg14)) :=
  (StableHlo.after_of_writes_sub ops6 (R6 m c) ops6_writes (by decide) : R7 m c (Proc.devRef .tc main_arg14) = R6 m c (Proc.devRef .tc main_arg14)).trans (R6_arg14 m c)

theorem R8_arg14 : R8 m c (Proc.devRef .tc main_arg14) = (m ((c.tc : Thread nD τ).loc main_arg14)) :=
  (StableHlo.after_of_writes_sub ops7 (R7 m c) ops7_writes (by decide) : R8 m c (Proc.devRef .tc main_arg14) = R7 m c (Proc.devRef .tc main_arg14)).trans (R7_arg14 m c)

theorem R9_arg14 : R9 m c (Proc.devRef .tc main_arg14) = (m ((c.tc : Thread nD τ).loc main_arg14)) :=
  (StableHlo.after_of_writes_sub ops8 (R8 m c) ops8_writes (by decide) : R9 m c (Proc.devRef .tc main_arg14) = R8 m c (Proc.devRef .tc main_arg14)).trans (R8_arg14 m c)

theorem R10_arg14 : R10 m c (Proc.devRef .tc main_arg14) = (m ((c.tc : Thread nD τ).loc main_arg14)) :=
  (StableHlo.after_of_writes_sub ops9 (R9 m c) ops9_writes (by decide) : R10 m c (Proc.devRef .tc main_arg14) = R9 m c (Proc.devRef .tc main_arg14)).trans (R9_arg14 m c)

theorem R11_arg14 : R11 m c (Proc.devRef .tc main_arg14) = (m ((c.tc : Thread nD τ).loc main_arg14)) :=
  (StableHlo.after_of_writes_sub ops10 (R10 m c) ops10_writes (by decide) : R11 m c (Proc.devRef .tc main_arg14) = R10 m c (Proc.devRef .tc main_arg14)).trans (R10_arg14 m c)

theorem R12_arg14 : R12 m c (Proc.devRef .tc main_arg14) = (m ((c.tc : Thread nD τ).loc main_arg14)) :=
  (StableHlo.after_of_writes_sub ops11 (R11 m c) ops11_writes (by decide) : R12 m c (Proc.devRef .tc main_arg14) = R11 m c (Proc.devRef .tc main_arg14)).trans (R11_arg14 m c)

theorem R13_arg14 : R13 m c (Proc.devRef .tc main_arg14) = (m ((c.tc : Thread nD τ).loc main_arg14)) :=
  (StableHlo.after_of_writes_sub ops12 (R12 m c) ops12_writes (by decide) : R13 m c (Proc.devRef .tc main_arg14) = R12 m c (Proc.devRef .tc main_arg14)).trans (R12_arg14 m c)

theorem R14_arg14 : R14 m c (Proc.devRef .tc main_arg14) = (m ((c.tc : Thread nD τ).loc main_arg14)) :=
  (StableHlo.after_of_writes_sub ops13 (R13 m c) ops13_writes (by decide) : R14 m c (Proc.devRef .tc main_arg14) = R13 m c (Proc.devRef .tc main_arg14)).trans (R13_arg14 m c)

theorem R6_arg15 : R6 m c (Proc.devRef .tc main_arg15) = (m ((c.tc : Thread nD τ).loc main_arg15)) :=
  (StableHlo.after_of_writes_sub ops5 (R5 m c) ops5_writes (by decide) : R6 m c (Proc.devRef .tc main_arg15) = R5 m c (Proc.devRef .tc main_arg15)).trans (R5_arg15 m c)

theorem R7_arg15 : R7 m c (Proc.devRef .tc main_arg15) = (m ((c.tc : Thread nD τ).loc main_arg15)) :=
  (StableHlo.after_of_writes_sub ops6 (R6 m c) ops6_writes (by decide) : R7 m c (Proc.devRef .tc main_arg15) = R6 m c (Proc.devRef .tc main_arg15)).trans (R6_arg15 m c)

theorem R8_arg15 : R8 m c (Proc.devRef .tc main_arg15) = (m ((c.tc : Thread nD τ).loc main_arg15)) :=
  (StableHlo.after_of_writes_sub ops7 (R7 m c) ops7_writes (by decide) : R8 m c (Proc.devRef .tc main_arg15) = R7 m c (Proc.devRef .tc main_arg15)).trans (R7_arg15 m c)

theorem R9_arg15 : R9 m c (Proc.devRef .tc main_arg15) = (m ((c.tc : Thread nD τ).loc main_arg15)) :=
  (StableHlo.after_of_writes_sub ops8 (R8 m c) ops8_writes (by decide) : R9 m c (Proc.devRef .tc main_arg15) = R8 m c (Proc.devRef .tc main_arg15)).trans (R8_arg15 m c)

theorem R10_arg15 : R10 m c (Proc.devRef .tc main_arg15) = (m ((c.tc : Thread nD τ).loc main_arg15)) :=
  (StableHlo.after_of_writes_sub ops9 (R9 m c) ops9_writes (by decide) : R10 m c (Proc.devRef .tc main_arg15) = R9 m c (Proc.devRef .tc main_arg15)).trans (R9_arg15 m c)

theorem R11_arg15 : R11 m c (Proc.devRef .tc main_arg15) = (m ((c.tc : Thread nD τ).loc main_arg15)) :=
  (StableHlo.after_of_writes_sub ops10 (R10 m c) ops10_writes (by decide) : R11 m c (Proc.devRef .tc main_arg15) = R10 m c (Proc.devRef .tc main_arg15)).trans (R10_arg15 m c)

theorem R12_arg15 : R12 m c (Proc.devRef .tc main_arg15) = (m ((c.tc : Thread nD τ).loc main_arg15)) :=
  (StableHlo.after_of_writes_sub ops11 (R11 m c) ops11_writes (by decide) : R12 m c (Proc.devRef .tc main_arg15) = R11 m c (Proc.devRef .tc main_arg15)).trans (R11_arg15 m c)

theorem R13_arg15 : R13 m c (Proc.devRef .tc main_arg15) = (m ((c.tc : Thread nD τ).loc main_arg15)) :=
  (StableHlo.after_of_writes_sub ops12 (R12 m c) ops12_writes (by decide) : R13 m c (Proc.devRef .tc main_arg15) = R12 m c (Proc.devRef .tc main_arg15)).trans (R12_arg15 m c)

theorem R14_arg15 : R14 m c (Proc.devRef .tc main_arg15) = (m ((c.tc : Thread nD τ).loc main_arg15)) :=
  (StableHlo.after_of_writes_sub ops13 (R13 m c) ops13_writes (by decide) : R14 m c (Proc.devRef .tc main_arg15) = R13 m c (Proc.devRef .tc main_arg15)).trans (R13_arg15 m c)

theorem R6_arg16 : R6 m c (Proc.devRef .tc main_arg16) = (m ((c.tc : Thread nD τ).loc main_arg16)) :=
  (StableHlo.after_of_writes_sub ops5 (R5 m c) ops5_writes (by decide) : R6 m c (Proc.devRef .tc main_arg16) = R5 m c (Proc.devRef .tc main_arg16)).trans (R5_arg16 m c)

theorem R7_arg16 : R7 m c (Proc.devRef .tc main_arg16) = (m ((c.tc : Thread nD τ).loc main_arg16)) :=
  (StableHlo.after_of_writes_sub ops6 (R6 m c) ops6_writes (by decide) : R7 m c (Proc.devRef .tc main_arg16) = R6 m c (Proc.devRef .tc main_arg16)).trans (R6_arg16 m c)

theorem R8_arg16 : R8 m c (Proc.devRef .tc main_arg16) = (m ((c.tc : Thread nD τ).loc main_arg16)) :=
  (StableHlo.after_of_writes_sub ops7 (R7 m c) ops7_writes (by decide) : R8 m c (Proc.devRef .tc main_arg16) = R7 m c (Proc.devRef .tc main_arg16)).trans (R7_arg16 m c)

theorem R9_arg16 : R9 m c (Proc.devRef .tc main_arg16) = (m ((c.tc : Thread nD τ).loc main_arg16)) :=
  (StableHlo.after_of_writes_sub ops8 (R8 m c) ops8_writes (by decide) : R9 m c (Proc.devRef .tc main_arg16) = R8 m c (Proc.devRef .tc main_arg16)).trans (R8_arg16 m c)

theorem R10_arg16 : R10 m c (Proc.devRef .tc main_arg16) = (m ((c.tc : Thread nD τ).loc main_arg16)) :=
  (StableHlo.after_of_writes_sub ops9 (R9 m c) ops9_writes (by decide) : R10 m c (Proc.devRef .tc main_arg16) = R9 m c (Proc.devRef .tc main_arg16)).trans (R9_arg16 m c)

theorem R11_arg16 : R11 m c (Proc.devRef .tc main_arg16) = (m ((c.tc : Thread nD τ).loc main_arg16)) :=
  (StableHlo.after_of_writes_sub ops10 (R10 m c) ops10_writes (by decide) : R11 m c (Proc.devRef .tc main_arg16) = R10 m c (Proc.devRef .tc main_arg16)).trans (R10_arg16 m c)

theorem R12_arg16 : R12 m c (Proc.devRef .tc main_arg16) = (m ((c.tc : Thread nD τ).loc main_arg16)) :=
  (StableHlo.after_of_writes_sub ops11 (R11 m c) ops11_writes (by decide) : R12 m c (Proc.devRef .tc main_arg16) = R11 m c (Proc.devRef .tc main_arg16)).trans (R11_arg16 m c)

theorem R13_arg16 : R13 m c (Proc.devRef .tc main_arg16) = (m ((c.tc : Thread nD τ).loc main_arg16)) :=
  (StableHlo.after_of_writes_sub ops12 (R12 m c) ops12_writes (by decide) : R13 m c (Proc.devRef .tc main_arg16) = R12 m c (Proc.devRef .tc main_arg16)).trans (R12_arg16 m c)

theorem R14_arg16 : R14 m c (Proc.devRef .tc main_arg16) = (m ((c.tc : Thread nD τ).loc main_arg16)) :=
  (StableHlo.after_of_writes_sub ops13 (R13 m c) ops13_writes (by decide) : R14 m c (Proc.devRef .tc main_arg16) = R13 m c (Proc.devRef .tc main_arg16)).trans (R13_arg16 m c)

theorem R6_arg17 : R6 m c (Proc.devRef .tc main_arg17) = (m ((c.tc : Thread nD τ).loc main_arg17)) :=
  (StableHlo.after_of_writes_sub ops5 (R5 m c) ops5_writes (by decide) : R6 m c (Proc.devRef .tc main_arg17) = R5 m c (Proc.devRef .tc main_arg17)).trans (R5_arg17 m c)

theorem R7_arg17 : R7 m c (Proc.devRef .tc main_arg17) = (m ((c.tc : Thread nD τ).loc main_arg17)) :=
  (StableHlo.after_of_writes_sub ops6 (R6 m c) ops6_writes (by decide) : R7 m c (Proc.devRef .tc main_arg17) = R6 m c (Proc.devRef .tc main_arg17)).trans (R6_arg17 m c)

theorem R8_arg17 : R8 m c (Proc.devRef .tc main_arg17) = (m ((c.tc : Thread nD τ).loc main_arg17)) :=
  (StableHlo.after_of_writes_sub ops7 (R7 m c) ops7_writes (by decide) : R8 m c (Proc.devRef .tc main_arg17) = R7 m c (Proc.devRef .tc main_arg17)).trans (R7_arg17 m c)

theorem R9_arg17 : R9 m c (Proc.devRef .tc main_arg17) = (m ((c.tc : Thread nD τ).loc main_arg17)) :=
  (StableHlo.after_of_writes_sub ops8 (R8 m c) ops8_writes (by decide) : R9 m c (Proc.devRef .tc main_arg17) = R8 m c (Proc.devRef .tc main_arg17)).trans (R8_arg17 m c)

theorem R10_arg17 : R10 m c (Proc.devRef .tc main_arg17) = (m ((c.tc : Thread nD τ).loc main_arg17)) :=
  (StableHlo.after_of_writes_sub ops9 (R9 m c) ops9_writes (by decide) : R10 m c (Proc.devRef .tc main_arg17) = R9 m c (Proc.devRef .tc main_arg17)).trans (R9_arg17 m c)

theorem R11_arg17 : R11 m c (Proc.devRef .tc main_arg17) = (m ((c.tc : Thread nD τ).loc main_arg17)) :=
  (StableHlo.after_of_writes_sub ops10 (R10 m c) ops10_writes (by decide) : R11 m c (Proc.devRef .tc main_arg17) = R10 m c (Proc.devRef .tc main_arg17)).trans (R10_arg17 m c)

theorem R12_arg17 : R12 m c (Proc.devRef .tc main_arg17) = (m ((c.tc : Thread nD τ).loc main_arg17)) :=
  (StableHlo.after_of_writes_sub ops11 (R11 m c) ops11_writes (by decide) : R12 m c (Proc.devRef .tc main_arg17) = R11 m c (Proc.devRef .tc main_arg17)).trans (R11_arg17 m c)

theorem R13_arg17 : R13 m c (Proc.devRef .tc main_arg17) = (m ((c.tc : Thread nD τ).loc main_arg17)) :=
  (StableHlo.after_of_writes_sub ops12 (R12 m c) ops12_writes (by decide) : R13 m c (Proc.devRef .tc main_arg17) = R12 m c (Proc.devRef .tc main_arg17)).trans (R12_arg17 m c)

theorem R14_arg17 : R14 m c (Proc.devRef .tc main_arg17) = (m ((c.tc : Thread nD τ).loc main_arg17)) :=
  (StableHlo.after_of_writes_sub ops13 (R13 m c) ops13_writes (by decide) : R14 m c (Proc.devRef .tc main_arg17) = R13 m c (Proc.devRef .tc main_arg17)).trans (R13_arg17 m c)

theorem R10_arg18 : R10 m c (Proc.devRef .tc main_arg18) = (m ((c.tc : Thread nD τ).loc main_arg18)) :=
  (StableHlo.after_of_writes_sub ops9 (R9 m c) ops9_writes (by decide) : R10 m c (Proc.devRef .tc main_arg18) = R9 m c (Proc.devRef .tc main_arg18)).trans (R9_arg18 m c)

theorem R11_arg18 : R11 m c (Proc.devRef .tc main_arg18) = (m ((c.tc : Thread nD τ).loc main_arg18)) :=
  (StableHlo.after_of_writes_sub ops10 (R10 m c) ops10_writes (by decide) : R11 m c (Proc.devRef .tc main_arg18) = R10 m c (Proc.devRef .tc main_arg18)).trans (R10_arg18 m c)

theorem R12_arg18 : R12 m c (Proc.devRef .tc main_arg18) = (m ((c.tc : Thread nD τ).loc main_arg18)) :=
  (StableHlo.after_of_writes_sub ops11 (R11 m c) ops11_writes (by decide) : R12 m c (Proc.devRef .tc main_arg18) = R11 m c (Proc.devRef .tc main_arg18)).trans (R11_arg18 m c)

theorem R13_arg18 : R13 m c (Proc.devRef .tc main_arg18) = (m ((c.tc : Thread nD τ).loc main_arg18)) :=
  (StableHlo.after_of_writes_sub ops12 (R12 m c) ops12_writes (by decide) : R13 m c (Proc.devRef .tc main_arg18) = R12 m c (Proc.devRef .tc main_arg18)).trans (R12_arg18 m c)

theorem R14_arg18 : R14 m c (Proc.devRef .tc main_arg18) = (m ((c.tc : Thread nD τ).loc main_arg18)) :=
  (StableHlo.after_of_writes_sub ops13 (R13 m c) ops13_writes (by decide) : R14 m c (Proc.devRef .tc main_arg18) = R13 m c (Proc.devRef .tc main_arg18)).trans (R13_arg18 m c)

theorem R10_arg19 : R10 m c (Proc.devRef .tc main_arg19) = (m ((c.tc : Thread nD τ).loc main_arg19)) :=
  (StableHlo.after_of_writes_sub ops9 (R9 m c) ops9_writes (by decide) : R10 m c (Proc.devRef .tc main_arg19) = R9 m c (Proc.devRef .tc main_arg19)).trans (R9_arg19 m c)

theorem R11_arg19 : R11 m c (Proc.devRef .tc main_arg19) = (m ((c.tc : Thread nD τ).loc main_arg19)) :=
  (StableHlo.after_of_writes_sub ops10 (R10 m c) ops10_writes (by decide) : R11 m c (Proc.devRef .tc main_arg19) = R10 m c (Proc.devRef .tc main_arg19)).trans (R10_arg19 m c)

theorem R12_arg19 : R12 m c (Proc.devRef .tc main_arg19) = (m ((c.tc : Thread nD τ).loc main_arg19)) :=
  (StableHlo.after_of_writes_sub ops11 (R11 m c) ops11_writes (by decide) : R12 m c (Proc.devRef .tc main_arg19) = R11 m c (Proc.devRef .tc main_arg19)).trans (R11_arg19 m c)

theorem R13_arg19 : R13 m c (Proc.devRef .tc main_arg19) = (m ((c.tc : Thread nD τ).loc main_arg19)) :=
  (StableHlo.after_of_writes_sub ops12 (R12 m c) ops12_writes (by decide) : R13 m c (Proc.devRef .tc main_arg19) = R12 m c (Proc.devRef .tc main_arg19)).trans (R12_arg19 m c)

theorem R14_arg19 : R14 m c (Proc.devRef .tc main_arg19) = (m ((c.tc : Thread nD τ).loc main_arg19)) :=
  (StableHlo.after_of_writes_sub ops13 (R13 m c) ops13_writes (by decide) : R14 m c (Proc.devRef .tc main_arg19) = R13 m c (Proc.devRef .tc main_arg19)).trans (R13_arg19 m c)

theorem R10_arg20 : R10 m c (Proc.devRef .tc main_arg20) = (m ((c.tc : Thread nD τ).loc main_arg20)) :=
  (StableHlo.after_of_writes_sub ops9 (R9 m c) ops9_writes (by decide) : R10 m c (Proc.devRef .tc main_arg20) = R9 m c (Proc.devRef .tc main_arg20)).trans (R9_arg20 m c)

theorem R11_arg20 : R11 m c (Proc.devRef .tc main_arg20) = (m ((c.tc : Thread nD τ).loc main_arg20)) :=
  (StableHlo.after_of_writes_sub ops10 (R10 m c) ops10_writes (by decide) : R11 m c (Proc.devRef .tc main_arg20) = R10 m c (Proc.devRef .tc main_arg20)).trans (R10_arg20 m c)

theorem R12_arg20 : R12 m c (Proc.devRef .tc main_arg20) = (m ((c.tc : Thread nD τ).loc main_arg20)) :=
  (StableHlo.after_of_writes_sub ops11 (R11 m c) ops11_writes (by decide) : R12 m c (Proc.devRef .tc main_arg20) = R11 m c (Proc.devRef .tc main_arg20)).trans (R11_arg20 m c)

theorem R13_arg20 : R13 m c (Proc.devRef .tc main_arg20) = (m ((c.tc : Thread nD τ).loc main_arg20)) :=
  (StableHlo.after_of_writes_sub ops12 (R12 m c) ops12_writes (by decide) : R13 m c (Proc.devRef .tc main_arg20) = R12 m c (Proc.devRef .tc main_arg20)).trans (R12_arg20 m c)

theorem R14_arg20 : R14 m c (Proc.devRef .tc main_arg20) = (m ((c.tc : Thread nD τ).loc main_arg20)) :=
  (StableHlo.after_of_writes_sub ops13 (R13 m c) ops13_writes (by decide) : R14 m c (Proc.devRef .tc main_arg20) = R13 m c (Proc.devRef .tc main_arg20)).trans (R13_arg20 m c)

theorem R12_arg21 : R12 m c (Proc.devRef .tc main_arg21) = (m ((c.tc : Thread nD τ).loc main_arg21)) :=
  (StableHlo.after_of_writes_sub ops11 (R11 m c) ops11_writes (by decide) : R12 m c (Proc.devRef .tc main_arg21) = R11 m c (Proc.devRef .tc main_arg21)).trans (R11_arg21 m c)

theorem R13_arg21 : R13 m c (Proc.devRef .tc main_arg21) = (m ((c.tc : Thread nD τ).loc main_arg21)) :=
  (StableHlo.after_of_writes_sub ops12 (R12 m c) ops12_writes (by decide) : R13 m c (Proc.devRef .tc main_arg21) = R12 m c (Proc.devRef .tc main_arg21)).trans (R12_arg21 m c)

theorem R14_arg21 : R14 m c (Proc.devRef .tc main_arg21) = (m ((c.tc : Thread nD τ).loc main_arg21)) :=
  (StableHlo.after_of_writes_sub ops13 (R13 m c) ops13_writes (by decide) : R14 m c (Proc.devRef .tc main_arg21) = R13 m c (Proc.devRef .tc main_arg21)).trans (R13_arg21 m c)

theorem R12_arg22 : R12 m c (Proc.devRef .tc main_arg22) = (m ((c.tc : Thread nD τ).loc main_arg22)) :=
  (StableHlo.after_of_writes_sub ops11 (R11 m c) ops11_writes (by decide) : R12 m c (Proc.devRef .tc main_arg22) = R11 m c (Proc.devRef .tc main_arg22)).trans (R11_arg22 m c)

theorem R13_arg22 : R13 m c (Proc.devRef .tc main_arg22) = (m ((c.tc : Thread nD τ).loc main_arg22)) :=
  (StableHlo.after_of_writes_sub ops12 (R12 m c) ops12_writes (by decide) : R13 m c (Proc.devRef .tc main_arg22) = R12 m c (Proc.devRef .tc main_arg22)).trans (R12_arg22 m c)

theorem R14_arg22 : R14 m c (Proc.devRef .tc main_arg22) = (m ((c.tc : Thread nD τ).loc main_arg22)) :=
  (StableHlo.after_of_writes_sub ops13 (R13 m c) ops13_writes (by decide) : R14 m c (Proc.devRef .tc main_arg22) = R13 m c (Proc.devRef .tc main_arg22)).trans (R13_arg22 m c)

theorem R12_arg23 : R12 m c (Proc.devRef .tc main_arg23) = (m ((c.tc : Thread nD τ).loc main_arg23)) :=
  (StableHlo.after_of_writes_sub ops11 (R11 m c) ops11_writes (by decide) : R12 m c (Proc.devRef .tc main_arg23) = R11 m c (Proc.devRef .tc main_arg23)).trans (R11_arg23 m c)

theorem R13_arg23 : R13 m c (Proc.devRef .tc main_arg23) = (m ((c.tc : Thread nD τ).loc main_arg23)) :=
  (StableHlo.after_of_writes_sub ops12 (R12 m c) ops12_writes (by decide) : R13 m c (Proc.devRef .tc main_arg23) = R12 m c (Proc.devRef .tc main_arg23)).trans (R12_arg23 m c)

theorem R14_arg23 : R14 m c (Proc.devRef .tc main_arg23) = (m ((c.tc : Thread nD τ).loc main_arg23)) :=
  (StableHlo.after_of_writes_sub ops13 (R13 m c) ops13_writes (by decide) : R14 m c (Proc.devRef .tc main_arg23) = R13 m c (Proc.devRef .tc main_arg23)).trans (R13_arg23 m c)

/-! ## The run -/

/-- Every weakly fair execution of the reference terminates, its result at the stacked second-layer features and its
    arguments as launched. -/
theorem run : θ_run defs (onTc (τ := τ) (main (F := Ideal))) ⟨m, fun _ => 0, ρ⟩ fun r => ∀ c : Dev nD,
      r.2.mem ((c.tc : Thread nD τ).loc main_v236) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v236).trans ((congrFun (after_ops m c) _).trans (R14_v236 m c)),
      (h c main_arg0).trans ((congrFun (after_ops m c) _).trans (R14_arg0 m c)),
      (h c main_arg1).trans ((congrFun (after_ops m c) _).trans (R14_arg1 m c)),
      (h c main_arg2).trans ((congrFun (after_ops m c) _).trans (R14_arg2 m c)),
      (h c main_arg3).trans ((congrFun (after_ops m c) _).trans (R14_arg3 m c)),
      (h c main_arg4).trans ((congrFun (after_ops m c) _).trans (R14_arg4 m c)),
      (h c main_arg5).trans ((congrFun (after_ops m c) _).trans (R14_arg5 m c)),
      (h c main_arg6).trans ((congrFun (after_ops m c) _).trans (R14_arg6 m c)),
      (h c main_arg7).trans ((congrFun (after_ops m c) _).trans (R14_arg7 m c)),
      (h c main_arg8).trans ((congrFun (after_ops m c) _).trans (R14_arg8 m c)),
      (h c main_arg9).trans ((congrFun (after_ops m c) _).trans (R14_arg9 m c)),
      (h c main_arg10).trans ((congrFun (after_ops m c) _).trans (R14_arg10 m c)),
      (h c main_arg11).trans ((congrFun (after_ops m c) _).trans (R14_arg11 m c)),
      (h c main_arg12).trans ((congrFun (after_ops m c) _).trans (R14_arg12 m c)),
      (h c main_arg13).trans ((congrFun (after_ops m c) _).trans (R14_arg13 m c)),
      (h c main_arg14).trans ((congrFun (after_ops m c) _).trans (R14_arg14 m c)),
      (h c main_arg15).trans ((congrFun (after_ops m c) _).trans (R14_arg15 m c)),
      (h c main_arg16).trans ((congrFun (after_ops m c) _).trans (R14_arg16 m c)),
      (h c main_arg17).trans ((congrFun (after_ops m c) _).trans (R14_arg17 m c)),
      (h c main_arg18).trans ((congrFun (after_ops m c) _).trans (R14_arg18 m c)),
      (h c main_arg19).trans ((congrFun (after_ops m c) _).trans (R14_arg19 m c)),
      (h c main_arg20).trans ((congrFun (after_ops m c) _).trans (R14_arg20 m c)),
      (h c main_arg21).trans ((congrFun (after_ops m c) _).trans (R14_arg21 m c)),
      (h c main_arg22).trans ((congrFun (after_ops m c) _).trans (R14_arg22 m c)),
      (h c main_arg23).trans ((congrFun (after_ops m c) _).trans (R14_arg23 m c))⟩)
    (run_seq scopedRefs_eq scopedSems_eq defs main (fun _ => ops) main_eq (fun _ => ops_sub) m ρ)

end Cert.ReferenceIdeal.RefValue

end
-- ==== Proof.lean ====
/-
  Two layers of mean-aggregating graph convolution over a bipartite graph, with residual and layer normalization: the
  tiled kernel program and the plain reference compute the same function of their arguments on the extended reals.

  Both programs project the users' and the items' features (relu (x · wᵀ + b)), and then twice: average, for every node, the
  other side's features over its incoming edges; form the residual x + ((agg · wlᵀ + bl) + x · wrᵀ); normalize every
  row (mean, variance, reciprocal square root, scale g, shift β); apply relu after the first layer only; finally stack the
  two sides.  The kernel program does the projections and the layers in calls that walk over blocks of 2000 rows, and the
  averaging by host operations between the calls; the reference does everything by host operations on whole arrays.

  Why they agree: a row of a projection or of a layer depends on ONE row of the row-indexed operands, so a block of rows
  computes exactly the whole array's rows (Spec, KBody, Region0 … Region5); the matrix product into a zero accumulator and
  the host's product are the same sum over the contracted index, a lane sum and the host's row sum from zero the same sum,
  a format change the identity; a bias vector reshaped to a [1, 128] row and repeated over the rows is the vector spread over
  the rows (RefStages); the averaging over the edges is the same chain of operations in both programs and is never opened.
  So both results are one function `outK` of the arguments (KValue, RefRun).  No algebraic law is needed beyond these
  readings, and the finiteness of the inputs is not used.

  The first three claims: each program terminates without a fault with its arguments unchanged; for the two kernel programs
  this is the generated frame, for the reference its run with the result dropped.  The idealization rewrote no operation,
  so the fourth claim is trivial.
-/
import proofs.«113096_j6545530159457_1_alg».proof.Defs
import proofs.«113096_j6545530159457_1_alg».proof.Proof.Gen.Kernel
import proofs.«113096_j6545530159457_1_alg».proof.Proof.Gen.Kernel.Frame
import proofs.«113096_j6545530159457_1_alg».proof.Proof.Gen.KernelIdeal
import proofs.«113096_j6545530159457_1_alg».proof.Proof.Gen.KernelIdeal.Frame
import proofs.«113096_j6545530159457_1_alg».proof.Proof.Gen.ReferenceIdeal
import proofs.«113096_j6545530159457_1_alg».proof.Proof.Gen.Pre_finite_inputs
import proofs.«113096_j6545530159457_1_alg».proof.Proof.KernelRun
import proofs.«113096_j6545530159457_1_alg».proof.Proof.KValue
import proofs.«113096_j6545530159457_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- From memories agreeing on the arguments, the reference's result is the kernel's: stage by stage the two are the same
    functions of the same arrays, and the edge mean and the final stacking are the same operations in both programs. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.RefValue.outR m' c = Cert.KernelIdeal.KValue.outK m c := by
  obtain ⟨h0, h1, h2, h3, h4, h5, h6, h7, h8, h9, h10, h11, h12, h13, h14, h15, h16, h17, h18, h19, h20, h21, h22, h23⟩ := h
  unfold Cert.ReferenceIdeal.RefValue.outR Cert.ReferenceIdeal.RefValue.hu2 Cert.ReferenceIdeal.RefValue.hi2
    Cert.ReferenceIdeal.RefValue.hu1 Cert.ReferenceIdeal.RefValue.hi1 Cert.ReferenceIdeal.RefValue.hu0 Cert.ReferenceIdeal.RefValue.hi0
  rw [h0, h1, h2, h3, h4, h5, h6, h7, h8, h9, h10, h11, h12, h13, h14, h15, h16, h17, h18, h19, h20, h21, h22, h23]
  rfl

theorem algebraic : Cert.algebraic_KernelIdeal_ReferenceIdeal := by
  intro m ρ m' ρ' _ hagree
  refine ⟨fun c => Cert.KernelIdeal.KValue.outK m c, ?_, ?_⟩
  · exact (θ_run Cert.KernelIdeal.defs _ _).mono (fun r h c =>
      ⟨(h c _ (Cert.KernelIdeal.Gen.mem_uc Cert.KernelIdeal.main_v110 (by decide))).trans (Cert.KernelIdeal.KValue.W13_v110 m ρ c),
       (h c _ (Cert.KernelIdeal.Gen.mem_uc Cert.KernelIdeal.main_arg0 (by decide))).trans (Cert.KernelIdeal.Gen.W13_main_arg0 m ρ c),
       (h c _ (Cert.KernelIdeal.Gen.mem_uc Cert.KernelIdeal.main_arg1 (by decide))).trans (Cert.KernelIdeal.Gen.W13_main_arg1 m ρ c),
       (h c _ (Cert.KernelIdeal.Gen.mem_uc Cert.KernelIdeal.main_arg2 (by decide))).trans (Cert.KernelIdeal.Gen.W13_main_arg2 m ρ c),
       (h c _ (Cert.KernelIdeal.Gen.mem_uc Cert.KernelIdeal.main_arg3 (by decide))).trans (Cert.KernelIdeal.Gen.W13_main_arg3 m ρ c),
       (h c _ (Cert.KernelIdeal.Gen.mem_uc Cert.KernelIdeal.main_arg4 (by decide))).trans (Cert.KernelIdeal.Gen.W13_main_arg4 m ρ c),
       (h c _ (Cert.KernelIdeal.Gen.mem_uc Cert.KernelIdeal.main_arg5 (by decide))).trans (Cert.KernelIdeal.Gen.W13_main_arg5 m ρ c),
       (h c _ (Cert.KernelIdeal.Gen.mem_uc Cert.KernelIdeal.main_arg6 (by decide))).trans (Cert.KernelIdeal.Gen.W13_main_arg6 m ρ c),
       (h c _ (Cert.KernelIdeal.Gen.mem_uc Cert.KernelIdeal.main_arg7 (by decide))).trans (Cert.KernelIdeal.Gen.W13_main_arg7 m ρ c),
       (h c _ (Cert.KernelIdeal.Gen.mem_uc Cert.KernelIdeal.main_arg8 (by decide))).trans (Cert.KernelIdeal.Gen.W13_main_arg8 m ρ c),
       (h c _ (Cert.KernelIdeal.Gen.mem_uc Cert.KernelIdeal.main_arg9 (by decide))).trans (Cert.KernelIdeal.Gen.W13_main_arg9 m ρ c),
       (h c _ (Cert.KernelIdeal.Gen.mem_uc Cert.KernelIdeal.main_arg10 (by decide))).trans (Cert.KernelIdeal.Gen.W13_main_arg10 m ρ c),
       (h c _ (Cert.KernelIdeal.Gen.mem_uc Cert.KernelIdeal.main_arg11 (by decide))).trans (Cert.KernelIdeal.Gen.W13_main_arg11 m ρ c),
       (h c _ (Cert.KernelIdeal.Gen.mem_uc Cert.KernelIdeal.main_arg12 (by decide))).trans (Cert.KernelIdeal.Gen.W13_main_arg12 m ρ c),
       (h c _ (Cert.KernelIdeal.Gen.mem_uc Cert.KernelIdeal.main_arg13 (by decide))).trans (Cert.KernelIdeal.Gen.W13_main_arg13 m ρ c),
       (h c _ (Cert.KernelIdeal.Gen.mem_uc Cert.KernelIdeal.main_arg14 (by decide))).trans (Cert.KernelIdeal.Gen.W13_main_arg14 m ρ c),
       (h c _ (Cert.KernelIdeal.Gen.mem_uc Cert.KernelIdeal.main_arg15 (by decide))).trans (Cert.KernelIdeal.Gen.W13_main_arg15 m ρ c),
       (h c _ (Cert.KernelIdeal.Gen.mem_uc Cert.KernelIdeal.main_arg16 (by decide))).trans (Cert.KernelIdeal.Gen.W13_main_arg16 m ρ c),
       (h c _ (Cert.KernelIdeal.Gen.mem_uc Cert.KernelIdeal.main_arg17 (by decide))).trans (Cert.KernelIdeal.Gen.W13_main_arg17 m ρ c),
       (h c _ (Cert.KernelIdeal.Gen.mem_uc Cert.KernelIdeal.main_arg18 (by decide))).trans (Cert.KernelIdeal.Gen.W13_main_arg18 m ρ c),
       (h c _ (Cert.KernelIdeal.Gen.mem_uc Cert.KernelIdeal.main_arg19 (by decide))).trans (Cert.KernelIdeal.Gen.W13_main_arg19 m ρ c),
       (h c _ (Cert.KernelIdeal.Gen.mem_uc Cert.KernelIdeal.main_arg20 (by decide))).trans (Cert.KernelIdeal.Gen.W13_main_arg20 m ρ c),
       (h c _ (Cert.KernelIdeal.Gen.mem_uc Cert.KernelIdeal.main_arg21 (by decide))).trans (Cert.KernelIdeal.Gen.W13_main_arg21 m ρ c),
       (h c _ (Cert.KernelIdeal.Gen.mem_uc Cert.KernelIdeal.main_arg22 (by decide))).trans (Cert.KernelIdeal.Gen.W13_main_arg22 m ρ c),
       (h c _ (Cert.KernelIdeal.Gen.mem_uc Cert.KernelIdeal.main_arg23 (by decide))).trans (Cert.KernelIdeal.Gen.W13_main_arg23 m ρ c)⟩)
      (Cert.KernelIdeal.Run.run_all m ρ)
  · exact (θ_run Cert.ReferenceIdeal.defs _ _).mono (fun r h c => ⟨(h c).1.trans (out_eq m m' c (hagree c)), (h c).2⟩)
      (Cert.ReferenceIdeal.RefValue.run m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
